-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512x64x16 : Shape := ⟨3, ![512, 64, 16]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S512x64x16 : S_.BroadcastsInDim S512x64x16 (![] : Fin 0 → Fin S512x64x16.rank)
  reducesTo_S512x64x16_S_d0_1_2 : S512x64x16.ReducesTo [0, 1, 2] S_

variable [Facts]

def fn {F : FTy → Type} [FloatOps F] (main_arg0 : FVec F S512x512 .f32) (main_arg1 : FVec F S512x64x16 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x64x16 .f32 := Host.absf main_arg1
  let main_cst_0 : FVec F S_ .f32 := constant S_ .f32 0x7F800000#32
  let main_v5 : FVec F S512x64x16 .f32 := broadcastInDim S512x64x16 ![] bcast_S_S512x64x16 main_cst_0
  let main_v6 : IVec S512x64x16 1 := cmpf .olt main_v4 main_v5
  let main_c_1 : IVec S_ 1 := constantI S_ 1 1#1
  let main_v7 : IVec S_ 1 := (fun x v => Host.reduce IntOp.andi x v reducesTo_S512x64x16_S_d0_1_2 h_S_) main_v6 main_c_1
  let main_v8 : IVec S_ 1 := andi main_v3 main_v7
  main_v8
-- ==== Kernel.lean ====
abbrev S512x512 : Shape := ⟨2, ![512, 512]⟩
abbrev S512x64x16 : Shape := ⟨3, ![512, 64, 16]⟩
abbrev S512x1024 : Shape := ⟨2, ![512, 1024]⟩
abbrev S256x512 : Shape := ⟨2, ![256, 512]⟩
abbrev S256x1024 : Shape := ⟨2, ![256, 1024]⟩
abbrev S512x64 : Shape := ⟨2, ![512, 64]⟩
abbrev S128x64x16 : Shape := ⟨3, ![128, 64, 16]⟩
abbrev S128x64 : Shape := ⟨2, ![128, 64]⟩
abbrev S128x8x16 : Shape := ⟨3, ![128, 8, 16]⟩
abbrev S128x1x8x16 : Shape := ⟨4, ![128, 1, 8, 16]⟩
abbrev S1x128x8x16 : Shape := ⟨4, ![1, 128, 8, 16]⟩
abbrev S128x128x8x16 : Shape := ⟨4, ![128, 128, 8, 16]⟩
abbrev S128x128x8 : Shape := ⟨3, ![128, 128, 8]⟩
abbrev S128x8 : Shape := ⟨2, ![128, 8]⟩
abbrev S_ : Shape := ⟨0, ![]⟩
abbrev S512 : Shape := ⟨1, ![512]⟩
abbrev S1x512 : Shape := ⟨2, ![1, 512]⟩
abbrev S1 : Shape := ⟨1, ![1]⟩
abbrev S1x1 : Shape := ⟨2, ![1, 1]⟩
abbrev S512x1 : Shape := ⟨2, ![512, 1]⟩
abbrev S512x577 : Shape := ⟨2, ![512, 577]⟩

abbrev nBuf : Space → Nat
  | .hbm => 39
  | .vmem => 12
  | .smem => 0
  | _ => 0

abbrev bufTy : (tb : Table) → Fin (tcTables nBuf tb) → BufTy
  | .hbm, ⟨0, _⟩ => ⟨S512x512, .f32⟩
  | .hbm, ⟨1, _⟩ => ⟨S512x64x16, .f32⟩
  | .hbm, ⟨2, _⟩ => ⟨S512x1024, .f32⟩
  | .hbm, ⟨3, _⟩ => ⟨S512x1024, .f32⟩
  | .hbm, ⟨4, _⟩ => ⟨S512x64x16, .f32⟩
  | .hbm, ⟨5, _⟩ => ⟨S512x64, .f32⟩
  | .hbm, ⟨6, _⟩ => ⟨S_, .i32⟩
  | .hbm, ⟨7, _⟩ => ⟨S_, .f32⟩
  | .hbm, ⟨8, _⟩ => ⟨S512, .f32⟩
  | .hbm, ⟨9, _⟩ => ⟨S1x512, .f32⟩
  | .hbm, ⟨10, _⟩ => ⟨S_, .f32⟩
  | .hbm, ⟨11, _⟩ => ⟨S1x512, .f32⟩
  | .hbm, ⟨12, _⟩ => ⟨S1x512, .f32⟩
  | .hbm, ⟨13, _⟩ => ⟨S512x512, .f32⟩
  | .hbm, ⟨14, _⟩ => ⟨S512x512, .f32⟩
  | .hbm, ⟨15, _⟩ => ⟨S512x512, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S512, .f32⟩
  | .hbm, ⟨21, _⟩ => ⟨S1x512, .f32⟩
  | .hbm, ⟨22, _⟩ => ⟨S1x512, .f32⟩
  | .hbm, ⟨23, _⟩ => ⟨S1x512, .f32⟩
  | .hbm, ⟨24, _⟩ => ⟨S_, .f32⟩
  | .hbm, ⟨25, _⟩ => ⟨S_, .i1⟩
  | .hbm, ⟨26, _⟩ => ⟨S_, .f32⟩
  | .hbm, ⟨27, _⟩ => ⟨S_, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S_, .f32⟩
  | .hbm, ⟨32, _⟩ => ⟨S1, .f32⟩
  | .hbm, ⟨33, _⟩ => ⟨S1x1, .f32⟩
  | .hbm, ⟨34, _⟩ => ⟨S_, .f32⟩
  | .hbm, ⟨35, _⟩ => ⟨S1x1, .f32⟩
  | .hbm, ⟨36, _⟩ => ⟨S1x1, .f32⟩
  | .hbm, ⟨37, _⟩ => ⟨S512x1, .f32⟩
  | .hbm, ⟨38, _⟩ => ⟨S512x577, .f32⟩
  | .local _ .vmem, ⟨0, _⟩ => ⟨S256x512, .f32⟩
  | .local _ .vmem, ⟨1, _⟩ => ⟨S256x512, .f32⟩
  | .local _ .vmem, ⟨2, _⟩ => ⟨S512x1024, .f32⟩
  | .local _ .vmem, ⟨3, _⟩ => ⟨S256x1024, .f32⟩
  | .local _ .vmem, ⟨4, _⟩ => ⟨S256x1024, .f32⟩
  | .local _ .vmem, ⟨5, _⟩ => ⟨S128x64x16, .f32⟩
  | .local _ .vmem, ⟨6, _⟩ => ⟨S128x64x16, .f32⟩
  | .local _ .vmem, ⟨7, _⟩ => ⟨S128x64x16, .f32⟩
  | .local _ .vmem, ⟨8, _⟩ => ⟨S128x64x16, .f32⟩
  | .local _ .vmem, ⟨9, _⟩ => ⟨S128x64, .f32⟩
  | .local _ .vmem, ⟨10, _⟩ => ⟨S128x64, .f32⟩
  | .local _ .vmem, ⟨11, _⟩ => ⟨S128x64, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_cst_0 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_cst_1 : Ref sig .tc := ⟨.hbm, 17, rfl⟩
abbrev main_call0_call0_v8 : Ref sig .tc := ⟨.hbm, 18, rfl⟩
abbrev main_call0_call0_cst_2 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_call0_v12 : Ref sig .tc := ⟨.hbm, 23, rfl⟩
abbrev main_call0_call0_cst_3 : Ref sig .tc := ⟨.hbm, 24, rfl⟩
abbrev main_call0_call0_v13 : Ref sig .tc := ⟨.hbm, 25, rfl⟩
abbrev main_call0_call0_cst_4 : Ref sig .tc := ⟨.hbm, 26, rfl⟩
abbrev main_call0_call0_call0_v0 : Ref sig .tc := ⟨.hbm, 27, rfl⟩
abbrev main_call0_call0_call0_v1 : Ref sig .tc := ⟨.hbm, 28, rfl⟩
abbrev main_call0_v0 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_cst_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v117 : BitVec 1 := Scalar.cmpi .eq arg1 c3_i32
  let v118 : BitVec 32 := Scalar.extui v117
  let c0_i32_33 : BitVec 32 := 0#32
  let v119 : BitVec 1 := Scalar.cmpi .ne v118 c0_i32_33
  v119

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x64x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x64x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S512x64x16_S512x1024 : S512x64x16.ShapeCasts S512x1024
  inb_S256x512_S256x512_0_0 : ∀ a, (![0, 0] : Fin 2 → Nat) a + S256x512.size a ≤ S256x512.size a
  h_S256x512 : 0 < S256x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S256x1024_S256x1024_0_0 : ∀ a, (![0, 0] : Fin 2 → Nat) a + S256x1024.size a ≤ S256x1024.size a
  h_S256x1024 : 0 < S256x1024.numel
  shapeCasts_S512x1024_S512x64x16 : S512x1024.ShapeCasts S512x64x16
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S128x64x16_S128x64x16_0_0_0 : ∀ a, (![0, 0, 0] : Fin 3 → Nat) a + S128x64x16.size a ≤ S128x64x16.size a
  h_S128x64x16 : 0 < S128x64x16.numel
  shapeCasts_S128x64x16_S128x64x16 : S128x64x16.ShapeCasts S128x64x16
  slices_S128x64x16_o0_0_0_S128x8x16 : S128x64x16.Slices ![0, 0, 0] S128x8x16
  shapeCasts_S128x8x16_S128x1x8x16 : S128x8x16.ShapeCasts S128x1x8x16
  shapeCasts_S128x8x16_S1x128x8x16 : S128x8x16.ShapeCasts S1x128x8x16
  broadcasts_S128x1x8x16_S128x128x8x16 : S128x1x8x16.Broadcasts S128x128x8x16
  broadcasts_S1x128x8x16_S128x128x8x16 : S1x128x8x16.Broadcasts S128x128x8x16
  reduces_S128x128x8x16_S128x128x8 : S128x128x8x16.Reduces [3] S128x128x8
  reduces_S128x128x8_S128x8 : S128x128x8.Reduces [1] S128x8
  slices_S128x64x16_o0_8_0_S128x8x16 : S128x64x16.Slices ![0, 8, 0] S128x8x16
  slices_S128x64x16_o0_16_0_S128x8x16 : S128x64x16.Slices ![0, 16, 0] S128x8x16
  slices_S128x64x16_o0_24_0_S128x8x16 : S128x64x16.Slices ![0, 24, 0] S128x8x16
  slices_S128x64x16_o0_32_0_S128x8x16 : S128x64x16.Slices ![0, 32, 0] S128x8x16
  slices_S128x64x16_o0_40_0_S128x8x16 : S128x64x16.Slices ![0, 40, 0] S128x8x16
  slices_S128x64x16_o0_48_0_S128x8x16 : S128x64x16.Slices ![0, 48, 0] S128x8x16
  slices_S128x64x16_o0_56_0_S128x8x16 : S128x64x16.Slices ![0, 56, 0] S128x8x16
  concatenates_S128x8_S128x8_S128x8_S128x8_S128x8_S128x8_S128x8_S128x8_S128x64_d1 : Shape.Concatenates [S128x8, S128x8, S128x8, S128x8, S128x8, S128x8, S128x8, S128x8] S128x64 1
  reducesTo_S512x512_S512_d0 : S512x512.ReducesTo [0] S512
  h_S_ : 0 < S_.numel
  bcast_S512_S1x512_1 : S512.BroadcastsInDim S1x512 (![1] : Fin 1 → Fin S1x512.rank)
  bcast_S_S1x512 : S_.BroadcastsInDim S1x512 (![] : Fin 0 → Fin S1x512.rank)
  bcast_S1x512_S512x512_0_1 : S1x512.BroadcastsInDim S512x512 (![0, 1] : Fin 2 → Fin S512x512.rank)
  reducesTo_S1x512_S1_d1 : S1x512.ReducesTo [1] S1
  bcast_S1_S1x1_0 : S1.BroadcastsInDim S1x1 (![0] : Fin 1 → Fin S1x1.rank)
  bcast_S_S1x1 : S_.BroadcastsInDim S1x1 (![] : Fin 0 → Fin S1x1.rank)
  bcast_S1x1_S512x1_0_1 : S1x1.BroadcastsInDim S512x1 (![0, 1] : Fin 2 → Fin S512x1.rank)
  concatenates_S512x512_S512x64_S512x1_S512x577_d1 : Shape.Concatenates [S512x512, S512x64, S512x1] S512x577 1
  dot_S256x512_S512x1024_S256x1024_1_0_0_1_n_n_wf : DotDims.WF S256x512 S512x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S512x512.size a
  hwx0_0 : ∀ i : grid0.Coords, EltTy.bits .f32 = 32 ∨ (Rect.block (s := S512x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S512x1024.size a
  hwx0_2 : ∀ i : grid0.Coords, EltTy.bits .f32 = 32 ∨ (Rect.block (s := S512x1024) S256x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x64x16.size a ≤ S512x64x16.size a
  hwx1_0 : ∀ i : grid1.Coords, EltTy.bits .f32 = 32 ∨ (Rect.block (s := S512x64x16) S128x64x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x64x16.size a ≤ S512x64x16.size a
  hwx1_1 : ∀ i : grid1.Coords, EltTy.bits .f32 = 32 ∨ (Rect.block (s := S512x64x16) S128x64x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S512x64.size a
  hwx1_2 : ∀ i : grid1.Coords, EltTy.bits .f32 = 32 ∨ (Rect.block (s := S512x64) S128x64.size (cc1_transform_2 i) (hinb1_2 i)).WholeWords (EltTy.packing .f32)

variable [Facts₀]

def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S128x64x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S128x64x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S128x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S512x512 : Shape := ⟨2, ![512, 512]⟩
abbrev S512x64x16 : Shape := ⟨3, ![512, 64, 16]⟩
abbrev S512x1024 : Shape := ⟨2, ![512, 1024]⟩
abbrev S512x1x64x16 : Shape := ⟨4, ![512, 1, 64, 16]⟩
abbrev S1x512x64x16 : Shape := ⟨4, ![1, 512, 64, 16]⟩
abbrev S512x512x64x16 : Shape := ⟨4, ![512, 512, 64, 16]⟩
abbrev S_ : Shape := ⟨0, ![]⟩
abbrev S512x512x64 : Shape := ⟨3, ![512, 512, 64]⟩
abbrev S512x64 : Shape := ⟨2, ![512, 64]⟩
abbrev S512 : Shape := ⟨1, ![512]⟩
abbrev S1x512 : Shape := ⟨2, ![1, 512]⟩
abbrev S1 : Shape := ⟨1, ![1]⟩
abbrev S1x1 : Shape := ⟨2, ![1, 1]⟩
abbrev S512x1 : Shape := ⟨2, ![512, 1]⟩
abbrev S512x577 : Shape := ⟨2, ![512, 577]⟩

abbrev nBuf : Space → Nat
  | .hbm => 53
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x64x16, .f32⟩
  | .hbm, ⟨2, _⟩ => ⟨S512x1024, .f32⟩
  | .hbm, ⟨3, _⟩ => ⟨S512x1024, .f32⟩
  | .hbm, ⟨4, _⟩ => ⟨S512x64x16, .f32⟩
  | .hbm, ⟨5, _⟩ => ⟨S512x1x64x16, .f32⟩
  | .hbm, ⟨6, _⟩ => ⟨S1x512x64x16, .f32⟩
  | .hbm, ⟨7, _⟩ => ⟨S512x512x64x16, .f32⟩
  | .hbm, ⟨8, _⟩ => ⟨S512x512x64x16, .f32⟩
  | .hbm, ⟨9, _⟩ => ⟨S512x512x64x16, .f32⟩
  | .hbm, ⟨10, _⟩ => ⟨S512x512x64x16, .f32⟩
  | .hbm, ⟨11, _⟩ => ⟨S_, .f32⟩
  | .hbm, ⟨12, _⟩ => ⟨S512x512x64, .f32⟩
  | .hbm, ⟨13, _⟩ => ⟨S512x512x64, .f32⟩
  | .hbm, ⟨14, _⟩ => ⟨S512x512x64, .f32⟩
  | .hbm, ⟨15, _⟩ => ⟨S_, .f32⟩
  | .hbm, ⟨16, _⟩ => ⟨S512x64, .f32⟩
  | .hbm, ⟨17, _⟩ => ⟨S_, .f32⟩
  | .hbm, ⟨18, _⟩ => ⟨S512x64, .f32⟩
  | .hbm, ⟨19, _⟩ => ⟨S512x64, .f32⟩
  | .hbm, ⟨20, _⟩ => ⟨S_, .i32⟩
  | .hbm, ⟨21, _⟩ => ⟨S_, .f32⟩
  | .hbm, ⟨22, _⟩ => ⟨S512, .f32⟩
  | .hbm, ⟨23, _⟩ => ⟨S1x512, .f32⟩
  | .hbm, ⟨24, _⟩ => ⟨S_, .f32⟩
  | .hbm, ⟨25, _⟩ => ⟨S1x512, .f32⟩
  | .hbm, ⟨26, _⟩ => ⟨S1x512, .f32⟩
  | .hbm, ⟨27, _⟩ => ⟨S512x512, .f32⟩
  | .hbm, ⟨28, _⟩ => ⟨S512x512, .f32⟩
  | .hbm, ⟨29, _⟩ => ⟨S512x512, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S512, .f32⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S_, .f32⟩
  | .hbm, ⟨39, _⟩ => ⟨S_, .i1⟩
  | .hbm, ⟨40, _⟩ => ⟨S_, .f32⟩
  | .hbm, ⟨41, _⟩ => ⟨S_, .f32⟩
  | .hbm, ⟨42, _⟩ => ⟨S1x512, .f32⟩
  | .hbm, ⟨43, _⟩ => ⟨S1x512, .f32⟩
  | .hbm, ⟨44, _⟩ => ⟨S1x512, .f32⟩
  | .hbm, ⟨45, _⟩ => ⟨S_, .f32⟩
  | .hbm, ⟨46, _⟩ => ⟨S1, .f32⟩
  | .hbm, ⟨47, _⟩ => ⟨S1x1, .f32⟩
  | .hbm, ⟨48, _⟩ => ⟨S_, .f32⟩
  | .hbm, ⟨49, _⟩ => ⟨S1x1, .f32⟩
  | .hbm, ⟨50, _⟩ => ⟨S1x1, .f32⟩
  | .hbm, ⟨51, _⟩ => ⟨S512x1, .f32⟩
  | .hbm, ⟨52, _⟩ => ⟨S512x577, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_cst_0 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_cst_1 : Ref sig .tc := ⟨.hbm, 31, rfl⟩
abbrev main_call0_call0_v8 : Ref sig .tc := ⟨.hbm, 32, rfl⟩
abbrev main_call0_call0_cst_2 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_call0_v12 : Ref sig .tc := ⟨.hbm, 37, rfl⟩
abbrev main_call0_call0_cst_3 : Ref sig .tc := ⟨.hbm, 38, rfl⟩
abbrev main_call0_call0_v13 : Ref sig .tc := ⟨.hbm, 39, rfl⟩
abbrev main_call0_call0_cst_4 : Ref sig .tc := ⟨.hbm, 40, rfl⟩
abbrev main_call0_call0_call0_v0 : Ref sig .tc := ⟨.hbm, 41, rfl⟩
abbrev main_call0_call0_call0_v1 : Ref sig .tc := ⟨.hbm, 42, rfl⟩
abbrev main_call0_v0 : Ref sig .tc := ⟨.hbm, 43, rfl⟩
abbrev main_v15 : Ref sig .tc := ⟨.hbm, 44, rfl⟩
abbrev main_cst_2 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩

abbrev nD : Nat := 1
abbrev τ : Topo := Topo.v7x

variable {F : FTy → Type} [FloatOps F]

class Facts₀ : Prop where
  shapeCasts_S512x64x16_S512x1024 : S512x64x16.ShapeCasts S512x1024
  shapeCasts_S512x1024_S512x64x16 : S512x1024.ShapeCasts S512x64x16
  bcast_S512x64x16_S512x1x64x16_0_2_3 : S512x64x16.BroadcastsInDim S512x1x64x16 (![0, 2, 3] : Fin 3 → Fin S512x1x64x16.rank)
  bcast_S512x64x16_S1x512x64x16_1_2_3 : S512x64x16.BroadcastsInDim S1x512x64x16 (![1, 2, 3] : Fin 3 → Fin S1x512x64x16.rank)
  bcast_S512x1x64x16_S512x512x64x16_0_1_2_3 : S512x1x64x16.BroadcastsInDim S512x512x64x16 (![0, 1, 2, 3] : Fin 4 → Fin S512x512x64x16.rank)
  bcast_S1x512x64x16_S512x512x64x16_0_1_2_3 : S1x512x64x16.BroadcastsInDim S512x512x64x16 (![0, 1, 2, 3] : Fin 4 → Fin S512x512x64x16.rank)
  reducesTo_S512x512x64x16_S512x512x64_d3 : S512x512x64x16.ReducesTo [3] S512x512x64
  h_S_ : 0 < S_.numel
  reducesTo_S512x512x64_S512x64_d0 : S512x512x64.ReducesTo [0] S512x64
  bcast_S_S512x64 : S_.BroadcastsInDim S512x64 (![] : Fin 0 → Fin S512x64.rank)
  reducesTo_S512x512_S512_d0 : S512x512.ReducesTo [0] S512
  bcast_S512_S1x512_1 : S512.BroadcastsInDim S1x512 (![1] : Fin 1 → Fin S1x512.rank)
  bcast_S_S1x512 : S_.BroadcastsInDim S1x512 (![] : Fin 0 → Fin S1x512.rank)
  bcast_S1x512_S512x512_0_1 : S1x512.BroadcastsInDim S512x512 (![0, 1] : Fin 2 → Fin S512x512.rank)
  reducesTo_S1x512_S1_d1 : S1x512.ReducesTo [1] S1
  bcast_S1_S1x1_0 : S1.BroadcastsInDim S1x1 (![0] : Fin 1 → Fin S1x1.rank)
  bcast_S_S1x1 : S_.BroadcastsInDim S1x1 (![] : Fin 0 → Fin S1x1.rank)
  bcast_S1x1_S512x1_0_1 : S1x1.BroadcastsInDim S512x1 (![0, 1] : Fin 2 → Fin S512x1.rank)
  concatenates_S512x512_S512x64_S512x1_S512x577_d1 : Shape.Concatenates [S512x512, S512x64, S512x1] S512x577 1
  dot_S512x512_S512x1024_S512x1024_1_0_0_1_n_n_wf : DotDims.WF S512x512 S512x1024 S512x1024 [1] [0] [0] [1] [] []

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

class Facts : Prop extends Facts₀ where

variable [Facts]
-- ==== Proof.KRegion0.lean ====
/-
  The projection region: every grid point multiplies one block of 256 rows of the left operand by the whole
  right operand and stores the product over its whole output block.

  Stated at any contents V of the core's buffers on entry: the block of each window at a point (iblk0), what the
  body leaves in the output window's buffer as a function of the two input blocks (out0_2: the single store's
  payload laid over the whole block), the body's triple (sound_kernel0), the proof data of the pipeline (dat0) and
  the body obligation at every point (body_obligation0).

  The left operand's window moves with the point and is fetched at each one; the right operand's window is the whole
  array under a constant index map, fetched once: at a later point its buffer still holds the block, because the
  block index has not moved. The body also reads its output buffer before the store; the value read is not used,
  so the output buffer is only required to hold something.
-/
import proofs.«131177_j17824114279178_2_alg».proof.Proof.Gen.Kernel.Launch
import proofs.«131177_j17824114279178_2_alg».proof.Proof.Gen.Kernel.Skeleton
import proofs.«131177_j17824114279178_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents in the hundreds recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each is the whole block -/

abbrev r0_0 : Rect S256x512 := Rect.unit (s := S256x512) ![0, 0] S256x512.size inb_S256x512_S256x512_0_0
abbrev r0_1 : Rect S512x1024 := Rect.unit (s := S512x1024) ![0, 0] S512x1024.size inb_S512x1024_S512x1024_0_0
abbrev r0_2 : Rect S256x1024 := Rect.unit (s := S256x1024) ![0, 0] S256x1024.size inb_S256x1024_S256x1024_0_0

/-! ## What the body leaves in the output window's buffer -/

/-- The output buffer after the body, from the input windows' blocks: the product payload over the whole block. -/
def out0_2 (x0 : Vec F S256x512 .f32) (x1 : Vec F S512x1024 .f32) : Vec F S256x1024 .f32 :=
  View.canon [⟨r0_2, k0_pay1 (View.ld x0 r0_0) (View.ld x1 r0_1)⟩]

/-- The single store is the whole block, so it covers the buffer. -/
theorem cover0_2 (p0 : Vec F S256x1024 .f32) (y : S256x1024.Idx) :
    ∃ pc ∈ ([⟨r0_2, p0⟩] : List (View.Piece (Elt F) S256x1024 .f32)), y ∈ pc.1.set :=
  View.cover_of_tiled [⟨r0_2, p0⟩] S256x1024.size (by rfl) y

/-! ## The body's triple -/

set_option maxHeartbeats 1000000 in
/-- The body on whole buffers, the two inputs' at read contents x0 and x1 and the output's at anything, runs to the
    continuation holding the inputs' as they were and the output's at out0_2 of them. -/
theorem sound_kernel0 (c : Dev nD) (E : Set ℕ) (i : grid0.Coords)
    (arg1 : Memref sig .tc .vmem S256x512 .f32) (harg1 : arg1.IsWhole)
    (arg2 : Memref sig .tc .vmem S512x1024 .f32) (harg2 : arg2.IsWhole)
    (arg3 : Memref sig .tc .vmem S256x1024 .f32) (harg3 : arg3.IsWhole)
    (x0 : Vec F S256x512 .f32) (x1 : Vec F S512x1024 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__project_kernel i arg1 harg1 arg2 harg2 arg3 harg3) K := by
  simp only [cc0__project_kernel_eq_skeleton]; unfold cc0__project_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## What the body finds in each input window's buffer -/

/-- The left operand's current buffer holds its block at every point, for any proof data whose array is V's and whose
    body leaves the block in place: the window is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's buffer holds its block (the whole array) at every point: fetched at the first point, and at a
    later one the block index has not moved, so the buffer still holds what the first fetch put there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of the region on core c: the arrays as the region finds them; after the body at point t each
    input's buffer at its block and the output's at out0_2 of the two input blocks; the invariant is the untouched
    rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1Runs.lean ====
import proofs.«131177_j17824114279178_2_alg».proof.Proof.Gen.Kernel.Launch
import proofs.«131177_j17824114279178_2_alg».proof.Proof.Gen.Kernel.Skeleton
import proofs.«131177_j17824114279178_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the pairwise-distance accumulation): what its three control cases share

The grid is 4 × 4, point `t = 4·i + j`.  The body resets the accumulator when `j = 0`, adds the
block pair's contribution at every point, and stores the output block when `j = 3`. -/

/-! ## The body's two branch conditions, from the grid coordinates -/

/-- The reset condition (`j = 0`), spelled as the body computes it. -/
abbrev cond1_0 (i : grid1.Coords) : Prop :=
  (Scalar.cmpi .ne (Scalar.extui (Scalar.cmpi .eq (BitVec.ofNat 32 (i 1).val) 0#32)) 0#32) = 1#1
/-- It holds exactly at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The store-the-output condition (`j = 3`). -/
abbrev cond1_1 (i : grid1.Coords) : Prop := k1_cond2 i = 1#1
/-- It holds exactly at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Away from `j = 3` the output window is idle and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At `j = 3` it is live. -/
theorem liveAt1_2 : ∀ t : Fin cfg1.N, cond1_1 (grid1.coords t) → cfg1.idle 2 (grid1.coords t) = false := by decide +kernel

/-! ## The staging memrefs and the scratch accumulator -/

/-- One staging buffer of the output window, through which its contents are stated. -/
abbrev VO1_2 : View sig .tc .vmem S128x64 .f32 := (Memref.whole cc1_stg2_0 : Memref sig .tc .vmem S128x64 .f32).view
/-- Each window's current staging memref at point `t`, and its wholeness. -/
abbrev ms1_0 (t : Fin cfg1.N) : Memref sig .tc .vmem S128x64x16 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x64x16 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x64 .f32 := win1_2.stage (cfg1.slots t 2)
abbrev hs1_2 (t : Fin cfg1.N) : (ms1_2 t).IsWhole := hstage1_2 ((cfg1.slots t 2).cast nbuf1_2)
/-- The scratch accumulator: a whole scoped buffer of the kernel's own. -/
abbrev scM1_0 : Memref sig .tc .vmem S128x64 .f32 := Memref.whole cc1_scratch0
/-- The same as a view: what it holds is stated through it. -/
abbrev VS1_0 : View sig .tc .vmem S128x64 .f32 := scM1_0.view

/-- The other scoped buffers of the core (region 0's staging buffers), each whole at some contents. -/
def otherScoped1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The region invariant the launch hands over, with the scratch accumulator singled out as a memref owned at
    some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.KRegion1RunA.lean ====
import proofs.«131177_j17824114279178_2_alg».proof.Proof.KRegion1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE A (`j = 0`: the accumulator is reset, the pair's contribution added, the output not stored).  On whole
    memrefs — the two input blocks at `x0`, `x1`, the idle output at `xi2` handed back untouched, the scratch
    at anything — the body runs to the continuation holding the inputs as they were and the scratch with the
    pieces `LS0` written; the pieces are the witness the run finds. -/
noncomputable def kernelRun1_A (c : Dev nD) (i : grid1.Coords) (arg2 : Memref sig .tc .vmem S128x64x16 .f32) (harg2 : arg2.IsWhole) (arg3 : Memref sig .tc .vmem S128x64x16 .f32) (harg3 : arg3.IsWhole) (arg4 : Memref sig .tc .vmem S128x64 .f32) (harg4 : arg4.IsWhole) (arg5 : Memref sig .tc .vmem S128x64 .f32) (harg5 : arg5.IsWhole) (hc0 : cond1_0 i) (hc1 : ¬cond1_1 i)
    (x0 : Vec F S128x64x16 .f32) (x1 : Vec F S128x64x16 .f32) :
    Σ' (L2 : List (View.Piece (Elt F) S128x64 .f32)), { LS0 : List (View.Piece (Elt F) S128x64 .f32) //
      ∀ (xi2 : Vec F S128x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__l1_kernel i arg2 harg2 arg3 harg3 arg4 harg4 arg5 harg5) K } := by
  refine ⟨[], ?_, fun xi2 E K => ?run⟩
  case run =>
    simp only [cc1__l1_kernel_eq_skeleton]; unfold cc1__l1_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KRegion1RunB.lean ====
import proofs.«131177_j17824114279178_2_alg».proof.Proof.KRegion1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE B (`j = 1, 2`: the pair's contribution is added to the accumulator, the output not stored).  On whole
    memrefs — the two input blocks at `x0`, `x1`, the idle output at `xi2` handed back untouched, the scratch
    at what the point before left, `xs0` — the body runs to the continuation holding the inputs as they were and
    the scratch with the pieces `LS0` written. -/
noncomputable def kernelRun1_B (c : Dev nD) (i : grid1.Coords) (arg2 : Memref sig .tc .vmem S128x64x16 .f32) (harg2 : arg2.IsWhole) (arg3 : Memref sig .tc .vmem S128x64x16 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : ¬cond1_1 i)
    (x0 : Vec F S128x64x16 .f32) (x1 : Vec F S128x64x16 .f32) (xs0 : Vec F S128x64 .f32) :
    Σ' (L2 : List (View.Piece (Elt F) S128x64 .f32)), { LS0 : List (View.Piece (Elt F) S128x64 .f32) //
      ∀ (xi2 : Vec F S128x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__l1_kernel i arg2 harg2 arg3 harg3 arg4 harg4 arg5 harg5) K } := by
  refine ⟨[], ?_, fun xi2 E K => ?run⟩
  case run =>
    simp only [cc1__l1_kernel_eq_skeleton]; unfold cc1__l1_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KRegion1RunC.lean ====
import proofs.«131177_j17824114279178_2_alg».proof.Proof.KRegion1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE C (`j = 3`: the pair's contribution is added to the accumulator, then the accumulator less one is stored
    into the output block).  On whole memrefs — the two input blocks at `x0`, `x1`, the output at anything, the
    scratch at what the point before left, `xs0` — the body runs to the continuation holding the inputs as they
    were, the output with the pieces `L2` written and the scratch with the pieces `LS0` written. -/
noncomputable def kernelRun1_C (c : Dev nD) (i : grid1.Coords) (arg2 : Memref sig .tc .vmem S128x64x16 .f32) (harg2 : arg2.IsWhole) (arg3 : Memref sig .tc .vmem S128x64x16 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i)
    (x0 : Vec F S128x64x16 .f32) (x1 : Vec F S128x64x16 .f32) (xs0 : Vec F S128x64 .f32) :
    Σ' (L2 : List (View.Piece (Elt F) S128x64 .f32)), { LS0 : List (View.Piece (Elt F) S128x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__l1_kernel i arg2 harg2 arg3 harg3 arg4 harg4 arg5 harg5) K } := by
  refine ⟨?_, ?_, fun E K => ?run⟩
  case run =>
    simp only [cc1__l1_kernel_eq_skeleton]; unfold cc1__l1_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KRegion1.lean ====
import proofs.«131177_j17824114279178_2_alg».proof.Proof.KRegion1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the frame half, at the contents `V` the region is entered with -/

/-- The shares of the three windowed arrays: the two input windows read ONE array, half of it each; the output
    array is held whole. -/
def q1 : Fin cfg1.W → PosShare TreeShare
  | ⟨0, _⟩ => fullShare.left
  | ⟨1, _⟩ => fullShare.right
  | ⟨2, _⟩ => fullShare

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (row block `i`, fetched when the row changes) holds its block at every point, for any proof data
    whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (row block `j`, fetched at every point) likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output block and in the accumulator -/

/-- Case A stores nothing into the output block: a placeholder nothing consults (the window is idle there). -/
def out1_A_2 (c : Dev nD) (i : grid1.Coords) (arg2 : Memref sig .tc .vmem S128x64x16 .f32) (harg2 : arg2.IsWhole) (arg3 : Memref sig .tc .vmem S128x64x16 .f32) (harg3 : arg3.IsWhole) (arg4 : Memref sig .tc .vmem S128x64 .f32) (harg4 : arg4.IsWhole) (arg5 : Memref sig .tc .vmem S128x64 .f32) (harg5 : arg5.IsWhole) (hc0 : cond1_0 i) (hc1 : ¬cond1_1 i) (x0 : Vec F S128x64x16 .f32) (x1 : Vec F S128x64x16 .f32) : Vec F S128x64 .f32 :=
  VO1_2.read (Elt F) (VO1_2.writes (Elt F) VO1_2.junk (kernelRun1_A c i arg2 harg2 arg3 harg3 arg4 harg4 arg5 harg5 hc0 hc1 x0 x1).1)

/-- Case A's stores into the accumulator cover it. -/
theorem scover1_A_0 (c : Dev nD) (i : grid1.Coords) (arg2 : Memref sig .tc .vmem S128x64x16 .f32) (harg2 : arg2.IsWhole) (arg3 : Memref sig .tc .vmem S128x64x16 .f32) (harg3 : arg3.IsWhole) (arg4 : Memref sig .tc .vmem S128x64 .f32) (harg4 : arg4.IsWhole) (arg5 : Memref sig .tc .vmem S128x64 .f32) (harg5 : arg5.IsWhole) (hc0 : cond1_0 i) (hc1 : ¬cond1_1 i) (x0 : Vec F S128x64x16 .f32) (x1 : Vec F S128x64x16 .f32) (y : S128x64.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S128x64.size (by sl_kernel_rfl) y

/-- What case A leaves in the accumulator: its stores read back. -/
def sout1_A_0 (c : Dev nD) (i : grid1.Coords) (arg2 : Memref sig .tc .vmem S128x64x16 .f32) (harg2 : arg2.IsWhole) (arg3 : Memref sig .tc .vmem S128x64x16 .f32) (harg3 : arg3.IsWhole) (arg4 : Memref sig .tc .vmem S128x64 .f32) (harg4 : arg4.IsWhole) (arg5 : Memref sig .tc .vmem S128x64 .f32) (harg5 : arg5.IsWhole) (hc0 : cond1_0 i) (hc1 : ¬cond1_1 i) (x0 : Vec F S128x64x16 .f32) (x1 : Vec F S128x64x16 .f32) : Vec F S128x64 .f32 :=
  VS1_0.read (Elt F) (VS1_0.writes (Elt F) VS1_0.junk (kernelRun1_A c i arg2 harg2 arg3 harg3 arg4 harg4 arg5 harg5 hc0 hc1 x0 x1).2.1)

/-- Case B stores nothing into the output block: a placeholder nothing consults. -/
def out1_B_2 (c : Dev nD) (i : grid1.Coords) (arg2 : Memref sig .tc .vmem S128x64x16 .f32) (harg2 : arg2.IsWhole) (arg3 : Memref sig .tc .vmem S128x64x16 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : ¬cond1_1 i) (x0 : Vec F S128x64x16 .f32) (x1 : Vec F S128x64x16 .f32) (xs0 : Vec F S128x64 .f32) : Vec F S128x64 .f32 :=
  VO1_2.read (Elt F) (VO1_2.writes (Elt F) VO1_2.junk (kernelRun1_B c i arg2 harg2 arg3 harg3 arg4 harg4 arg5 harg5 hc0 hc1 x0 x1 xs0).1)

/-- Case B's store into the accumulator covers it. -/
theorem scover1_B_0 (c : Dev nD) (i : grid1.Coords) (arg2 : Memref sig .tc .vmem S128x64x16 .f32) (harg2 : arg2.IsWhole) (arg3 : Memref sig .tc .vmem S128x64x16 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : ¬cond1_1 i) (x0 : Vec F S128x64x16 .f32) (x1 : Vec F S128x64x16 .f32) (xs0 : Vec F S128x64 .f32) (y : S128x64.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S128x64.size (by sl_kernel_rfl) y

/-- What case B leaves in the accumulator. -/
def sout1_B_0 (c : Dev nD) (i : grid1.Coords) (arg2 : Memref sig .tc .vmem S128x64x16 .f32) (harg2 : arg2.IsWhole) (arg3 : Memref sig .tc .vmem S128x64x16 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : ¬cond1_1 i) (x0 : Vec F S128x64x16 .f32) (x1 : Vec F S128x64x16 .f32) (xs0 : Vec F S128x64 .f32) : Vec F S128x64 .f32 :=
  VS1_0.read (Elt F) (VS1_0.writes (Elt F) VS1_0.junk (kernelRun1_B c i arg2 harg2 arg3 harg3 arg4 harg4 arg5 harg5 hc0 hc1 x0 x1 xs0).2.1)

/-- Case C's store into the output block covers it. -/
theorem cover1_C_2 (c : Dev nD) (i : grid1.Coords) (arg2 : Memref sig .tc .vmem S128x64x16 .f32) (harg2 : arg2.IsWhole) (arg3 : Memref sig .tc .vmem S128x64x16 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i) (x0 : Vec F S128x64x16 .f32) (x1 : Vec F S128x64x16 .f32) (xs0 : Vec F S128x64 .f32) (y : S128x64.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S128x64.size (by sl_kernel_rfl) y

/-- What case C leaves in the output block. -/
def out1_C_2 (c : Dev nD) (i : grid1.Coords) (arg2 : Memref sig .tc .vmem S128x64x16 .f32) (harg2 : arg2.IsWhole) (arg3 : Memref sig .tc .vmem S128x64x16 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i) (x0 : Vec F S128x64x16 .f32) (x1 : Vec F S128x64x16 .f32) (xs0 : Vec F S128x64 .f32) : Vec F S128x64 .f32 :=
  VO1_2.read (Elt F) (VO1_2.writes (Elt F) VO1_2.junk (kernelRun1_C c i arg2 harg2 arg3 harg3 arg4 harg4 arg5 harg5 hc0 hc1 x0 x1 xs0).1)

/-- Case C's store into the accumulator covers it. -/
theorem scover1_C_0 (c : Dev nD) (i : grid1.Coords) (arg2 : Memref sig .tc .vmem S128x64x16 .f32) (harg2 : arg2.IsWhole) (arg3 : Memref sig .tc .vmem S128x64x16 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i) (x0 : Vec F S128x64x16 .f32) (x1 : Vec F S128x64x16 .f32) (xs0 : Vec F S128x64 .f32) (y : S128x64.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S128x64.size (by sl_kernel_rfl) y

/-- What case C leaves in the accumulator. -/
def sout1_C_0 (c : Dev nD) (i : grid1.Coords) (arg2 : Memref sig .tc .vmem S128x64x16 .f32) (harg2 : arg2.IsWhole) (arg3 : Memref sig .tc .vmem S128x64x16 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i) (x0 : Vec F S128x64x16 .f32) (x1 : Vec F S128x64x16 .f32) (xs0 : Vec F S128x64 .f32) : Vec F S128x64 .f32 :=
  VS1_0.read (Elt F) (VS1_0.writes (Elt F) VS1_0.junk (kernelRun1_C c i arg2 harg2 arg3 harg3 arg4 harg4 arg5 harg5 hc0 hc1 x0 x1 xs0).2.1)

/-! ## What the output block and the accumulator hold after each point -/

/-- THE ACCUMULATION: what the output's staging buffer and the accumulator hold after the body at position `n`
    (a pair: output, accumulator) — the case the closed forms select at `n`, run at the point's two input blocks,
    the accumulator at what position `n - 1` left.  No point meets both conditions. -/
def outsAt1 (c : Dev nD) : (n : ℕ) → n < cfg1.N → Vec F S128x64 .f32 × Vec F S128x64 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a point of case A. -/
theorem outsAt1_A (c : Dev nD) (t : Fin cfg1.N) (h0 : t.val % 4 = 0) (h1 : ¬t.val % 4 = 3) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a point of case B, over what the point before left. -/
theorem outsAt1_B (c : Dev nD) (t : Fin cfg1.N) (h0 : ¬t.val % 4 = 0) (h1 : ¬t.val % 4 = 3) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C, over what the point before left. -/
theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- What the accumulator holds after point `t`. -/
def accAt (c : Dev nD) (t : Fin cfg1.N) : Vec F S128x64 .f32 := (outsAt1 V c t.val t.isLt).2
/-- What the output's staging buffer holds after point `t` (meaningful at `j = 3`). -/
def outAt (c : Dev nD) (t : Fin cfg1.N) : Vec F S128x64 .f32 := (outsAt1 V c t.val t.isLt).1

/-- The region invariant before position `n`: before the first point what the launch hands over; afterwards the
    other scoped buffers at anything, the accumulator at what the point before left, the generator register at
    some state. -/
def PhiS1 (c : Dev nD) : (n : ℕ) → n ≤ cfg1.N → sProp 𝕄
  | 0, _ => Pipeline.ΦA spec1 c
  | n + 1, hn => iprop(iprop(otherScoped1 (F := F) c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(otherScoped1 (F := F) c ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop(otherScoped1 (F := F) c ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of region 1 on core `c`: the arrays as the region finds them; after the body at point `t` each
    input's buffer at its block and the output's at `outsAt1`; the invariant `PhiS1`; nothing owed; the one input
    array shared in halves between the two input windows. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q := q1
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the closed forms say which case the point is in;
    the invariant hands the body the accumulator at what the point before left (at anything at the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 4 = 0
  · by_cases h1 : t.val % 4 = 3
    · exfalso; omega
    · rw [Dat.leavesExact_idle (dat1 V c) 2 t (idleAt1_2 t (fun h => h1 ((hcond1_1 t).mp h))) (noFlush1_2 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨Ha, Hb, Hc, Hd, He, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [Ha Hb Hc Hd He HS0 Hg]
        · isplitl [Ha Hb Hc Hd He HS0]
          · isplitl [Ha Hb Hc Hd He]
            · unfold otherScoped1
              isplitl [Ha]; · iexact Ha
              isplitl [Hb]; · iexact Hb
              isplitl [Hc]; · iexact Hc
              isplitl [Hd]; · iexact Hd
              iexact He
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨Hr, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [Hr HS0 Hg]
        · isplitl [Hr HS0]
          · isplitl [Hr]; · iexact Hr
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
  · have hz : t.val ≠ 0 := fun e => h0 (by rw [e])
    by_cases h1 : t.val % 4 = 3
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C_0; (try dsimp only)
      rw [PhiS1_castSucc V c t, PhiS1_pos V c _ _ hz]
      iintro ⟨⟨⟨Hr, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [Hr HS0 Hg]
      · isplitl [Hr HS0]
        · isplitl [Hr]; · iexact Hr
          unfold owns; iexists _; isplitr
          swap; · iexact HS0
          ipureintro; exact View.read_writes_of_cover _ _ _ _ _ (scover1_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B_0; (try dsimp only)
      rw [PhiS1_castSucc V c t, PhiS1_pos V c _ _ hz]
      iintro ⟨⟨⟨Hr, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [Hr HS0 Hg]
      · isplitl [Hr HS0]
        · isplitl [Hr]; · iexact Hr
          unfold owns; iexists _; isplitr
          swap; · iexact HS0
          ipureintro; exact View.read_writes_of_cover _ _ _ _ _ (scover1_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold otherScoped1
  iintro ⟨⟨⟨Ha, Hb, Hc, Hd, He⟩, HS0⟩, Hg⟩
  isplitl [Ha Hb Hc Hd He HS0]
  · isplitl [Ha]; · iexact Ha
    isplitl [Hb]; · iexact Hb
    isplitl [Hc]; · iexact Hc
    isplitl [Hd]; · iexact Hd
    isplitl [He]; · iexact He
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end Cert.Kernel.Hand

end
-- ==== Proof.KSharedArray.lean ====
/-
  The second region reads ONE array through two windows. A core that holds the buffers behind the region's arrays
  whole, each at the full share, holds the region's arrays as its proof data asks for them: the shared array's full share
  dealt as its left half to the first window and its right half to the second (the two halves compose to the whole
  and are disjoint), the output array at the full share. Conversely the three windows' holdings rejoin to the two
  buffers held whole, as long as both input windows still see the same contents.
-/
import proofs.«131177_j17824114279178_2_alg».proof.Proof.Gen.Kernel.Launch
import Idealize.ShloMosaic.Lib.Pipeline.Kit

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.Kernel Cert.Kernel.Gen

variable {F : FTy → Type} [FloatOps F]

local notation "𝕄" => MT nD τ sig Unit (Elt F) ℕ (UR sig nD τ) ℕ

/-- The buffers behind the second region's arrays are two: the shared input and the output. -/
theorem arrRefs1 : Finset.univ.image (Pipeline.arrRef spec1) = ({main_v2, main_v3} : Finset (Ref sig .tc)) := by decide

variable {c : Dev nD} (dat : Dat τ (Elt F) Unit ℕ (UR sig nD τ) ℕ cfg1 c)
  (hq0 : dat.q 0 = fullShare.left) (hq1 : dat.q 1 = fullShare.right)
  (V : (b : Ref sig .tc) → Buf (Elt F) ((c : Thread nD τ).loc b))
  (A : (w : Fin cfg1.W) → Buf (Elt F) ((cfg1.win w).arr.view.loc (c : Thread nD τ)))

include hq0 hq1 in
/-- The region's arrays, window by window: the shared array at the two half shares, the output at the full share. -/
theorem arrays1_eq :
    (dat.arrays A : sProp 𝕄) = iprop((((c : Thread nD τ).loc main_v2) ↦{fullShare.left} A 0) ∗ (((c : Thread nD τ).loc main_v2) ↦{fullShare.right} A 1)
      ∗ (((c : Thread nD τ).loc main_v3) ↦{fullShare} A 2)) := by
  unfold Dat.arrays
  rw [bigSep_W1]
  have s0 : dat.share 0 = fullShare.left := by unfold Dat.share; rw [hq0]; rfl
  have s1 : dat.share 1 = fullShare.right := by unfold Dat.share; rw [hq1]; rfl
  have s2 : dat.share 2 = fullShare := by unfold Dat.share; rfl
  rw [s0, s1, s2, (arr_whole1 0).set_eq_univ, (arr_whole1 2).set_eq_univ]

/-- The two buffers behind the region's arrays, one by one. -/
theorem arrBufs1_eq :
    (Pipeline.arrBufs (Ix := Unit) (Name := ℕ) (U := UR sig nD τ) (Lvl := ℕ) spec1 c V : sProp 𝕄)
      = iprop((((c : Thread nD τ).loc main_v2) ↦{fullShare} V main_v2) ∗ (((c : Thread nD τ).loc main_v3) ↦{fullShare} V main_v3)) := by
  classical
  unfold Pipeline.arrBufs
  rw [arrRefs1, bigSep_insert (by decide), bigSep_singleton]
  rfl

include hq0 hq1 in
/-- ENTRY: the two buffers held whole at `V` are the region's arrays at contents that read `V`. -/
theorem arrays1_of_arrBufs (h0 : A 0 = V main_v2) (h1 : A 1 = V main_v2) (h2 : A 2 = V main_v3) :
    (Pipeline.arrBufs (Ix := Unit) (Name := ℕ) (U := UR sig nD τ) (Lvl := ℕ) spec1 c V : sProp 𝕄) ⊢ dat.arrays A := by
  classical
  rw [arrays1_eq dat hq0 hq1 A, h0, h1, h2, arrBufs1_eq]
  iintro ⟨H2, H3⟩
  ihave H := (pointsTo_share (PosShare.mem_left_op_right fullShare)).1 $$ H2
  icases H with ⟨Ha, Hb⟩
  isplitl [Ha]; · iexact Ha
  isplitl [Hb]; · iexact Hb
  iexact H3

include hq0 hq1 in
/-- EXIT: the region's arrays, the two input windows at ONE contents, are the two buffers held whole at any `V'`
    that reads those contents. -/
theorem arrBufs_of_arrays1 (h0 : A 0 = V main_v2) (h1 : A 1 = V main_v2) (h2 : A 2 = V main_v3) :
    (dat.arrays A : sProp 𝕄) ⊢ Pipeline.arrBufs (Ix := Unit) (Name := ℕ) (U := UR sig nD τ) (Lvl := ℕ) spec1 c V := by
  classical
  rw [arrays1_eq dat hq0 hq1 A, h0, h1, h2, arrBufs1_eq]
  iintro ⟨Ha, Hb, H3⟩
  isplitl [Ha Hb]
  · iapply (pointsTo_share (PosShare.mem_left_op_right fullShare)).2
    isplitl [Ha]; · iexact Ha
    iexact Hb
  iexact H3

end Cert.Kernel.Hand

end
-- ==== Proof.KRun.lean ====
/-
  The whole program as a chain of seven items — a host stretch, the projection region, a host stretch, the
  pairwise-distance region, and three host stretches — run from the launch memory.

  Between two items a core's unscoped buffers are held whole at a valuation: the launch memory, then after each host
  stretch the fold of its operations' results, and after a region the same valuation with the region's output array
  replaced by what its write-backs leave (an input array is never written). The second region reads ONE array through
  two windows; its full share is dealt to them as the left and the right half on entry and rejoined on exit.
  Every execution then terminates with each unscoped buffer at the last valuation; in particular no item writes an
  argument, and the result buffer holds the last host stretch's fold.
-/
import proofs.«131177_j17824114279178_2_alg».proof.Proof.Gen.Kernel.Launch
import proofs.«131177_j17824114279178_2_alg».proof.Proof.Gen.Kernel.Skeleton
import proofs.«131177_j17824114279178_2_alg».proof.Proof.Gen.Kernel.Points
import proofs.«131177_j17824114279178_2_alg».proof.Proof.Gen.Kernel.Regions
import proofs.«131177_j17824114279178_2_alg».proof.Proof.KRegion0
import proofs.«131177_j17824114279178_2_alg».proof.Proof.KRegion1
import proofs.«131177_j17824114279178_2_alg».proof.Proof.KSharedArray
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev U0 : Dev nD → Valuation τ sig (Elt F) := fun c b => m ((c : Dev nD), b)
/-- After the first host stretch (the projection region's entry). -/
abbrev U1 : Dev nD → Valuation τ sig (Elt F) := fun c => StableHlo.after hostOps0 (U0 m c)
/-- The same read at the TensorCore's references. -/
abbrev E1 : (c : Dev nD) → (b : Ref sig .tc) → Buf (Elt F) ((c : Thread nD τ).loc b) := fun c b => U1 m c b
/-- What the projection region leaves in its output array. -/
def o1 (c : Dev nD) : Buf (Elt F) ((c : Thread nD τ).loc main_v1) := (dat0 (E1 m) c).arrAt 2 cfg0.N
/-- After the projection region: its output array replaced, every other buffer as entered. -/
def U2 (c : Dev nD) : Valuation τ sig (Elt F) := Function.update (U1 m c) (Proc.devRef .tc main_v1) (o1 m c)
/-- After the second host stretch (the distance region's entry). -/
abbrev U3 : Dev nD → Valuation τ sig (Elt F) := fun c => StableHlo.after hostOps1 (U2 m c)
abbrev E3 : (c : Dev nD) → (b : Ref sig .tc) → Buf (Elt F) ((c : Thread nD τ).loc b) := fun c b => U3 m c b
/-- What the distance region leaves in its output array. -/
def o3 (c : Dev nD) : Buf (Elt F) ((c : Thread nD τ).loc main_v3) := (dat1 (E3 m) c).arrAt 2 cfg1.N
/-- After the distance region. -/
def U4 (c : Dev nD) : Valuation τ sig (Elt F) := Function.update (U3 m c) (Proc.devRef .tc main_v3) (o3 m c)
/-- After each of the three last host stretches. -/
abbrev U5 : Dev nD → Valuation τ sig (Elt F) := fun c => StableHlo.after hostOps2 (U4 m c)
abbrev U6 : Dev nD → Valuation τ sig (Elt F) := fun c => StableHlo.after hostOps2_1 (U5 m c)
abbrev U7 : Dev nD → Valuation τ sig (Elt F) := fun c => StableHlo.after hostOps2_2 (U6 m c)

theorem U2_out (c : Dev nD) : U2 m c (Proc.devRef .tc main_v1) = o1 m c := by
  unfold U2; exact Function.update_self ..
theorem U2_of_ne (c : Dev nD) (b : Ref sig .tc) (hb : b ≠ main_v1) : U2 m c (Proc.devRef .tc b) = U1 m c (Proc.devRef .tc b) := by
  unfold U2; exact Function.update_of_ne (StableHlo.devRef_ne_of_ne hb) ..
theorem U4_out (c : Dev nD) : U4 m c (Proc.devRef .tc main_v3) = o3 m c := by
  unfold U4; exact Function.update_self ..
theorem U4_of_ne (c : Dev nD) (b : Ref sig .tc) (hb : b ≠ main_v3) : U4 m c (Proc.devRef .tc b) = U3 m c (Proc.devRef .tc b) := by
  unfold U4; exact Function.update_of_ne (StableHlo.devRef_ne_of_ne hb) ..

/-! ## What no item writes: the arguments reach the end as launched -/

theorem U1_of (c : Dev nD) (r : Ref sig .tc) (h : r ∉ hostOps0_W) : U1 m c r = U0 m c r :=
  StableHlo.after_of_writes_sub hostOps0 _ hostOps0_writes h
theorem U3_of (c : Dev nD) (r : Ref sig .tc) (h : r ∉ hostOps1_W) : U3 m c r = U2 m c r :=
  StableHlo.after_of_writes_sub hostOps1 _ hostOps1_writes h
theorem U5_of (c : Dev nD) (r : Ref sig .tc) (h : r ∉ hostOps2_W) : U5 m c r = U4 m c r :=
  StableHlo.after_of_writes_sub hostOps2 _ hostOps2_writes h
theorem U6_of (c : Dev nD) (r : Ref sig .tc) (h : r ∉ hostOps2_1_W) : U6 m c r = U5 m c r :=
  StableHlo.after_of_writes_sub hostOps2_1 _ hostOps2_1_writes h
theorem U7_of (c : Dev nD) (r : Ref sig .tc) (h : r ∉ hostOps2_2_W) : U7 m c r = U6 m c r :=
  StableHlo.after_of_writes_sub hostOps2_2 _ hostOps2_2_writes h

/-- The first argument reaches the end as launched: no host stretch writes it, no region's output is it. -/
theorem U7_main_arg0 (c : Dev nD) : U7 m c (Proc.devRef .tc main_arg0) = m ((c : Thread nD τ).loc main_arg0) :=
  (U7_of m c main_arg0 (by decide)).trans <| (U6_of m c main_arg0 (by decide)).trans <| (U5_of m c main_arg0 (by decide)).trans <|
    (U4_of_ne m c main_arg0 (by decide)).trans <| (U3_of m c main_arg0 (by decide)).trans <| (U2_of_ne m c main_arg0 (by decide)).trans <|
    (U1_of m c main_arg0 (by decide)).trans rfl
/-- So does the second. -/
theorem U7_main_arg1 (c : Dev nD) : U7 m c (Proc.devRef .tc main_arg1) = m ((c : Thread nD τ).loc main_arg1) :=
  (U7_of m c main_arg1 (by decide)).trans <| (U6_of m c main_arg1 (by decide)).trans <| (U5_of m c main_arg1 (by decide)).trans <|
    (U4_of_ne m c main_arg1 (by decide)).trans <| (U3_of m c main_arg1 (by decide)).trans <| (U2_of_ne m c main_arg1 (by decide)).trans <|
    (U1_of m c main_arg1 (by decide)).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (U7 m c) ∗ ∃ r, prngReg c r)

/-! ## The projection region as a segment -/

/-- At the projection region's exit each of its arrays holds what the pipeline leaves: the inputs as entered, the output
    its write-backs. -/
theorem hF0 (c : Dev nD) (w : Fin cfg0.W) : (dat0 (E1 m) c).arrAt w cfg0.N = U2 m c (Proc.devRef .tc (Pipeline.arrRef spec0 w)) := by
  match w with
  | ⟨0, _⟩ => exact (((dat0 (E1 m) c).arrAt_in 0 rfl _).trans (A_eq0 (E1 m) c 0)).trans (U2_of_ne m c main_arg0 (by decide)).symm
  | ⟨1, _⟩ => exact (((dat0 (E1 m) c).arrAt_in 1 rfl _).trans (A_eq0 (E1 m) c 1)).trans (U2_of_ne m c main_v0 (by decide)).symm
  | ⟨2, _⟩ => exact (U2_out m c).symm
/-- and every other buffer what it held at entry. -/
theorem hrest0 (c : Dev nD) : ∀ b : Ref sig .tc, b ∉ Finset.univ.image (Pipeline.arrRef spec0) → U2 m c (Proc.devRef .tc b) = U1 m c (Proc.devRef .tc b) :=
  fun b hb => U2_of_ne m c b fun e => hb (Finset.mem_image.mpr ⟨2, Finset.mem_univ _, e.symm⟩)

variable (hb0 : ∀ (V : (c : Dev nD) → (b : Ref sig .tc) → Buf (Elt F) ((c : Thread nD τ).loc b)) (c : Dev nD),
  BodyObligation (dat0 (F := F) V c) (defs₀ (F := F)) Variants.none () Set.univ)
variable (hb1 : ∀ (V : (c : Dev nD) → (b : Ref sig .tc) → Buf (Elt F) ((c : Thread nD τ).loc b)) (c : Dev nD),
  BodyObligation (dat1 (F := F) V c) (defs₀ (F := F)) Variants.none () Set.univ)

set_option backward.isDefEq.respectTransparency.types false in
/-- The projection region: entered from every unscoped buffer at `U1`, left at `U2`. Its arrays are split out of
    the unscoped buffers and put back at the exit contents; the generator register goes into the region's invariant and
    comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb0 (E1 m) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun w => A_eq0 (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b => U2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The distance region as a segment: one array through two windows -/

/-- ENTRY: every unscoped buffer held at `U3` is the region's arrays at their entry contents — the shared array's
    share dealt to its two windows — and the unscoped rest. -/
theorem hsplit1 (c : Dev nD) :
    (StableHlo.held (c : Thread nD τ) (Pipeline.ucRefs τ sig) (U3 m c) : sProp 𝕄)
      ⊢ iprop((pdats m 1 c).arrays ((pdats m 1 c).arrAt · 0) ∗ Pipeline.unscopedRest (Ix := Unit) (Name := ℕ) (U := UR sig nD τ) (Lvl := ℕ) spec1 c (E3 m c)) := by
  rw [← Pipeline.unscopedBufs_held (Ix := Unit) (Name := ℕ) (U := UR sig nD τ) (Lvl := ℕ) c (U3 m c),
    Pipeline.unscopedBufs_split₀ (Pipeline.pin (pcfgs (F := F)) adm) 1 winFacts₀1.arr_unscoped c (E3 m c)]
  exact sep_mono (arrays1_of_arrBufs (pdats m 1 c) rfl rfl (E3 m c) _ (A_eq1 (E3 m) c 0) (A_eq1 (E3 m) c 1) (A_eq1 (E3 m) c 2)) .rfl

/-- EXIT: the region's arrays after its write-backs — both input windows still at the shared array's entry contents,
    the output at what the pipeline leaves — and the unscoped rest are every unscoped buffer held at `U4`. -/
theorem hjoin1 (c : Dev nD) :
    iprop((pdats m 1 c).arrays ((pdats m 1 c).arrAt · cfg1.N) ∗ Pipeline.unscopedRest (Ix := Unit) (Name := ℕ) (U := UR sig nD τ) (Lvl := ℕ) spec1 c (E3 m c))
      ⊢ (StableHlo.held (c : Thread nD τ) (Pipeline.ucRefs τ sig) (U4 m c) : sProp 𝕄) := by
  rw [← Pipeline.unscopedBufs_held (Ix := Unit) (Name := ℕ) (U := UR sig nD τ) (Lvl := ℕ) c (U4 m c),
    Pipeline.unscopedBufs_split₀ (Pipeline.pin (pcfgs (F := F)) adm) 1 winFacts₀1.arr_unscoped c (fun b => U4 m c b)]
  refine sep_mono (arrBufs_of_arrays1 (pdats m 1 c) rfl rfl (fun b => U4 m c b) _
    ((((dat1 (E3 m) c).arrAt_in 0 rfl _).trans (A_eq1 (E3 m) c 0)).trans (U4_of_ne m c main_v2 (by decide)).symm)
    ((((dat1 (E3 m) c).arrAt_in 1 rfl _).trans (A_eq1 (E3 m) c 1)).trans (U4_of_ne m c main_v2 (by decide)).symm)
    (U4_out m c).symm) (Entails.of_eq ?_)
  unfold Pipeline.unscopedRest
  exact bigSep_congr fun b hb => by
    rw [show E3 m c b = U4 m c (Proc.devRef .tc b) from
      (U4_of_ne m c b fun e => (Finset.mem_sdiff.mp hb).2 (Finset.mem_image.mpr ⟨2, Finset.mem_univ _, e.symm⟩)).symm]

set_option backward.isDefEq.respectTransparency.types false in
/-- The distance region: entered from every unscoped buffer at `U3`, left at `U4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (hb1 (E3 m) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    iintro ⟨⟨Hub, Hp, HO⟩, -, -⟩
    ihave H := (hsplit1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec1 c : sProp 𝕄) ⊢ (pdats m 1 c).Φ 0 from hin1 (E3 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ (Pipeline.ΦA spec1 c : sProp 𝕄) from hout1 (E3 m) c) ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (hjoin1 m c); isplitl [Ha] <;> iassumption
    isplitl [HY]; · iexact HY
    unfold Pipeline.Dat.owesAt Pipeline.owesWithin
    icases HO with ⟨%W, -, HO⟩; iexists W; iexact HO

/-! ## @main as its items, and the run -/

/-- @main's seven items in order. -/
abbrev items : List (Pipeline.Seg (pcfgs (F := F)) adm (pdats m) () defs₀ 𝒱₀ L lv) :=
  [ .host (hseg hostOps0 hostOps0_sub hostOps0_fresh (U0 m)),
    .region (reg0 m hb0),
    .host (hseg hostOps1 hostOps1_sub hostOps1_fresh (U2 m)),
    .region (reg1 m hb1),
    .host (hseg hostOps2 hostOps2_sub hostOps2_fresh (U4 m)),
    .host (hseg hostOps2_1 hostOps2_1_sub hostOps2_1_fresh (U5 m)),
    .host (hseg hostOps2_2 hostOps2_2_sub hostOps2_2_fresh (U6 m)) ]

include hb0 hb1 in
set_option backward.isDefEq.respectTransparency.types false in
/-- THE RUN: from any memory with zero counters every weakly fair execution of @main terminates, nothing faulting, and
    every final state holds each unscoped buffer at the last valuation `U7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U7 m c b) :=
  Pipeline.θ_run_regions_kit (pcfgs (F := F)) adm (pdats m) () cellOf_inj emb₁ defs₀ 𝒱₀ L lv m ρ main (items m hb0 hb1)
    (fun c Q => by
      rewrite [main_chain c, Pipeline.Seg.run_eq_chain,
        show (items m hb0 hb1).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2 ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tₙ m)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (U7 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U7 m c b)
    (hfin := fun c s' => by
      iintro ⟨⟨Hh, -⟩, HSI⟩
      unfold StableHlo.held
      imodintro
      iapply (pointsTo_read_all (Pipeline.ucRefs τ sig) (fun b => (((c : Thread nD τ)).1, b)) (U7 m c) s')
      isplitl [Hh] <;> iassumption)
    (hQ := fun s h => h)

end Cert.Kernel.Hand

end
-- ==== Proof.Region0.lean ====
/-
  The projection region: every grid point multiplies one block of 256 rows of the left operand by the whole
  right operand and stores the product over its whole output block.

  Stated at any contents V of the core's buffers on entry: the block of each window at a point (iblk0), what the
  body leaves in the output window's buffer as a function of the two input blocks (out0_2: the single store's
  payload laid over the whole block), the body's triple (sound_kernel0), the proof data of the pipeline (dat0) and
  the body obligation at every point (body_obligation0).

  The left operand's window moves with the point and is fetched at each one; the right operand's window is the whole
  array under a constant index map, fetched once: at a later point its buffer still holds the block, because the
  block index has not moved. The body also reads its output buffer before the store; the value read is not used,
  so the output buffer is only required to hold something.
-/
import proofs.«131177_j17824114279178_2_alg».proof.Proof.Gen.KernelIdeal.Launch
import proofs.«131177_j17824114279178_2_alg».proof.Proof.Gen.KernelIdeal.Skeleton
import proofs.«131177_j17824114279178_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents in the hundreds recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each is the whole block -/

abbrev r0_0 : Rect S256x512 := Rect.unit (s := S256x512) ![0, 0] S256x512.size inb_S256x512_S256x512_0_0
abbrev r0_1 : Rect S512x1024 := Rect.unit (s := S512x1024) ![0, 0] S512x1024.size inb_S512x1024_S512x1024_0_0
abbrev r0_2 : Rect S256x1024 := Rect.unit (s := S256x1024) ![0, 0] S256x1024.size inb_S256x1024_S256x1024_0_0

/-! ## What the body leaves in the output window's buffer -/

/-- The output buffer after the body, from the input windows' blocks: the product payload over the whole block. -/
def out0_2 (x0 : Vec F S256x512 .f32) (x1 : Vec F S512x1024 .f32) : Vec F S256x1024 .f32 :=
  View.canon [⟨r0_2, k0_pay1 (View.ld x0 r0_0) (View.ld x1 r0_1)⟩]

/-- The single store is the whole block, so it covers the buffer. -/
theorem cover0_2 (p0 : Vec F S256x1024 .f32) (y : S256x1024.Idx) :
    ∃ pc ∈ ([⟨r0_2, p0⟩] : List (View.Piece (Elt F) S256x1024 .f32)), y ∈ pc.1.set :=
  View.cover_of_tiled [⟨r0_2, p0⟩] S256x1024.size (by rfl) y

/-! ## The body's triple -/

set_option maxHeartbeats 1000000 in
/-- The body on whole buffers, the two inputs' at read contents x0 and x1 and the output's at anything, runs to the
    continuation holding the inputs' as they were and the output's at out0_2 of them. -/
theorem sound_kernel0 (c : Dev nD) (E : Set ℕ) (i : grid0.Coords)
    (arg1 : Memref sig .tc .vmem S256x512 .f32) (harg1 : arg1.IsWhole)
    (arg2 : Memref sig .tc .vmem S512x1024 .f32) (harg2 : arg2.IsWhole)
    (arg3 : Memref sig .tc .vmem S256x1024 .f32) (harg3 : arg3.IsWhole)
    (x0 : Vec F S256x512 .f32) (x1 : Vec F S512x1024 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__project_kernel i arg1 harg1 arg2 harg2 arg3 harg3) K := by
  simp only [cc0__project_kernel_eq_skeleton]; unfold cc0__project_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## What the body finds in each input window's buffer -/

/-- The left operand's current buffer holds its block at every point, for any proof data whose array is V's and whose
    body leaves the block in place: the window is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's buffer holds its block (the whole array) at every point: fetched at the first point, and at a
    later one the block index has not moved, so the buffer still holds what the first fetch put there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of the region on core c: the arrays as the region finds them; after the body at point t each
    input's buffer at its block and the output's at out0_2 of the two input blocks; the invariant is the untouched
    rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1Runs.lean ====
import proofs.«131177_j17824114279178_2_alg».proof.Proof.Gen.KernelIdeal.Launch
import proofs.«131177_j17824114279178_2_alg».proof.Proof.Gen.KernelIdeal.Skeleton
import proofs.«131177_j17824114279178_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the pairwise-distance accumulation): what its three control cases share

The grid is 4 × 4, point `t = 4·i + j`.  The body resets the accumulator when `j = 0`, adds the
block pair's contribution at every point, and stores the output block when `j = 3`. -/

/-! ## The body's two branch conditions, from the grid coordinates -/

/-- The reset condition (`j = 0`), spelled as the body computes it. -/
abbrev cond1_0 (i : grid1.Coords) : Prop :=
  (Scalar.cmpi .ne (Scalar.extui (Scalar.cmpi .eq (BitVec.ofNat 32 (i 1).val) 0#32)) 0#32) = 1#1
/-- It holds exactly at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The store-the-output condition (`j = 3`). -/
abbrev cond1_1 (i : grid1.Coords) : Prop := k1_cond2 i = 1#1
/-- It holds exactly at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Away from `j = 3` the output window is idle and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At `j = 3` it is live. -/
theorem liveAt1_2 : ∀ t : Fin cfg1.N, cond1_1 (grid1.coords t) → cfg1.idle 2 (grid1.coords t) = false := by decide +kernel

/-! ## The staging memrefs and the scratch accumulator -/

/-- One staging buffer of the output window, through which its contents are stated. -/
abbrev VO1_2 : View sig .tc .vmem S128x64 .f32 := (Memref.whole cc1_stg2_0 : Memref sig .tc .vmem S128x64 .f32).view
/-- Each window's current staging memref at point `t`, and its wholeness. -/
abbrev ms1_0 (t : Fin cfg1.N) : Memref sig .tc .vmem S128x64x16 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x64x16 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x64 .f32 := win1_2.stage (cfg1.slots t 2)
abbrev hs1_2 (t : Fin cfg1.N) : (ms1_2 t).IsWhole := hstage1_2 ((cfg1.slots t 2).cast nbuf1_2)
/-- The scratch accumulator: a whole scoped buffer of the kernel's own. -/
abbrev scM1_0 : Memref sig .tc .vmem S128x64 .f32 := Memref.whole cc1_scratch0
/-- The same as a view: what it holds is stated through it. -/
abbrev VS1_0 : View sig .tc .vmem S128x64 .f32 := scM1_0.view

/-- The other scoped buffers of the core (region 0's staging buffers), each whole at some contents. -/
def otherScoped1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The region invariant the launch hands over, with the scratch accumulator singled out as a memref owned at
    some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.Region1RunA.lean ====
import proofs.«131177_j17824114279178_2_alg».proof.Proof.Region1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE A (`j = 0`: the accumulator is reset, the pair's contribution added, the output not stored).  On whole
    memrefs — the two input blocks at `x0`, `x1`, the idle output at `xi2` handed back untouched, the scratch
    at anything — the body runs to the continuation holding the inputs as they were and the scratch with the
    pieces `LS0` written; the pieces are the witness the run finds. -/
noncomputable def kernelRun1_A (c : Dev nD) (i : grid1.Coords) (arg2 : Memref sig .tc .vmem S128x64x16 .f32) (harg2 : arg2.IsWhole) (arg3 : Memref sig .tc .vmem S128x64x16 .f32) (harg3 : arg3.IsWhole) (arg4 : Memref sig .tc .vmem S128x64 .f32) (harg4 : arg4.IsWhole) (arg5 : Memref sig .tc .vmem S128x64 .f32) (harg5 : arg5.IsWhole) (hc0 : cond1_0 i) (hc1 : ¬cond1_1 i)
    (x0 : Vec F S128x64x16 .f32) (x1 : Vec F S128x64x16 .f32) :
    Σ' (L2 : List (View.Piece (Elt F) S128x64 .f32)), { LS0 : List (View.Piece (Elt F) S128x64 .f32) //
      ∀ (xi2 : Vec F S128x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__l1_kernel i arg2 harg2 arg3 harg3 arg4 harg4 arg5 harg5) K } := by
  refine ⟨[], ?_, fun xi2 E K => ?run⟩
  case run =>
    simp only [cc1__l1_kernel_eq_skeleton]; unfold cc1__l1_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.Region1RunB.lean ====
import proofs.«131177_j17824114279178_2_alg».proof.Proof.Region1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE B (`j = 1, 2`: the pair's contribution is added to the accumulator, the output not stored).  On whole
    memrefs — the two input blocks at `x0`, `x1`, the idle output at `xi2` handed back untouched, the scratch
    at what the point before left, `xs0` — the body runs to the continuation holding the inputs as they were and
    the scratch with the pieces `LS0` written. -/
noncomputable def kernelRun1_B (c : Dev nD) (i : grid1.Coords) (arg2 : Memref sig .tc .vmem S128x64x16 .f32) (harg2 : arg2.IsWhole) (arg3 : Memref sig .tc .vmem S128x64x16 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : ¬cond1_1 i)
    (x0 : Vec F S128x64x16 .f32) (x1 : Vec F S128x64x16 .f32) (xs0 : Vec F S128x64 .f32) :
    Σ' (L2 : List (View.Piece (Elt F) S128x64 .f32)), { LS0 : List (View.Piece (Elt F) S128x64 .f32) //
      ∀ (xi2 : Vec F S128x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__l1_kernel i arg2 harg2 arg3 harg3 arg4 harg4 arg5 harg5) K } := by
  refine ⟨[], ?_, fun xi2 E K => ?run⟩
  case run =>
    simp only [cc1__l1_kernel_eq_skeleton]; unfold cc1__l1_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.Region1RunC.lean ====
import proofs.«131177_j17824114279178_2_alg».proof.Proof.Region1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE C (`j = 3`: the pair's contribution is added to the accumulator, then the accumulator less one is stored
    into the output block).  On whole memrefs — the two input blocks at `x0`, `x1`, the output at anything, the
    scratch at what the point before left, `xs0` — the body runs to the continuation holding the inputs as they
    were, the output with the pieces `L2` written and the scratch with the pieces `LS0` written. -/
noncomputable def kernelRun1_C (c : Dev nD) (i : grid1.Coords) (arg2 : Memref sig .tc .vmem S128x64x16 .f32) (harg2 : arg2.IsWhole) (arg3 : Memref sig .tc .vmem S128x64x16 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i)
    (x0 : Vec F S128x64x16 .f32) (x1 : Vec F S128x64x16 .f32) (xs0 : Vec F S128x64 .f32) :
    Σ' (L2 : List (View.Piece (Elt F) S128x64 .f32)), { LS0 : List (View.Piece (Elt F) S128x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__l1_kernel i arg2 harg2 arg3 harg3 arg4 harg4 arg5 harg5) K } := by
  refine ⟨?_, ?_, fun E K => ?run⟩
  case run =>
    simp only [cc1__l1_kernel_eq_skeleton]; unfold cc1__l1_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.Region1.lean ====
import proofs.«131177_j17824114279178_2_alg».proof.Proof.Region1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the frame half, at the contents `V` the region is entered with -/

/-- The shares of the three windowed arrays: the two input windows read ONE array, half of it each; the output
    array is held whole. -/
def q1 : Fin cfg1.W → PosShare TreeShare
  | ⟨0, _⟩ => fullShare.left
  | ⟨1, _⟩ => fullShare.right
  | ⟨2, _⟩ => fullShare

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (row block `i`, fetched when the row changes) holds its block at every point, for any proof data
    whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (row block `j`, fetched at every point) likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output block and in the accumulator -/

/-- Case A stores nothing into the output block: a placeholder nothing consults (the window is idle there). -/
def out1_A_2 (c : Dev nD) (i : grid1.Coords) (arg2 : Memref sig .tc .vmem S128x64x16 .f32) (harg2 : arg2.IsWhole) (arg3 : Memref sig .tc .vmem S128x64x16 .f32) (harg3 : arg3.IsWhole) (arg4 : Memref sig .tc .vmem S128x64 .f32) (harg4 : arg4.IsWhole) (arg5 : Memref sig .tc .vmem S128x64 .f32) (harg5 : arg5.IsWhole) (hc0 : cond1_0 i) (hc1 : ¬cond1_1 i) (x0 : Vec F S128x64x16 .f32) (x1 : Vec F S128x64x16 .f32) : Vec F S128x64 .f32 :=
  VO1_2.read (Elt F) (VO1_2.writes (Elt F) VO1_2.junk (kernelRun1_A c i arg2 harg2 arg3 harg3 arg4 harg4 arg5 harg5 hc0 hc1 x0 x1).1)

/-- Case A's stores into the accumulator cover it. -/
theorem scover1_A_0 (c : Dev nD) (i : grid1.Coords) (arg2 : Memref sig .tc .vmem S128x64x16 .f32) (harg2 : arg2.IsWhole) (arg3 : Memref sig .tc .vmem S128x64x16 .f32) (harg3 : arg3.IsWhole) (arg4 : Memref sig .tc .vmem S128x64 .f32) (harg4 : arg4.IsWhole) (arg5 : Memref sig .tc .vmem S128x64 .f32) (harg5 : arg5.IsWhole) (hc0 : cond1_0 i) (hc1 : ¬cond1_1 i) (x0 : Vec F S128x64x16 .f32) (x1 : Vec F S128x64x16 .f32) (y : S128x64.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S128x64.size (by sl_kernel_rfl) y

/-- What case A leaves in the accumulator: its stores read back. -/
def sout1_A_0 (c : Dev nD) (i : grid1.Coords) (arg2 : Memref sig .tc .vmem S128x64x16 .f32) (harg2 : arg2.IsWhole) (arg3 : Memref sig .tc .vmem S128x64x16 .f32) (harg3 : arg3.IsWhole) (arg4 : Memref sig .tc .vmem S128x64 .f32) (harg4 : arg4.IsWhole) (arg5 : Memref sig .tc .vmem S128x64 .f32) (harg5 : arg5.IsWhole) (hc0 : cond1_0 i) (hc1 : ¬cond1_1 i) (x0 : Vec F S128x64x16 .f32) (x1 : Vec F S128x64x16 .f32) : Vec F S128x64 .f32 :=
  VS1_0.read (Elt F) (VS1_0.writes (Elt F) VS1_0.junk (kernelRun1_A c i arg2 harg2 arg3 harg3 arg4 harg4 arg5 harg5 hc0 hc1 x0 x1).2.1)

/-- Case B stores nothing into the output block: a placeholder nothing consults. -/
def out1_B_2 (c : Dev nD) (i : grid1.Coords) (arg2 : Memref sig .tc .vmem S128x64x16 .f32) (harg2 : arg2.IsWhole) (arg3 : Memref sig .tc .vmem S128x64x16 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : ¬cond1_1 i) (x0 : Vec F S128x64x16 .f32) (x1 : Vec F S128x64x16 .f32) (xs0 : Vec F S128x64 .f32) : Vec F S128x64 .f32 :=
  VO1_2.read (Elt F) (VO1_2.writes (Elt F) VO1_2.junk (kernelRun1_B c i arg2 harg2 arg3 harg3 arg4 harg4 arg5 harg5 hc0 hc1 x0 x1 xs0).1)

/-- Case B's store into the accumulator covers it. -/
theorem scover1_B_0 (c : Dev nD) (i : grid1.Coords) (arg2 : Memref sig .tc .vmem S128x64x16 .f32) (harg2 : arg2.IsWhole) (arg3 : Memref sig .tc .vmem S128x64x16 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : ¬cond1_1 i) (x0 : Vec F S128x64x16 .f32) (x1 : Vec F S128x64x16 .f32) (xs0 : Vec F S128x64 .f32) (y : S128x64.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S128x64.size (by sl_kernel_rfl) y

/-- What case B leaves in the accumulator. -/
def sout1_B_0 (c : Dev nD) (i : grid1.Coords) (arg2 : Memref sig .tc .vmem S128x64x16 .f32) (harg2 : arg2.IsWhole) (arg3 : Memref sig .tc .vmem S128x64x16 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : ¬cond1_1 i) (x0 : Vec F S128x64x16 .f32) (x1 : Vec F S128x64x16 .f32) (xs0 : Vec F S128x64 .f32) : Vec F S128x64 .f32 :=
  VS1_0.read (Elt F) (VS1_0.writes (Elt F) VS1_0.junk (kernelRun1_B c i arg2 harg2 arg3 harg3 arg4 harg4 arg5 harg5 hc0 hc1 x0 x1 xs0).2.1)

/-- Case C's store into the output block covers it. -/
theorem cover1_C_2 (c : Dev nD) (i : grid1.Coords) (arg2 : Memref sig .tc .vmem S128x64x16 .f32) (harg2 : arg2.IsWhole) (arg3 : Memref sig .tc .vmem S128x64x16 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i) (x0 : Vec F S128x64x16 .f32) (x1 : Vec F S128x64x16 .f32) (xs0 : Vec F S128x64 .f32) (y : S128x64.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S128x64.size (by sl_kernel_rfl) y

/-- What case C leaves in the output block. -/
def out1_C_2 (c : Dev nD) (i : grid1.Coords) (arg2 : Memref sig .tc .vmem S128x64x16 .f32) (harg2 : arg2.IsWhole) (arg3 : Memref sig .tc .vmem S128x64x16 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i) (x0 : Vec F S128x64x16 .f32) (x1 : Vec F S128x64x16 .f32) (xs0 : Vec F S128x64 .f32) : Vec F S128x64 .f32 :=
  VO1_2.read (Elt F) (VO1_2.writes (Elt F) VO1_2.junk (kernelRun1_C c i arg2 harg2 arg3 harg3 arg4 harg4 arg5 harg5 hc0 hc1 x0 x1 xs0).1)

/-- Case C's store into the accumulator covers it. -/
theorem scover1_C_0 (c : Dev nD) (i : grid1.Coords) (arg2 : Memref sig .tc .vmem S128x64x16 .f32) (harg2 : arg2.IsWhole) (arg3 : Memref sig .tc .vmem S128x64x16 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i) (x0 : Vec F S128x64x16 .f32) (x1 : Vec F S128x64x16 .f32) (xs0 : Vec F S128x64 .f32) (y : S128x64.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S128x64.size (by sl_kernel_rfl) y

/-- What case C leaves in the accumulator. -/
def sout1_C_0 (c : Dev nD) (i : grid1.Coords) (arg2 : Memref sig .tc .vmem S128x64x16 .f32) (harg2 : arg2.IsWhole) (arg3 : Memref sig .tc .vmem S128x64x16 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i) (x0 : Vec F S128x64x16 .f32) (x1 : Vec F S128x64x16 .f32) (xs0 : Vec F S128x64 .f32) : Vec F S128x64 .f32 :=
  VS1_0.read (Elt F) (VS1_0.writes (Elt F) VS1_0.junk (kernelRun1_C c i arg2 harg2 arg3 harg3 arg4 harg4 arg5 harg5 hc0 hc1 x0 x1 xs0).2.1)

/-! ## What the output block and the accumulator hold after each point -/

/-- THE ACCUMULATION: what the output's staging buffer and the accumulator hold after the body at position `n`
    (a pair: output, accumulator) — the case the closed forms select at `n`, run at the point's two input blocks,
    the accumulator at what position `n - 1` left.  No point meets both conditions. -/
def outsAt1 (c : Dev nD) : (n : ℕ) → n < cfg1.N → Vec F S128x64 .f32 × Vec F S128x64 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a point of case A. -/
theorem outsAt1_A (c : Dev nD) (t : Fin cfg1.N) (h0 : t.val % 4 = 0) (h1 : ¬t.val % 4 = 3) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a point of case B, over what the point before left. -/
theorem outsAt1_B (c : Dev nD) (t : Fin cfg1.N) (h0 : ¬t.val % 4 = 0) (h1 : ¬t.val % 4 = 3) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C, over what the point before left. -/
theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- What the accumulator holds after point `t`. -/
def accAt (c : Dev nD) (t : Fin cfg1.N) : Vec F S128x64 .f32 := (outsAt1 V c t.val t.isLt).2
/-- What the output's staging buffer holds after point `t` (meaningful at `j = 3`). -/
def outAt (c : Dev nD) (t : Fin cfg1.N) : Vec F S128x64 .f32 := (outsAt1 V c t.val t.isLt).1

/-- The region invariant before position `n`: before the first point what the launch hands over; afterwards the
    other scoped buffers at anything, the accumulator at what the point before left, the generator register at
    some state. -/
def PhiS1 (c : Dev nD) : (n : ℕ) → n ≤ cfg1.N → sProp 𝕄
  | 0, _ => Pipeline.ΦA spec1 c
  | n + 1, hn => iprop(iprop(otherScoped1 (F := F) c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(otherScoped1 (F := F) c ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop(otherScoped1 (F := F) c ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of region 1 on core `c`: the arrays as the region finds them; after the body at point `t` each
    input's buffer at its block and the output's at `outsAt1`; the invariant `PhiS1`; nothing owed; the one input
    array shared in halves between the two input windows. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q := q1
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the closed forms say which case the point is in;
    the invariant hands the body the accumulator at what the point before left (at anything at the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 4 = 0
  · by_cases h1 : t.val % 4 = 3
    · exfalso; omega
    · rw [Dat.leavesExact_idle (dat1 V c) 2 t (idleAt1_2 t (fun h => h1 ((hcond1_1 t).mp h))) (noFlush1_2 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨Ha, Hb, Hc, Hd, He, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [Ha Hb Hc Hd He HS0 Hg]
        · isplitl [Ha Hb Hc Hd He HS0]
          · isplitl [Ha Hb Hc Hd He]
            · unfold otherScoped1
              isplitl [Ha]; · iexact Ha
              isplitl [Hb]; · iexact Hb
              isplitl [Hc]; · iexact Hc
              isplitl [Hd]; · iexact Hd
              iexact He
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨Hr, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [Hr HS0 Hg]
        · isplitl [Hr HS0]
          · isplitl [Hr]; · iexact Hr
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
  · have hz : t.val ≠ 0 := fun e => h0 (by rw [e])
    by_cases h1 : t.val % 4 = 3
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C_0; (try dsimp only)
      rw [PhiS1_castSucc V c t, PhiS1_pos V c _ _ hz]
      iintro ⟨⟨⟨Hr, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [Hr HS0 Hg]
      · isplitl [Hr HS0]
        · isplitl [Hr]; · iexact Hr
          unfold owns; iexists _; isplitr
          swap; · iexact HS0
          ipureintro; exact View.read_writes_of_cover _ _ _ _ _ (scover1_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B_0; (try dsimp only)
      rw [PhiS1_castSucc V c t, PhiS1_pos V c _ _ hz]
      iintro ⟨⟨⟨Hr, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [Hr HS0 Hg]
      · isplitl [Hr HS0]
        · isplitl [Hr]; · iexact Hr
          unfold owns; iexists _; isplitr
          swap; · iexact HS0
          ipureintro; exact View.read_writes_of_cover _ _ _ _ _ (scover1_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold otherScoped1
  iintro ⟨⟨⟨Ha, Hb, Hc, Hd, He⟩, HS0⟩, Hg⟩
  isplitl [Ha Hb Hc Hd He HS0]
  · isplitl [Ha]; · iexact Ha
    isplitl [Hb]; · iexact Hb
    isplitl [Hc]; · iexact Hc
    isplitl [Hd]; · iexact Hd
    isplitl [He]; · iexact He
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end Cert.KernelIdeal.Hand

end
-- ==== Proof.SharedArray.lean ====
/-
  The second region reads ONE array through two windows. A core that holds the buffers behind the region's arrays
  whole, each at the full share, holds the region's arrays as its proof data asks for them: the shared array's full share
  dealt as its left half to the first window and its right half to the second (the two halves compose to the whole
  and are disjoint), the output array at the full share. Conversely the three windows' holdings rejoin to the two
  buffers held whole, as long as both input windows still see the same contents.
-/
import proofs.«131177_j17824114279178_2_alg».proof.Proof.Gen.KernelIdeal.Launch
import Idealize.ShloMosaic.Lib.Pipeline.Kit

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.KernelIdeal Cert.KernelIdeal.Gen

variable {F : FTy → Type} [FloatOps F]

local notation "𝕄" => MT nD τ sig Unit (Elt F) ℕ (UR sig nD τ) ℕ

/-- The buffers behind the second region's arrays are two: the shared input and the output. -/
theorem arrRefs1 : Finset.univ.image (Pipeline.arrRef spec1) = ({main_v2, main_v3} : Finset (Ref sig .tc)) := by decide

variable {c : Dev nD} (dat : Dat τ (Elt F) Unit ℕ (UR sig nD τ) ℕ cfg1 c)
  (hq0 : dat.q 0 = fullShare.left) (hq1 : dat.q 1 = fullShare.right)
  (V : (b : Ref sig .tc) → Buf (Elt F) ((c : Thread nD τ).loc b))
  (A : (w : Fin cfg1.W) → Buf (Elt F) ((cfg1.win w).arr.view.loc (c : Thread nD τ)))

include hq0 hq1 in
/-- The region's arrays, window by window: the shared array at the two half shares, the output at the full share. -/
theorem arrays1_eq :
    (dat.arrays A : sProp 𝕄) = iprop((((c : Thread nD τ).loc main_v2) ↦{fullShare.left} A 0) ∗ (((c : Thread nD τ).loc main_v2) ↦{fullShare.right} A 1)
      ∗ (((c : Thread nD τ).loc main_v3) ↦{fullShare} A 2)) := by
  unfold Dat.arrays
  rw [bigSep_W1]
  have s0 : dat.share 0 = fullShare.left := by unfold Dat.share; rw [hq0]; rfl
  have s1 : dat.share 1 = fullShare.right := by unfold Dat.share; rw [hq1]; rfl
  have s2 : dat.share 2 = fullShare := by unfold Dat.share; rfl
  rw [s0, s1, s2, (arr_whole1 0).set_eq_univ, (arr_whole1 2).set_eq_univ]

/-- The two buffers behind the region's arrays, one by one. -/
theorem arrBufs1_eq :
    (Pipeline.arrBufs (Ix := Unit) (Name := ℕ) (U := UR sig nD τ) (Lvl := ℕ) spec1 c V : sProp 𝕄)
      = iprop((((c : Thread nD τ).loc main_v2) ↦{fullShare} V main_v2) ∗ (((c : Thread nD τ).loc main_v3) ↦{fullShare} V main_v3)) := by
  classical
  unfold Pipeline.arrBufs
  rw [arrRefs1, bigSep_insert (by decide), bigSep_singleton]
  rfl

include hq0 hq1 in
/-- ENTRY: the two buffers held whole at `V` are the region's arrays at contents that read `V`. -/
theorem arrays1_of_arrBufs (h0 : A 0 = V main_v2) (h1 : A 1 = V main_v2) (h2 : A 2 = V main_v3) :
    (Pipeline.arrBufs (Ix := Unit) (Name := ℕ) (U := UR sig nD τ) (Lvl := ℕ) spec1 c V : sProp 𝕄) ⊢ dat.arrays A := by
  classical
  rw [arrays1_eq dat hq0 hq1 A, h0, h1, h2, arrBufs1_eq]
  iintro ⟨H2, H3⟩
  ihave H := (pointsTo_share (PosShare.mem_left_op_right fullShare)).1 $$ H2
  icases H with ⟨Ha, Hb⟩
  isplitl [Ha]; · iexact Ha
  isplitl [Hb]; · iexact Hb
  iexact H3

include hq0 hq1 in
/-- EXIT: the region's arrays, the two input windows at ONE contents, are the two buffers held whole at any `V'`
    that reads those contents. -/
theorem arrBufs_of_arrays1 (h0 : A 0 = V main_v2) (h1 : A 1 = V main_v2) (h2 : A 2 = V main_v3) :
    (dat.arrays A : sProp 𝕄) ⊢ Pipeline.arrBufs (Ix := Unit) (Name := ℕ) (U := UR sig nD τ) (Lvl := ℕ) spec1 c V := by
  classical
  rw [arrays1_eq dat hq0 hq1 A, h0, h1, h2, arrBufs1_eq]
  iintro ⟨Ha, Hb, H3⟩
  isplitl [Ha Hb]
  · iapply (pointsTo_share (PosShare.mem_left_op_right fullShare)).2
    isplitl [Ha]; · iexact Ha
    iexact Hb
  iexact H3

end Cert.KernelIdeal.Hand

end
-- ==== Proof.Run.lean ====
/-
  The whole program as a chain of seven items — a host stretch, the projection region, a host stretch, the
  pairwise-distance region, and three host stretches — run from the launch memory.

  Between two items a core's unscoped buffers are held whole at a valuation: the launch memory, then after each host
  stretch the fold of its operations' results, and after a region the same valuation with the region's output array
  replaced by what its write-backs leave (an input array is never written). The second region reads ONE array through
  two windows; its full share is dealt to them as the left and the right half on entry and rejoined on exit.
  Every execution then terminates with each unscoped buffer at the last valuation; in particular no item writes an
  argument, and the result buffer holds the last host stretch's fold.
-/
import proofs.«131177_j17824114279178_2_alg».proof.Proof.Gen.KernelIdeal.Launch
import proofs.«131177_j17824114279178_2_alg».proof.Proof.Gen.KernelIdeal.Skeleton
import proofs.«131177_j17824114279178_2_alg».proof.Proof.Gen.KernelIdeal.Points
import proofs.«131177_j17824114279178_2_alg».proof.Proof.Gen.KernelIdeal.Regions
import proofs.«131177_j17824114279178_2_alg».proof.Proof.Region0
import proofs.«131177_j17824114279178_2_alg».proof.Proof.Region1
import proofs.«131177_j17824114279178_2_alg».proof.Proof.SharedArray
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev U0 : Dev nD → Valuation τ sig (Elt F) := fun c b => m ((c : Dev nD), b)
/-- After the first host stretch (the projection region's entry). -/
abbrev U1 : Dev nD → Valuation τ sig (Elt F) := fun c => StableHlo.after hostOps0 (U0 m c)
/-- The same read at the TensorCore's references. -/
abbrev E1 : (c : Dev nD) → (b : Ref sig .tc) → Buf (Elt F) ((c : Thread nD τ).loc b) := fun c b => U1 m c b
/-- What the projection region leaves in its output array. -/
def o1 (c : Dev nD) : Buf (Elt F) ((c : Thread nD τ).loc main_v1) := (dat0 (E1 m) c).arrAt 2 cfg0.N
/-- After the projection region: its output array replaced, every other buffer as entered. -/
def U2 (c : Dev nD) : Valuation τ sig (Elt F) := Function.update (U1 m c) (Proc.devRef .tc main_v1) (o1 m c)
/-- After the second host stretch (the distance region's entry). -/
abbrev U3 : Dev nD → Valuation τ sig (Elt F) := fun c => StableHlo.after hostOps1 (U2 m c)
abbrev E3 : (c : Dev nD) → (b : Ref sig .tc) → Buf (Elt F) ((c : Thread nD τ).loc b) := fun c b => U3 m c b
/-- What the distance region leaves in its output array. -/
def o3 (c : Dev nD) : Buf (Elt F) ((c : Thread nD τ).loc main_v3) := (dat1 (E3 m) c).arrAt 2 cfg1.N
/-- After the distance region. -/
def U4 (c : Dev nD) : Valuation τ sig (Elt F) := Function.update (U3 m c) (Proc.devRef .tc main_v3) (o3 m c)
/-- After each of the three last host stretches. -/
abbrev U5 : Dev nD → Valuation τ sig (Elt F) := fun c => StableHlo.after hostOps2 (U4 m c)
abbrev U6 : Dev nD → Valuation τ sig (Elt F) := fun c => StableHlo.after hostOps2_1 (U5 m c)
abbrev U7 : Dev nD → Valuation τ sig (Elt F) := fun c => StableHlo.after hostOps2_2 (U6 m c)

theorem U2_out (c : Dev nD) : U2 m c (Proc.devRef .tc main_v1) = o1 m c := by
  unfold U2; exact Function.update_self ..
theorem U2_of_ne (c : Dev nD) (b : Ref sig .tc) (hb : b ≠ main_v1) : U2 m c (Proc.devRef .tc b) = U1 m c (Proc.devRef .tc b) := by
  unfold U2; exact Function.update_of_ne (StableHlo.devRef_ne_of_ne hb) ..
theorem U4_out (c : Dev nD) : U4 m c (Proc.devRef .tc main_v3) = o3 m c := by
  unfold U4; exact Function.update_self ..
theorem U4_of_ne (c : Dev nD) (b : Ref sig .tc) (hb : b ≠ main_v3) : U4 m c (Proc.devRef .tc b) = U3 m c (Proc.devRef .tc b) := by
  unfold U4; exact Function.update_of_ne (StableHlo.devRef_ne_of_ne hb) ..

/-! ## What no item writes: the arguments reach the end as launched -/

theorem U1_of (c : Dev nD) (r : Ref sig .tc) (h : r ∉ hostOps0_W) : U1 m c r = U0 m c r :=
  StableHlo.after_of_writes_sub hostOps0 _ hostOps0_writes h
theorem U3_of (c : Dev nD) (r : Ref sig .tc) (h : r ∉ hostOps1_W) : U3 m c r = U2 m c r :=
  StableHlo.after_of_writes_sub hostOps1 _ hostOps1_writes h
theorem U5_of (c : Dev nD) (r : Ref sig .tc) (h : r ∉ hostOps2_W) : U5 m c r = U4 m c r :=
  StableHlo.after_of_writes_sub hostOps2 _ hostOps2_writes h
theorem U6_of (c : Dev nD) (r : Ref sig .tc) (h : r ∉ hostOps2_1_W) : U6 m c r = U5 m c r :=
  StableHlo.after_of_writes_sub hostOps2_1 _ hostOps2_1_writes h
theorem U7_of (c : Dev nD) (r : Ref sig .tc) (h : r ∉ hostOps2_2_W) : U7 m c r = U6 m c r :=
  StableHlo.after_of_writes_sub hostOps2_2 _ hostOps2_2_writes h

/-- The first argument reaches the end as launched: no host stretch writes it, no region's output is it. -/
theorem U7_main_arg0 (c : Dev nD) : U7 m c (Proc.devRef .tc main_arg0) = m ((c : Thread nD τ).loc main_arg0) :=
  (U7_of m c main_arg0 (by decide)).trans <| (U6_of m c main_arg0 (by decide)).trans <| (U5_of m c main_arg0 (by decide)).trans <|
    (U4_of_ne m c main_arg0 (by decide)).trans <| (U3_of m c main_arg0 (by decide)).trans <| (U2_of_ne m c main_arg0 (by decide)).trans <|
    (U1_of m c main_arg0 (by decide)).trans rfl
/-- So does the second. -/
theorem U7_main_arg1 (c : Dev nD) : U7 m c (Proc.devRef .tc main_arg1) = m ((c : Thread nD τ).loc main_arg1) :=
  (U7_of m c main_arg1 (by decide)).trans <| (U6_of m c main_arg1 (by decide)).trans <| (U5_of m c main_arg1 (by decide)).trans <|
    (U4_of_ne m c main_arg1 (by decide)).trans <| (U3_of m c main_arg1 (by decide)).trans <| (U2_of_ne m c main_arg1 (by decide)).trans <|
    (U1_of m c main_arg1 (by decide)).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (U7 m c) ∗ ∃ r, prngReg c r)

/-! ## The projection region as a segment -/

/-- At the projection region's exit each of its arrays holds what the pipeline leaves: the inputs as entered, the output
    its write-backs. -/
theorem hF0 (c : Dev nD) (w : Fin cfg0.W) : (dat0 (E1 m) c).arrAt w cfg0.N = U2 m c (Proc.devRef .tc (Pipeline.arrRef spec0 w)) := by
  match w with
  | ⟨0, _⟩ => exact (((dat0 (E1 m) c).arrAt_in 0 rfl _).trans (A_eq0 (E1 m) c 0)).trans (U2_of_ne m c main_arg0 (by decide)).symm
  | ⟨1, _⟩ => exact (((dat0 (E1 m) c).arrAt_in 1 rfl _).trans (A_eq0 (E1 m) c 1)).trans (U2_of_ne m c main_v0 (by decide)).symm
  | ⟨2, _⟩ => exact (U2_out m c).symm
/-- and every other buffer what it held at entry. -/
theorem hrest0 (c : Dev nD) : ∀ b : Ref sig .tc, b ∉ Finset.univ.image (Pipeline.arrRef spec0) → U2 m c (Proc.devRef .tc b) = U1 m c (Proc.devRef .tc b) :=
  fun b hb => U2_of_ne m c b fun e => hb (Finset.mem_image.mpr ⟨2, Finset.mem_univ _, e.symm⟩)

variable (hb0 : ∀ (V : (c : Dev nD) → (b : Ref sig .tc) → Buf (Elt F) ((c : Thread nD τ).loc b)) (c : Dev nD),
  BodyObligation (dat0 (F := F) V c) (defs₀ (F := F)) Variants.none () Set.univ)
variable (hb1 : ∀ (V : (c : Dev nD) → (b : Ref sig .tc) → Buf (Elt F) ((c : Thread nD τ).loc b)) (c : Dev nD),
  BodyObligation (dat1 (F := F) V c) (defs₀ (F := F)) Variants.none () Set.univ)

set_option backward.isDefEq.respectTransparency.types false in
/-- The projection region: entered from every unscoped buffer at `U1`, left at `U2`. Its arrays are split out of
    the unscoped buffers and put back at the exit contents; the generator register goes into the region's invariant and
    comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb0 (E1 m) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun w => A_eq0 (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b => U2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The distance region as a segment: one array through two windows -/

/-- ENTRY: every unscoped buffer held at `U3` is the region's arrays at their entry contents — the shared array's
    share dealt to its two windows — and the unscoped rest. -/
theorem hsplit1 (c : Dev nD) :
    (StableHlo.held (c : Thread nD τ) (Pipeline.ucRefs τ sig) (U3 m c) : sProp 𝕄)
      ⊢ iprop((pdats m 1 c).arrays ((pdats m 1 c).arrAt · 0) ∗ Pipeline.unscopedRest (Ix := Unit) (Name := ℕ) (U := UR sig nD τ) (Lvl := ℕ) spec1 c (E3 m c)) := by
  rw [← Pipeline.unscopedBufs_held (Ix := Unit) (Name := ℕ) (U := UR sig nD τ) (Lvl := ℕ) c (U3 m c),
    Pipeline.unscopedBufs_split₀ (Pipeline.pin (pcfgs (F := F)) adm) 1 winFacts₀1.arr_unscoped c (E3 m c)]
  exact sep_mono (arrays1_of_arrBufs (pdats m 1 c) rfl rfl (E3 m c) _ (A_eq1 (E3 m) c 0) (A_eq1 (E3 m) c 1) (A_eq1 (E3 m) c 2)) .rfl

/-- EXIT: the region's arrays after its write-backs — both input windows still at the shared array's entry contents,
    the output at what the pipeline leaves — and the unscoped rest are every unscoped buffer held at `U4`. -/
theorem hjoin1 (c : Dev nD) :
    iprop((pdats m 1 c).arrays ((pdats m 1 c).arrAt · cfg1.N) ∗ Pipeline.unscopedRest (Ix := Unit) (Name := ℕ) (U := UR sig nD τ) (Lvl := ℕ) spec1 c (E3 m c))
      ⊢ (StableHlo.held (c : Thread nD τ) (Pipeline.ucRefs τ sig) (U4 m c) : sProp 𝕄) := by
  rw [← Pipeline.unscopedBufs_held (Ix := Unit) (Name := ℕ) (U := UR sig nD τ) (Lvl := ℕ) c (U4 m c),
    Pipeline.unscopedBufs_split₀ (Pipeline.pin (pcfgs (F := F)) adm) 1 winFacts₀1.arr_unscoped c (fun b => U4 m c b)]
  refine sep_mono (arrBufs_of_arrays1 (pdats m 1 c) rfl rfl (fun b => U4 m c b) _
    ((((dat1 (E3 m) c).arrAt_in 0 rfl _).trans (A_eq1 (E3 m) c 0)).trans (U4_of_ne m c main_v2 (by decide)).symm)
    ((((dat1 (E3 m) c).arrAt_in 1 rfl _).trans (A_eq1 (E3 m) c 1)).trans (U4_of_ne m c main_v2 (by decide)).symm)
    (U4_out m c).symm) (Entails.of_eq ?_)
  unfold Pipeline.unscopedRest
  exact bigSep_congr fun b hb => by
    rw [show E3 m c b = U4 m c (Proc.devRef .tc b) from
      (U4_of_ne m c b fun e => (Finset.mem_sdiff.mp hb).2 (Finset.mem_image.mpr ⟨2, Finset.mem_univ _, e.symm⟩)).symm]

set_option backward.isDefEq.respectTransparency.types false in
/-- The distance region: entered from every unscoped buffer at `U3`, left at `U4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (hb1 (E3 m) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    iintro ⟨⟨Hub, Hp, HO⟩, -, -⟩
    ihave H := (hsplit1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec1 c : sProp 𝕄) ⊢ (pdats m 1 c).Φ 0 from hin1 (E3 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ (Pipeline.ΦA spec1 c : sProp 𝕄) from hout1 (E3 m) c) ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (hjoin1 m c); isplitl [Ha] <;> iassumption
    isplitl [HY]; · iexact HY
    unfold Pipeline.Dat.owesAt Pipeline.owesWithin
    icases HO with ⟨%W, -, HO⟩; iexists W; iexact HO

/-! ## @main as its items, and the run -/

/-- @main's seven items in order. -/
abbrev items : List (Pipeline.Seg (pcfgs (F := F)) adm (pdats m) () defs₀ 𝒱₀ L lv) :=
  [ .host (hseg hostOps0 hostOps0_sub hostOps0_fresh (U0 m)),
    .region (reg0 m hb0),
    .host (hseg hostOps1 hostOps1_sub hostOps1_fresh (U2 m)),
    .region (reg1 m hb1),
    .host (hseg hostOps2 hostOps2_sub hostOps2_fresh (U4 m)),
    .host (hseg hostOps2_1 hostOps2_1_sub hostOps2_1_fresh (U5 m)),
    .host (hseg hostOps2_2 hostOps2_2_sub hostOps2_2_fresh (U6 m)) ]

include hb0 hb1 in
set_option backward.isDefEq.respectTransparency.types false in
/-- THE RUN: from any memory with zero counters every weakly fair execution of @main terminates, nothing faulting, and
    every final state holds each unscoped buffer at the last valuation `U7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U7 m c b) :=
  Pipeline.θ_run_regions_kit (pcfgs (F := F)) adm (pdats m) () cellOf_inj emb₁ defs₀ 𝒱₀ L lv m ρ main (items m hb0 hb1)
    (fun c Q => by
      rewrite [main_chain c, Pipeline.Seg.run_eq_chain,
        show (items m hb0 hb1).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2 ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tₙ m)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (U7 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U7 m c b)
    (hfin := fun c s' => by
      iintro ⟨⟨Hh, -⟩, HSI⟩
      unfold StableHlo.held
      imodintro
      iapply (pointsTo_read_all (Pipeline.ucRefs τ sig) (fun b => (((c : Thread nD τ)).1, b)) (U7 m c) s')
      isplitl [Hh] <;> iassumption)
    (hQ := fun s h => h)

end Cert.KernelIdeal.Hand

end
-- ==== Proof.LibPlainDot.lean ====
/-
  A plain matrix product [M, K] × [K, N] read at an index over the extended reals.

  With the contraction on the left operand's axis 1 and the right operand's axis 0 and no batch axis, the product's
  entry (p, q) is the sum over k of lhs (p, k) · rhs (k, q): for a matrix unit's product into a zero accumulator
  (matmul_zero_apply) and for the host's dot_general (dotGeneral_apply) alike, whatever precision or schedule key
  they carry. Both follow from re-indexing the sum over the one-axis contraction shape by its coordinate (contr_sum).
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat}

/-- The dimension numbers of the plain product. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

/-- The left operand's row coordinate is the result's row, whatever the contraction index. -/
theorem lhs_row (j : (⟨2, ![M, N]⟩ : Shape).Idx) (r : (plainDims M K N wf).contr.Idx) :
    ((plainDims M K N wf).lhsIdx j r 0).val = (j 0).val := by
  unfold DotDims.lhsIdx
  rw [dif_neg (show ¬ (0 : Fin 2) ∈ (plainDims M K N wf).lhsBatch from List.not_mem_nil),
    dif_pos (show (0 : Fin 2) ∈ (plainDims M K N wf).lhsNonContracting from List.mem_singleton.mpr rfl)]
  rfl

/-- The right operand's column coordinate is the result's column, whatever the contraction index. -/
theorem rhs_col (j : (⟨2, ![M, N]⟩ : Shape).Idx) (r : (plainDims M K N wf).contr.Idx) :
    ((plainDims M K N wf).rhsIdx j r 1).val = (j 1).val := by
  unfold DotDims.rhsIdx
  rw [dif_neg (show ¬ (1 : Fin 2) ∈ (plainDims M K N wf).rhsBatch from List.not_mem_nil),
    dif_pos (show (1 : Fin 2) ∈ (plainDims M K N wf).rhsNonContracting from List.mem_singleton.mpr rfl)]
  rfl

/-- The sum over the contraction shape is the sum over k of lhs (p, k) · rhs (k, q). -/
theorem contr_sum (lhs : (⟨2, ![M, K]⟩ : Shape).Idx → EReal) (rhs : (⟨2, ![K, N]⟩ : Shape).Idx → EReal) (p : Fin M) (q : Fin N) :
    ∑ k : (plainDims M K N wf).contr.Idx, lhs ((plainDims M K N wf).lhsIdx (ix2 p q) k) * rhs ((plainDims M K N wf).rhsIdx (ix2 p q) k)
      = ∑ k : Fin K, lhs (ix2 p k) * rhs (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ => exact rhs_col wf _ _)
  rw [el, er]

/-- A MATRIX UNIT'S PRODUCT INTO A ZERO ACCUMULATOR, read at (p, q), for ANY dimension numbers of the plain form. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the plain form. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.PlainDot

end
-- ==== Proof.Spec.lean ====
/-
  The mathematics both programs compute, as functions of the argument arrays over the extended reals.

  With x : [512,512] and T : [512,64,16]:
    M[b,f,d]   = Σ_k x[b,k] · T[k,f,d]                               (the projection, k over 512)
    D[b,b',f]  = Σ_d |M[b,f,d] − M[b',f,d]|                          (an L1 distance, d over 16; |a| = max a (−a))
    sim[b,f]   = (Σ_b' exp (−D[b,b',f])) − 1                         (b' over all 512 rows)
  The distance is symmetric in its two rows on ALL extended reals (no finiteness is needed: at the
  corners ⊤ − ⊤ = ⊥ both orders give max ⊥ ⊤ = ⊤), so summing exp(−D) over the first or over the
  second row index is the same number.
-/
import Idealize.ShloMosaic.PureOps.Ideal
import Idealize.ShloMosaic.Lib.ValueIdx

noncomputable section

namespace Cert.L1Spec

open Idealize.ShloMosaic Idealize.ShloMosaic.ValueIdx

/-- The shapes of the two arguments, of the projection and of the similarity block. -/
abbrev SX : Shape := ⟨2, ![512, 512]⟩
abbrev ST : Shape := ⟨3, ![512, 64, 16]⟩
abbrev SSim : Shape := ⟨2, ![512, 64]⟩

/-- One entry of the projection: M[b,f,d] = Σ_k x[b,k] · T[k,f,d]. -/
def projAt (x : SX.Idx → EReal) (T : ST.Idx → EReal) (b : Fin 512) (f : Fin 64) (d : Fin 16) : EReal :=
  ∑ k : Fin 512, x (ix2 b k) * T (ix3 k f d)

/-- The projection as an array [512,64,16]. -/
def proj (x : SX.Idx → EReal) (T : ST.Idx → EReal) : ST.Idx → EReal :=
  fun i => projAt x T (i 0) (i 1) (i 2)

theorem proj_apply (x : SX.Idx → EReal) (T : ST.Idx → EReal) (b : Fin 512) (f : Fin 64) (d : Fin 16) :
    proj x T (ix3 b f d) = projAt x T b f d := rfl

/-- |a − b| on the extended reals, as the programs compute it: max (a − b) (−(a − b)). -/
def absDiff (a b : EReal) : EReal := max (a - b) (-(a - b))

/-- |a − b| = |b − a| for ALL extended reals. -/
theorem absDiff_symm (a b : EReal) : absDiff a b = absDiff b a := by
  unfold absDiff
  induction a using EReal.rec <;> induction b using EReal.rec <;>
    first
      | rfl
      | (simp only [← EReal.coe_sub, ← EReal.coe_neg, neg_sub]; exact max_comm _ _)
      | simp

/-- The L1 distance of rows b and b' of M along the last axis, at feature f. -/
def distAt (M : ST.Idx → EReal) (b b' : Fin 512) (f : Fin 64) : EReal :=
  ∑ d : Fin 16, absDiff (M (ix3 b f d)) (M (ix3 b' f d))

/-- The distance is symmetric in the two rows. -/
theorem distAt_symm (M : ST.Idx → EReal) (b b' : Fin 512) (f : Fin 64) : distAt M b b' f = distAt M b' b f :=
  Finset.sum_congr rfl fun d _ => absDiff_symm _ _

/-- One entry of the similarity block: (Σ_b' exp (−D[b,b',f])) − 1, the 1 kept as its f32 word. -/
def simAt (M : ST.Idx → EReal) (b : Fin 512) (f : Fin 64) : EReal :=
  (∑ b' : Fin 512, Ideal.exp (-(distAt M b b' f))) - Ideal.ofBits .f32 0x3F800000#32

/-- The similarity block as an array [512,64]. -/
def sim (M : ST.Idx → EReal) : SSim.Idx → EReal := fun i => simAt M (i 0) (i 1)

theorem sim_apply (M : ST.Idx → EReal) (b : Fin 512) (f : Fin 64) : sim M (ix2 b f) = simAt M b f := rfl

/-- Summing exp(−D) over the FIRST row index instead of the second gives the same entry. -/
theorem simAt_swap (M : ST.Idx → EReal) (b : Fin 512) (f : Fin 64) :
    (∑ b' : Fin 512, Ideal.exp (-(distAt M b' b f))) - Ideal.ofBits .f32 0x3F800000#32 = simAt M b f := by
  unfold simAt
  exact congrArg (· - _) (Finset.sum_congr rfl fun b' _ => by rw [distAt_symm])

end Cert.L1Spec

end
-- ==== Proof.Region0Value.lean ====
/-
  What the projection region leaves in its output array, index by index, over the extended reals.

  With A the [512,512] left operand and B the [512,1024] right operand as the region finds them, the output array
  ends holding G[p,q] = Σ_k A[p,k] · B[k,q] (k over 512).

  The body's payload at entry (r,q) of a block is Σ_k x0[r,k] · x1[k,q]: the format changes are the identity on
  extended reals, the reshape to the same shape is the identity, and a matrix unit's product into a zero
  accumulator is the plain sum of products. At grid point t the left operand's block is rows 256·t … 256·t+255 of
  A, the right operand's block is all of B, and the output block is rows 256·t … 256·t+255 of the output array; so
  what point t writes back is the restriction of G to those rows. Row p lies in the block of point p / 256, both
  points write back, so the blocks cover the array and it ends holding G.
-/
import proofs.«131177_j17824114279178_2_alg».proof.Proof.Region0
import proofs.«131177_j17824114279178_2_alg».proof.Proof.LibPlainDot
import proofs.«131177_j17824114279178_2_alg».proof.Proof.Spec
import Idealize.ShloMosaic.Lib.Pipeline.Value
import Idealize.ShloMosaic.Lib.ValueIdx
import Idealize.ShloMosaic.Lib.Tactic

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

-- the core's buffer contents when the region is entered, over the extended reals
variable (V : (c : Dev nD) → (b : Ref sig .tc) → Buf (Elt Ideal) ((c : Thread nD τ).loc b))

/-! ## The product array -/

/-- The product as one function of the two operand arrays: G[p,q] = Σ_k A[p,k] · B[k,q]. -/
def G (A : S512x512.Idx → EReal) (B : S512x1024.Idx → EReal) : S512x1024.Idx → EReal :=
  fun i => ∑ k : Fin 512, A (ix2 (i 0) k) * B (ix2 k (i 1))

theorem G_apply (A : S512x512.Idx → EReal) (B : S512x1024.Idx → EReal) (p : Fin 512) (q : Fin 1024) :
    G A B (ix2 p q) = ∑ k : Fin 512, A (ix2 p k) * B (ix2 k q) := rfl

/-! ## The body's payload at an index -/

/-- Entry (r,q) of the payload is Σ_k x0[r,k] · x1[k,q]. -/
theorem pay_apply (x0 : Vec Ideal S256x512 .f32) (x1 : Vec Ideal S512x1024 .f32) (r : Fin 256) (q : Fin 1024) :
    k0_pay1 (F := Ideal) x0 x1 (ix2 r q) = ∑ k : Fin 512, x0 (ix2 r k) * x1 (ix2 k q) := by
  unfold k0_pay1
  refine (Cert.PlainDot.matmul_zero_apply dot_S256x512_S512x1024_S256x1024_1_0_0_1_n_n rfl rfl rfl rfl rfl rfl none _ _ r q).trans ?_
  refine Finset.sum_congr rfl fun k _ => ?_
  rw [truncf_apply, truncf_apply, shapeCast_self]

/-! ## Where each window's block sits at a point -/

theorem hz : (![0, 0] : Fin 2 → Nat) = fun _ => 0 := funext fun a => by fin_cases a <;> rfl

/-- The block index maps over the two grid points: the left operand's and the output's blocks move down the rows
    with the point and start at column 0; the right operand's block is always the one at (0,0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 256·t … 256·t+255 of the array. -/
theorem blk0_apply (c : Dev nD) (t : Fin cfg0.N) (r : Fin 256) (k : Fin 512) (p : Fin 512) (hp : p.val = 256 * t.val + r.val) :
    (iblk0 V c 0 t : Vec Ideal S256x512 .f32) (ix2 r k) = (V c main_arg0 : S512x512.Idx → EReal) (ix2 p k) := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 256 + 1 * r.val = p.val; rw [e0, hp]; omega
  | ⟨1, _⟩ => show win0_0.index t 1 * 512 + 1 * k.val = k.val; rw [e1]; omega

/-- The right operand's block at every point is the whole array. -/
theorem blk1_apply (c : Dev nD) (t : Fin cfg0.N) (k : Fin 512) (q : Fin 1024) :
    (iblk0 V c 1 t : Vec Ideal S512x1024 .f32) (ix2 k q) = (V c main_v0 : S512x1024.Idx → EReal) (ix2 k q) := by
  obtain ⟨-, -, e2, e3, -⟩ := idx_facts t
  unfold iblk0
  rw [View.read_apply]
  show V c main_v0 _ = V c main_v0 _
  congr 1
  funext a
  apply Fin.ext
  match a with
  | ⟨0, _⟩ => show win0_1.index t 0 * 512 + 1 * k.val = k.val; rw [e2]; omega
  | ⟨1, _⟩ => show win0_1.index t 1 * 1024 + 1 * q.val = q.val; rw [e3]; omega

/-- Entry (r,q) of the output block at point t is entry (256·t + r, q) of the output array. -/
theorem blk2_emb (t : Fin cfg0.N) (r : Fin 256) (q : Fin 1024) (p : Fin 512) (hp : p.val = 256 * t.val + r.val) :
    (((cfg0.win 2).blk t).view.emb (ix2 r q) : S512x1024.Idx) = ix2 p q := by
  obtain ⟨-, -, -, -, e4, e5⟩ := idx_facts t
  funext a
  apply Fin.ext
  match a with
  | ⟨0, _⟩ => show win0_2.index t 0 * 256 + 1 * r.val = p.val; rw [e4, hp]; omega
  | ⟨1, _⟩ => show win0_2.index t 1 * 1024 + 1 * q.val = q.val; rw [e5]; omega

/-! ## What a point writes back -/

/-- Entry (r,q) of what the body leaves in the output buffer at point t is G at row 256·t + r, column q. -/
theorem out_apply (c : Dev nD) (t : Fin cfg0.N) (r : Fin 256) (q : Fin 1024) (p : Fin 512) (hp : p.val = 256 * t.val + r.val) :
    (out0_2 (F := Ideal) (iblk0 V c 0 t) (iblk0 V c 1 t) : Vec Ideal S256x1024 .f32) (ix2 r q)
      = G (V c main_arg0) (V c main_v0) (ix2 p q) := by
  unfold out0_2
  rw [View.canon_unit_zero hz]
  simp only [View.ld_unit_zero (S := S256x512) hz, View.ld_unit_zero (S := S512x1024) hz]
  refine (pay_apply (iblk0 V c 0 t) (iblk0 V c 1 t) r q).trans ?_
  rw [G_apply]
  refine Finset.sum_congr rfl fun k _ => ?_
  rw [blk0_apply V c t r k p hp, blk1_apply V c t k q]

/-- What point t writes back is the restriction of G to the rows of its block. -/
theorem flushed_eq (c : Dev nD) (t : Fin cfg0.N) :
    (dat0 (F := Ideal) V c).flushed 2 t = ((cfg0.win 2).blk t).view.read (Elt Ideal) (G (V c main_arg0) (V c main_v0)) := by
  show (cfg0.win 2).cut (grid0.coords t) ((dat0 V c).after 2 t) = _
  rw [after0_2]
  funext j
  have hN : cfg0.N = 2 := N_0
  have ht : t.val < 2 := hN ▸ t.isLt
  have hj0 : (j 0).val < 256 := (j 0).isLt
  have hp : (⟨256 * t.val + (j 0).val, by omega⟩ : Fin 512).val = 256 * t.val + (j 0).val := rfl
  rw [View.read_apply]
  refine ((congrArg _ (eq_ix2 j)).trans (out_apply V c t (j 0) (j 1) _ hp)).trans ?_
  exact congrArg _ ((blk2_emb t (j 0) (j 1) _ hp).symm.trans (congrArg _ (eq_ix2 j).symm))

/-! ## The blocks cover the array -/

/-- An index of the output array is in point t's block iff each coordinate is in the block's range on its axis. -/
theorem mem_blk2 (t : Fin cfg0.N) (i : S512x1024.Idx) :
    i ∈ ((cfg0.win 2).blk t).view.set ↔ ∀ a : Fin 2, win0_2.index t a * S256x1024.size a ≤ (i a).val ∧ (i a).val < win0_2.index t a * S256x1024.size a + S256x1024.size a := by
  show i ∈ ((View.whole main_v1).slice (win0_2.rect t)).set ↔ _
  rw [View.set_slice_whole, Rect.mem_set_unit]
  exact Iff.rfl

/-- Row p lies in the block of point p / 256, and every point writes back. -/
theorem cover2 (i : S512x1024.Idx) :
    ∃ t : Fin cfg0.N, (cfg0.win 2).flush t = true ∧ i ∈ ((cfg0.win 2).blk t).view.set := by
  have hi0 : (i 0).val < 512 := (i 0).isLt
  have hi1 : (i 1).val < 1024 := (i 1).isLt
  have hN : cfg0.N = 2 := N_0
  obtain ⟨t, ht⟩ : ∃ t : Fin cfg0.N, t.val = (i 0).val / 256 := ⟨⟨(i 0).val / 256, by rw [hN]; omega⟩, rfl⟩
  obtain ⟨-, -, -, -, e4, e5⟩ := idx_facts t
  refine ⟨t, flush0_2 t, ?_⟩
  rw [mem_blk2]
  intro a
  match a with
  | ⟨0, _⟩ => show win0_2.index t 0 * 256 ≤ (i 0).val ∧ (i 0).val < win0_2.index t 0 * 256 + 256; rw [e4, ht]; omega
  | ⟨1, _⟩ => show win0_2.index t 1 * 1024 ≤ (i 1).val ∧ (i 1).val < win0_2.index t 1 * 1024 + 1024; rw [e5]; omega

/-! ## The output array after the region -/

/-- The output array ends holding G of the two operand arrays as the region finds them. -/
theorem final0_fun (c : Dev nD) :
    (dat0 (F := Ideal) V c).arrAt 2 cfg0.N = G (V c main_arg0) (V c main_v0) :=
  (dat0 (F := Ideal) V c).arrAt_eq_of_cover 2 (G (V c main_arg0) (V c main_v0)) (fun t _ => flushed_eq V c t) cover2

/-- Index by index, through G. -/
theorem final0_G (c : Dev nD) (p : Fin 512) (q : Fin 1024) :
    (dat0 (F := Ideal) V c).arrAt 2 cfg0.N (ix2 p q) = G (V c main_arg0) (V c main_v0) (ix2 p q) :=
  congrFun (final0_fun V c) (ix2 p q)

/-- Index by index: entry (p,q) is Σ_k A[p,k] · B[k,q], the product taken in the extended reals. -/
theorem final0 (c : Dev nD) (p : Fin 512) (q : Fin 1024) :
    ((dat0 (F := Ideal) V c).arrAt 2 cfg0.N (ix2 p q) : EReal)
      = ∑ k : Fin 512, HMul.hMul (α := EReal) (β := EReal) (γ := EReal) (V c main_arg0 (ix2 p k)) (V c main_v0 (ix2 k q)) :=
  (final0_G V c p q).trans (G_apply _ _ p q)

end Cert.KernelIdeal.HandValue

end
-- ==== Proof.SpecTail.lean ====
/-
  The part of the result that both programs compute on the host from the first argument alone, and the
  assembly of the result.

  With x : [512,512] and a similarity block s : [512,64] the result is the concatenation, along the columns,
  of x, of s, and of one more column that holds a single number repeated down the 512 rows: the mean, over
  the 512 columns c of x, of the standard deviation of column c taken over the rows with one degree of
  freedom removed,
      σ[c] = sqrt ( (Σ_r (x[r,c] − (Σ_r' x[r',c]) / 512)²) / (512 − 1) ),     feature = (Σ_c σ[c]) / 512.
  The divisor 512 − 1 is computed from the integer 1 converted to a float and compared with 0; where it is
  not positive the quotient is replaced by the not-a-number word. The chain below spells the operations one
  by one, in the order in which the programs perform them, every intermediate array named, so that the term
  is the composition of exactly those operations.
-/
import Idealize.ShloMosaic.PureOps.Ideal
import Idealize.ShloMosaic.Lib.ValueIdx
import proofs.«131177_j17824114279178_2_alg».proof.Proof.Spec

noncomputable section

namespace Cert.L1Spec

open Idealize.ShloMosaic Idealize.ShloMosaic.ValueIdx

/-- The shapes of the intermediate arrays of the host tail. -/
abbrev S0 : Shape := ⟨0, ![]⟩
abbrev SRow : Shape := ⟨1, ![512]⟩
abbrev SRow1 : Shape := ⟨2, ![1, 512]⟩
abbrev SOne : Shape := ⟨1, ![1]⟩
abbrev SOne1 : Shape := ⟨2, ![1, 1]⟩
abbrev SCol : Shape := ⟨2, ![512, 1]⟩
abbrev SOut : Shape := ⟨2, ![512, 577]⟩

/-- The standard deviation of every column of x over its rows (one degree of freedom removed), as a row
    [1,512]: the mean of each column, the squared deviations from it, their sum divided by 512 − 1 (the
    not-a-number word where 512 − 1 is not positive), the square root. -/
def colStd (x : FVec Ideal SX .f32) : FVec Ideal SRow1 .f32 :=
  let cst : FVec Ideal S0 .f32 := constant (F := Ideal) S0 .f32 0x00000000#32
  let v0 : FVec Ideal SRow .f32 := Host.reduceAdd (F := Ideal) (axes := [0]) x cst (by decide) (by decide)
  let v1 : FVec Ideal SRow1 .f32 := broadcastInDim SRow1 ![1] (by decide) v0
  let cst_0 : FVec Ideal S0 .f32 := constant (F := Ideal) S0 .f32 0x44000000#32
  let v2 : FVec Ideal SRow1 .f32 := broadcastInDim SRow1 ![] (by decide) cst_0
  let v3 : FVec Ideal SRow1 .f32 := Host.divf (F := Ideal) v1 v2
  let v4 : FVec Ideal SX .f32 := broadcastInDim SX ![0, 1] (by decide) v3
  let v5 : FVec Ideal SX .f32 := subf (F := Ideal) x v4
  let v6 : FVec Ideal SX .f32 := mulf (F := Ideal) v5 v5
  let c : IVec S0 32 := constantI S0 32 1#32
  let v7 : FVec Ideal S0 .f32 := sitofp (F := Ideal) .f32 c
  let cst_1 : FVec Ideal S0 .f32 := constant (F := Ideal) S0 .f32 0x44000000#32
  let v8 : FVec Ideal S0 .f32 := subf (F := Ideal) cst_1 v7
  let cst_2 : FVec Ideal S0 .f32 := constant (F := Ideal) S0 .f32 0x00000000#32
  let v9 : FVec Ideal SRow .f32 := Host.reduceAdd (F := Ideal) (axes := [0]) v6 cst_2 (by decide) (by decide)
  let v10 : FVec Ideal SRow1 .f32 := broadcastInDim SRow1 ![1] (by decide) v9
  let v11 : FVec Ideal SRow1 .f32 := broadcastInDim SRow1 ![] (by decide) v8
  let v12 : FVec Ideal SRow1 .f32 := Host.divf (F := Ideal) v10 v11
  let cst_3 : FVec Ideal S0 .f32 := constant (F := Ideal) S0 .f32 0x00000000#32
  let v13 : IVec S0 1 := cmpf (F := Ideal) .ogt v8 cst_3
  let cst_4 : FVec Ideal S0 .f32 := constant (F := Ideal) S0 .f32 0x7FC00000#32
  let w0 : FVec Ideal S0 .f32 := id cst_4
  let w1 : FVec Ideal SRow1 .f32 := broadcastInDim SRow1 ![] (by decide) w0
  let w2 : FVec Ideal SRow1 .f32 := select (broadcastInDim SRow1 ![] (by decide) v13) v12 w1
  Host.sqrt (F := Ideal) w2

/-- The extra column: the mean over the 512 columns of their standard deviations, repeated down the rows. -/
def stdFeat (x : FVec Ideal SX .f32) : FVec Ideal SCol .f32 :=
  let v15 : FVec Ideal SRow1 .f32 := colStd x
  let cst_2 : FVec Ideal S0 .f32 := constant (F := Ideal) S0 .f32 0x00000000#32
  let v16 : FVec Ideal SOne .f32 := Host.reduceAdd (F := Ideal) (axes := [1]) v15 cst_2 (by decide) (by decide)
  let v17 : FVec Ideal SOne1 .f32 := broadcastInDim SOne1 ![0] (by decide) v16
  let cst_3 : FVec Ideal S0 .f32 := constant (F := Ideal) S0 .f32 0x44000000#32
  let v18 : FVec Ideal SOne1 .f32 := broadcastInDim SOne1 ![] (by decide) cst_3
  let v19 : FVec Ideal SOne1 .f32 := Host.divf (F := Ideal) v17 v18
  broadcastInDim SCol ![0, 1] (by decide) v19

/-- The three blocks' widths 512, 64 and 1 add up to the result's 577 columns, the rows agreeing. -/
theorem tail_concatenates : Shape.Concatenates [SX, SSim, SCol] SOut 1 := by decide

/-- The result assembled: x, the similarity block and the extra column side by side. -/
def tail (x : FVec Ideal SX .f32) (s : FVec Ideal SSim .f32) : FVec Ideal SOut .f32 :=
  concatenate SOut 1 [⟨SX, x⟩, ⟨SSim, s⟩, ⟨SCol, stdFeat x⟩] tail_concatenates

/-- What both programs compute, as a function of the two argument arrays. -/
def result (x : FVec Ideal SX .f32) (T : FVec Ideal ST .f32) : FVec Ideal SOut .f32 :=
  tail x (sim (proj x T))

end Cert.L1Spec

end
-- ==== Proof.KernelTail.lean ====
/-
  The kernel program's host tail, read back as one function.

  After the second region the kernel program performs the same host operations as the reference does after its
  similarity block: the integer one, the twenty-four operations of the standard deviation over the first argument,
  and the eight that average it, repeat it down the rows and concatenate the first argument, the similarity block and
  that column. Whatever the buffers hold before them, the result buffer afterwards holds the shared host tail of the
  first argument's contents and the similarity block's.
-/
import proofs.«131177_j17824114279178_2_alg».proof.Proof.Gen.KernelIdeal.Launch
import proofs.«131177_j17824114279178_2_alg».proof.Proof.SpecTail
import Idealize.ShloMosaic.Lib.StableHlo.Run

noncomputable section

namespace Cert.KernelIdeal.HandValue

open Cert.KernelIdeal Cert.KernelIdeal.Gen Idealize.ShloMosaic Idealize.ShloMosaic.TcCoe Idealize.SL.Sem Idealize.ShloMosaic.StableHlo

set_option maxHeartbeats 1000000 in
/-- The fold of the last three stretches of host operations at the result buffer is the shared host tail of the first
    argument and of the similarity block as they stand before those stretches. -/
theorem tail_eq (V : Valuation τ sig (Elt Ideal)) :
    after ((hostOps2 (F := Ideal)) ++ hostOps2_1 ++ hostOps2_2) V (main_v10 : DevRef τ sig)
      = Cert.L1Spec.tail (V (main_arg0 : DevRef τ sig)) (V (main_v3 : DevRef τ sig)) := by
  simp only [List.cons_append, List.nil_append]
  after_results
  rfl

end Cert.KernelIdeal.HandValue

end
-- ==== Proof.ProjReshape.lean ====
/-
  The two reshapes around the projection, read at an index.

  A [512,64,16] array and a [512,1024] array with the same elements in row-major order: position (k, f, d) of the
  first is position (k, 16·f + d) of the second, that is, column n of the second is feature n / 16, coordinate
  n % 16 of the first. Hence a [512,1024] array whose entry (b, n) is Σ_k x[b,k] · T'[k,n], T' the argument T read
  as [512,1024], is — read back as [512,64,16] — the projection M[b,f,d] = Σ_k x[b,k] · T[k,f,d].
-/
import Idealize.ShloMosaic.PureOps.Ideal
import Idealize.ShloMosaic.Lib.ValueIdx
import Idealize.ShloMosaic.Lib.Pipeline.Value
import proofs.«131177_j17824114279178_2_alg».proof.Proof.Spec

noncomputable section

open scoped BigOperators

namespace Cert.L1Spec

open Idealize.ShloMosaic Idealize.ShloMosaic.ValueIdx

/-- The shape of the projection written as a matrix. -/
abbrev SFlat : Shape := ⟨2, ![512, 1024]⟩

/-- T read as [512,1024]: column n is feature n / 16, coordinate n % 16. -/
theorem flatten_apply {α : Type} (T : ST.Idx → α) (h : ST.ShapeCasts SFlat) (k : Fin 512) (n : Fin 1024) :
    shapeCast SFlat T h (ix2 k n)
      = T (ix3 k ⟨n.val / 16, by omega⟩ ⟨n.val % 16, Nat.mod_lt _ (by decide)⟩) :=
  shapeCast_apply T h _ _ (by
    rw [Shape.rowMajor_val_three, Shape.rowMajor_val_two]
    show (k.val * 64 + n.val / 16) * 16 + n.val % 16 = k.val * 1024 + n.val
    omega)

/-- A [512,1024] array read as [512,64,16]: entry (b, f, d) is column 16·f + d. -/
theorem unflatten_apply {α : Type} (y : SFlat.Idx → α) (h : SFlat.ShapeCasts ST) (b : Fin 512) (f : Fin 64) (d : Fin 16) :
    shapeCast ST y h (ix3 b f d) = y (ix2 b ⟨16 * f.val + d.val, by omega⟩) :=
  shapeCast_apply y h _ _ (by
    rw [Shape.rowMajor_val_three, Shape.rowMajor_val_two]
    show b.val * 1024 + (16 * f.val + d.val) = (b.val * 64 + f.val) * 16 + d.val
    omega)

/-- A matrix product of x with T read as [512,1024], read back as [512,64,16], is the projection. -/
theorem unflatten_dot_eq_proj (x : SX.Idx → EReal) (T : ST.Idx → EReal) (y : SFlat.Idx → EReal)
    (h1 : ST.ShapeCasts SFlat) (h2 : SFlat.ShapeCasts ST)
    (hy : ∀ (b : Fin 512) (n : Fin 1024), y (ix2 b n) = ∑ k : Fin 512, x (ix2 b k) * shapeCast SFlat T h1 (ix2 k n)) :
    shapeCast ST y h2 = proj x T := by
  funext i
  obtain ⟨b, f, d, rfl⟩ : ∃ (b : Fin 512) (f : Fin 64) (d : Fin 16), i = ix3 b f d := ⟨i 0, i 1, i 2, eq_ix3 i⟩
  rw [unflatten_apply, hy, proj_apply]
  unfold projAt
  refine Finset.sum_congr rfl fun k _ => ?_
  rw [flatten_apply]
  refine congrArg (fun t => x (ix2 b k) * T t) ?_
  have e1 : (16 * f.val + d.val) / 16 = f.val := by omega
  have e2 : (16 * f.val + d.val) % 16 = d.val := by omega
  funext a
  match a with
  | ⟨0, _⟩ => rfl
  | ⟨1, _⟩ => exact Fin.ext e1
  | ⟨2, _⟩ => exact Fin.ext e2

end Cert.L1Spec

end
-- ==== Proof.LibHostFold.lean ====
/-
  Folding a straight line of host operations in two parts, and the transports its inlined calls carry.

  The buffers' contents after a list of host operations is a left fold of the operations' results over the contents at
  the start; so the fold of a concatenation is the fold of its second part over the fold of its first (after_append), and
  a long program can be read in stretches with the contents in between kept as one term.

  The operations of a function inlined at its call site carry each operand through a transport along the equation
  between its buffer's declared type and the value's type: to the buffer's type when written, back when read. A value
  carried there and back is the value (ofBuf_toBuf); and, the two types being one, a single transport of a value is that
  value, stated through heterogeneous equality so that the equation is found by the types' computation at the use site
  (ofBuf_eq, toBuf_eq: give `HEq.rfl`, or `heq_of_eq` of an equation between the two sides read at one type). Removing
  the transports by these lemmas, syntactically, before two composed terms are compared keeps the comparison from
  computing through the transports.
-/
import Idealize.ShloMosaic.Lib.StableHlo.Run

namespace Cert.HostFold

open Idealize.ShloMosaic Idealize.ShloMosaic.StableHlo

variable {τ : Topo} {sig : RefSig} {Val : EltTy → Type}

/-- Folding a concatenation is folding its second part over the fold of its first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A value carried to its buffer's type and back is the value. -/
theorem ofBuf_toBuf {T : BufTy} (x : TRef sig T) (v : T.Contents Val) : x.ofBuf (x.toBuf v) = v := by
  obtain ⟨r, hty, h2, h3⟩ := x
  subst hty
  rfl

/-- Contents read at the value's type are the contents, when the two are one term up to the types' equation. -/
theorem ofBuf_eq {T : BufTy} (x : TRef sig T) (v : x.ref.ty.Contents Val) (w : T.Contents Val) (h : HEq v w) :
    x.ofBuf v = w := by
  obtain ⟨r, hty, h2, h3⟩ := x
  subst hty
  exact eq_of_heq h

/-- A value carried to its buffer's type is the value, likewise. -/
theorem toBuf_eq {T : BufTy} (x : TRef sig T) (v : T.Contents Val) (w : x.ref.ty.Contents Val) (h : HEq v w) :
    x.toBuf v = w := by
  obtain ⟨r, hty, h2, h3⟩ := x
  subst hty
  exact eq_of_heq h

end Cert.HostFold
-- ==== Proof.KernelValue.lean ====
/-
  What the kernel program's result buffer holds at the end, as a function of the two arguments.

  Walking the valuations of the run backwards: the result buffer is the shared host tail of the first argument (no item
  writes it) and of the second region's output array; that array is, entry by entry, the similarity of the array the
  second region read, which is the first region's output read as [512,64,16]; and the first region's output at (b, n)
  is Σ_k x[b,k] · T'[k,n] with T' the second argument read as [512,1024] — so, read back as [512,64,16], it is the
  projection of the two arguments. Hence the result is the layer's output.
-/
import proofs.«131177_j17824114279178_2_alg».proof.Proof.Run
import proofs.«131177_j17824114279178_2_alg».proof.Proof.Region0Value
import proofs.«131177_j17824114279178_2_alg».proof.Proof.KernelTail
import proofs.«131177_j17824114279178_2_alg».proof.Proof.ProjReshape
import proofs.«131177_j17824114279178_2_alg».proof.Proof.LibHostFold

noncomputable section

namespace Cert.KernelIdeal.HandValue

open Idealize.ShloMosaic Idealize.ShloMosaic.TcCoe Idealize.SL.Sem Idealize.ShloMosaic.StableHlo Idealize.ShloMosaic.ValueIdx
open Cert.KernelIdeal Cert.KernelIdeal.Gen Cert.KernelIdeal.Hand Cert.L1Spec

variable (m : (ℓ : Loc nD τ sig) → Buf (Elt Ideal) ℓ)

theorem E1_arg0 (c : Dev nD) : E1 m c main_arg0 = m ((c : Thread nD τ).loc main_arg0) := U1_of m c main_arg0 (by decide)

theorem E1_v0 (c : Dev nD) : (E1 m c main_v0 : S512x1024.Idx → EReal)
    = shapeCast S512x1024 (m ((c : Thread nD τ).loc main_arg1)) shapeCasts_S512x64x16_S512x1024 := by
  show StableHlo.after hostOps0 (U0 m c) (Proc.devRef .tc main_v0) = _
  after_results
  rfl

theorem o1_eq (c : Dev nD) :
    (o1 m c : SFlat.Idx → EReal) = G (m ((c : Thread nD τ).loc main_arg0))
      (shapeCast SFlat (m ((c : Thread nD τ).loc main_arg1) : ST.Idx → EReal) shapeCasts_S512x64x16_S512x1024) := by
  unfold o1
  rw [final0_fun, E1_arg0, E1_v0]

theorem E3_v2 (c : Dev nD) : (E3 m c main_v2 : ST.Idx → EReal)
    = proj (m ((c : Thread nD τ).loc main_arg0)) (m ((c : Thread nD τ).loc main_arg1)) := by
  have e : (E3 m c main_v2 : ST.Idx → EReal) = shapeCast ST (o1 m c : SFlat.Idx → EReal) shapeCasts_S512x1024_S512x64x16 := by
    show StableHlo.after hostOps1 (U2 m c) (Proc.devRef .tc main_v2) = _
    after_results
    rw [U2_out]
    rfl
  rw [e]
  exact unflatten_dot_eq_proj _ _ _ _ _ (fun b n => by rw [o1_eq]; exact G_apply _ _ b n)

theorem U4_arg0 (c : Dev nD) : U4 m c (Proc.devRef .tc main_arg0) = m ((c : Thread nD τ).loc main_arg0) :=
  (U4_of_ne m c main_arg0 (by decide)).trans <| (U3_of m c main_arg0 (by decide)).trans <| (U2_of_ne m c main_arg0 (by decide)).trans <|
    (U1_of m c main_arg0 (by decide)).trans rfl

theorem U7_fold (c : Dev nD) : U7 m c = after ((hostOps2 (F := Ideal)) ++ hostOps2_1 ++ hostOps2_2) (U4 m c) := by
  rw [Cert.HostFold.after_append, Cert.HostFold.after_append]

variable (final1 : ∀ (V : (c : Dev nD) → (b : Ref sig .tc) → Buf (Elt Ideal) ((c : Thread nD τ).loc b)) (c : Dev nD) (b : Fin 512) (f : Fin 64),
  (dat1 (F := Ideal) V c).arrAt 2 cfg1.N (ix2 b f) = Cert.L1Spec.simAt (V c main_v2) b f)

include final1 in
theorem U4_v3 (c : Dev nD) : (U4 m c (Proc.devRef .tc main_v3) : SSim.Idx → EReal)
    = sim (proj (m ((c : Thread nD τ).loc main_arg0)) (m ((c : Thread nD τ).loc main_arg1))) := by
  rw [U4_out]
  unfold o3
  funext i
  obtain ⟨b, f, rfl⟩ : ∃ (b : Fin 512) (f : Fin 64), i = ix2 b f := ⟨i 0, i 1, eq_ix2 i⟩
  rw [final1, sim_apply, E3_v2]

include final1 in
theorem result_eq (c : Dev nD) : U7 m c (Proc.devRef .tc main_v10)
    = result (m ((c : Thread nD τ).loc main_arg0)) (m ((c : Thread nD τ).loc main_arg1)) := by
  rw [U7_fold, tail_eq, U4_arg0, U4_v3 m final1]
  rfl

end Cert.KernelIdeal.HandValue

end
-- ==== Proof.LibTileSum.lean ====
/-
  A sum over a contraction axis of extent K·T taken tile by tile: the sum over the K tiles of the sums over the T
  positions inside a tile is the sum over the whole axis, position T·s + j of the axis being position j of tile s.
  Only commutativity and associativity of the addition are used, so this holds in any commutative additive monoid —
  the extended reals with their infinities included. It is the law between a product accumulated over K contraction
  tiles of width T and the one product over the whole contraction axis.
-/
import Idealize.ShloMosaic.Lib.ValueIdx

open scoped BigOperators

namespace Cert.TileSum

/-- The axis `Fin (K * T)` is K tiles of T positions each: for any `f` on the axis' positions (given on the
    naturals), summing `f (T * s + j)` over the tiles `s < K` and the positions `j < T` inside a tile is summing
    `f` over the axis. -/
theorem sum_tiles {β : Type*} [AddCommMonoid β] (K T : ℕ) (f : ℕ → β) :
    ∑ s ∈ Finset.range K, ∑ j : Fin T, f (T * s + j.val) = ∑ r : Fin (K * T), f r.val := by
  rw [Finset.sum_range, ← Equiv.sum_comp (finProdFinEquiv (m := K) (n := T)), Fintype.sum_prod_type]
  refine Finset.sum_congr rfl fun s _ => Finset.sum_congr rfl fun j _ => ?_
  exact congrArg f (by rw [finProdFinEquiv_apply_val]; exact Nat.add_comm _ _)

end Cert.TileSum
-- ==== Proof.Region1Value.lean ====
import proofs.«131177_j17824114279178_2_alg».proof.Proof.Region1
import proofs.«131177_j17824114279178_2_alg».proof.Proof.Spec
import proofs.«131177_j17824114279178_2_alg».proof.Proof.LibTileSum
import Idealize.ShloMosaic.Lib.Pipeline.Value
import Idealize.ShloMosaic.Lib.ValueLayout
import Idealize.ShloMosaic.PureOps.Ideal.Laws

set_option maxRecDepth 16384

noncomputable section

namespace Cert.KernelIdeal.HandValue1

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open scoped BigOperators

/-! # Region 1's value: each output entry is the similarity of its row to all 512 rows

## One feature group's contribution

The body cuts the 64 features into 8 groups of 8.  For the group starting at feature `o` it forms, for every
row `r` of the first block, every row `b2` of the second block and every feature `f'` of the group,
`exp (0 − Σ_d |a[r, o+f', d] − b[b2, o+f', d]|)`, and sums over `b2`. -/

/-- The group's contribution as the body spells it (generic in the float model). -/
def grp {F : FTy → Type} [FloatOps F] (o : ℕ) (h : S128x64x16.Slices ![0, o, 0] S128x8x16)
    (a b : FVec F S128x64x16 .f32) : FVec F S128x8 .f32 :=
  multiReduction .add [1] S128x8
    (exp (subf (broadcast S128x128x8 (Scalar.ofBits .f32 0x00000000#32))
      (multiReduction .add [3] S128x128x8
        (absf (subf
          (broadcastTo S128x128x8x16 (shapeCast S128x1x8x16 (extractStridedSlice S128x8x16 ![0, o, 0] a h) shapeCasts_S128x8x16_S128x1x8x16) broadcasts_S128x1x8x16_S128x128x8x16)
          (broadcastTo S128x128x8x16 (shapeCast S1x128x8x16 (extractStridedSlice S128x8x16 ![0, o, 0] b h) shapeCasts_S128x8x16_S1x128x8x16) broadcasts_S1x128x8x16_S128x128x8x16)))
        0x00000000#32 reduces_S128x128x8x16_S128x128x8 (.inl rfl) rfl)))
    0x00000000#32 reduces_S128x128x8_S128x8 (.inl rfl) rfl

section Groups
variable {F : FTy → Type} [FloatOps F] (x0 x1 : Vec F S128x64x16 .f32)

/-- The eight groups of the printed body are this one function at the eight offsets. -/
theorem pay6_eq : k1_pay6 x0 x1 = grp 0 slices_S128x64x16_o0_0_0_S128x8x16 (k1_pay4 x0) (k1_pay5 x1) := rfl
theorem pay7_eq : k1_pay7 x0 x1 = grp 8 slices_S128x64x16_o0_8_0_S128x8x16 (k1_pay4 x0) (k1_pay5 x1) := rfl
theorem pay9_eq : k1_pay9 (k1_pay8 x0 x1) = grp 16 slices_S128x64x16_o0_16_0_S128x8x16 (k1_pay4 x0) (k1_pay5 x1) := rfl
theorem pay10_eq : k1_pay10 (k1_pay4 x0) (k1_pay5 x1) = grp 24 slices_S128x64x16_o0_24_0_S128x8x16 (k1_pay4 x0) (k1_pay5 x1) := rfl
theorem pay11_eq : k1_pay11 (k1_pay4 x0) (k1_pay5 x1) = grp 32 slices_S128x64x16_o0_32_0_S128x8x16 (k1_pay4 x0) (k1_pay5 x1) := rfl
theorem pay12_eq : k1_pay12 (k1_pay4 x0) (k1_pay5 x1) = grp 40 slices_S128x64x16_o0_40_0_S128x8x16 (k1_pay4 x0) (k1_pay5 x1) := rfl

end Groups

/-- The reduced-away coordinate of the inner sum sits last. -/
theorem lift3 (r b2 : Fin 128) (f' : Fin 8) (d : Fin 16) :
    reduces_S128x128x8x16_S128x128x8.lift (ix3 r b2 f') d = ix4 r b2 f' d := by
  funext ax; apply Fin.ext
  match ax with
  | ⟨0, _⟩ => rfl
  | ⟨1, _⟩ => rfl
  | ⟨2, _⟩ => rfl
  | ⟨3, _⟩ => rfl

/-- The reduced-away coordinate of the outer sum sits in the middle. -/
theorem lift1 (r : Fin 128) (f' : Fin 8) (b2 : Fin 128) :
    reduces_S128x128x8_S128x8.lift (ix2 r f') b2 = ix3 r b2 f' := by
  funext ax; apply Fin.ext
  match ax with
  | ⟨0, _⟩ => rfl
  | ⟨1, _⟩ => rfl
  | ⟨2, _⟩ => rfl

/-- A block cast to a unit second axis and broadcast along it reads the block's own row. -/
theorem bcastRow (v : FVec Ideal S128x8x16 .f32) (r b2 : Fin 128) (f' : Fin 8) (d : Fin 16) :
    broadcastTo S128x128x8x16 (shapeCast S128x1x8x16 v shapeCasts_S128x8x16_S128x1x8x16) broadcasts_S128x1x8x16_S128x128x8x16 (ix4 r b2 f' d)
      = v (ix3 r f' d) := by
  refine (broadcastTo_apply _ _ (ix4 r b2 f' d) (ix4 r (0 : Fin 1) f' d) fun ax => ?_).trans ?_
  · match ax with
    | ⟨0, _⟩ => rfl
    | ⟨1, _⟩ => rfl
    | ⟨2, _⟩ => rfl
    | ⟨3, _⟩ => rfl
  · refine shapeCast_apply v _ _ _ ?_
    rw [Shape.rowMajor_val_four, Shape.rowMajor_val_three]
    show (r.val * 8 + f'.val) * 16 + d.val = ((r.val * 1 + 0) * 8 + f'.val) * 16 + d.val
    omega

/-- A block cast to a unit first axis and broadcast along it reads the other block's row. -/
theorem bcastCol (v : FVec Ideal S128x8x16 .f32) (r b2 : Fin 128) (f' : Fin 8) (d : Fin 16) :
    broadcastTo S128x128x8x16 (shapeCast S1x128x8x16 v shapeCasts_S128x8x16_S1x128x8x16) broadcasts_S1x128x8x16_S128x128x8x16 (ix4 r b2 f' d)
      = v (ix3 b2 f' d) := by
  refine (broadcastTo_apply _ _ (ix4 r b2 f' d) (ix4 (0 : Fin 1) b2 f' d) fun ax => ?_).trans ?_
  · match ax with
    | ⟨0, _⟩ => rfl
    | ⟨1, _⟩ => rfl
    | ⟨2, _⟩ => rfl
    | ⟨3, _⟩ => rfl
  · exact shapeCast_abc_1abc_apply v _ (0 : Fin 1) b2 f' d

/-- One entry of a group's contribution: the sum over the second block's rows of `exp (0 − L1 distance)`. -/
theorem grp_apply (o : ℕ) (h : S128x64x16.Slices ![0, o, 0] S128x8x16) (a b : FVec Ideal S128x64x16 .f32)
    (r : Fin 128) (f' : Fin 8) (k : Fin 64) (hk : k.val = o + f'.val) :
    grp o h a b (ix2 r f')
      = ∑ b2 : Fin 128, Ideal.exp (0 - ∑ d : Fin 16, Cert.L1Spec.absDiff (a (ix3 r k d)) (b (ix3 b2 k d))) := by
  unfold grp
  refine (Ideal.multiReduction_add_single _ 0x00000000#32 reduces_S128x128x8_S128x8 (.inl rfl) rfl (ix2 r f')).trans ?_
  show ∑ b2 : Fin 128, _ = _
  refine Finset.sum_congr rfl fun b2 _ => ?_
  rw [lift1]
  show Ideal.exp (Ideal.ofBits .f32 0x00000000#32 - multiReduction (F := Ideal) .add [3] S128x128x8 _ 0x00000000#32 reduces_S128x128x8x16_S128x128x8 (.inl rfl) rfl (ix3 r b2 f')) = _
  rw [Ideal.ofBits_zero_f32]
  refine congrArg (fun z => Ideal.exp (0 - z)) ?_
  refine (Ideal.multiReduction_add_single _ 0x00000000#32 reduces_S128x128x8x16_S128x128x8 (.inl rfl) rfl (ix3 r b2 f')).trans ?_
  show ∑ d : Fin 16, _ = _
  refine Finset.sum_congr rfl fun d _ => ?_
  rw [lift3]
  show max (_ - _) (-(_ - _)) = _
  rw [bcastRow, bcastCol, slice3_axis1_apply o a h r f' d k hk, slice3_axis1_apply o b h b2 f' d k hk]
  rfl

/-! ## What each control case leaves, as the stored payloads -/

theorem hz2 : (![0, 0] : Fin 2 → Nat) = fun _ => 0 := funext fun a => by fin_cases a <;> rfl
theorem hz3 : (![0, 0, 0] : Fin 3 → Nat) = fun _ => 0 := funext fun a => by fin_cases a <;> rfl

section Cases
variable {F : FTy → Type} [FloatOps F]

/-- The accumulating step: the accumulator `acc` plus the contribution of the block pair `(x0, x1)`, all eight
    groups side by side. -/
def stepP (x0 x1 : Vec F S128x64x16 .f32) (acc : Vec F S128x64 .f32) : Vec F S128x64 .f32 :=
  k1_pay1 (k1_pay4 x0) (k1_pay5 x1) (k1_pay6 x0 x1) (k1_pay7 x0 x1) (k1_pay9 (k1_pay8 x0 x1))
    (k1_pay10 (k1_pay4 x0) (k1_pay5 x1)) (k1_pay11 (k1_pay4 x0) (k1_pay5 x1)) (k1_pay12 (k1_pay4 x0) (k1_pay5 x1))
    (k1_pay13 (k1_pay4 x0)) (k1_pay14 (k1_pay5 x1)) acc

/-- Case B leaves the step over what the accumulator held. -/
theorem sout_B (c : Dev nD) (i : grid1.Coords) (arg2 : Memref sig .tc .vmem S128x64x16 .f32) (harg2 : arg2.IsWhole) (arg3 : Memref sig .tc .vmem S128x64x16 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : ¬cond1_1 i) (x0 x1 : Vec F S128x64x16 .f32) (xs0 : Vec F S128x64 .f32) :
    sout1_B_0 c i arg2 harg2 arg3 harg3 arg4 harg4 arg5 harg5 hc0 hc1 x0 x1 xs0 = stepP x0 x1 xs0 := by
  unfold sout1_B_0
  rw [View.read_writes_eq_canon _ _ _ (scover1_B_0 c i arg2 harg2 arg3 harg3 arg4 harg4 arg5 harg5 hc0 hc1 x0 x1 xs0)]
  unfold kernelRun1_B
  dsimp only
  sl_unfold_words
  rw [View.canon_unit_zero hz2]
  simp only [View.readAt_eq_ld, harg2.read_unread, harg3.read_unread, harg5.read_unread, View.ld_unit_zero (S := S128x64) hz2, View.ld_unit_zero (S := S128x64x16) hz3]
  rfl

/-- Case C leaves the same in the accumulator … -/
theorem sout_C (c : Dev nD) (i : grid1.Coords) (arg2 : Memref sig .tc .vmem S128x64x16 .f32) (harg2 : arg2.IsWhole) (arg3 : Memref sig .tc .vmem S128x64x16 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i) (x0 x1 : Vec F S128x64x16 .f32) (xs0 : Vec F S128x64 .f32) :
    sout1_C_0 c i arg2 harg2 arg3 harg3 arg4 harg4 arg5 harg5 hc0 hc1 x0 x1 xs0 = stepP x0 x1 xs0 := by
  unfold sout1_C_0
  rw [View.read_writes_eq_canon _ _ _ (scover1_C_0 c i arg2 harg2 arg3 harg3 arg4 harg4 arg5 harg5 hc0 hc1 x0 x1 xs0)]
  unfold kernelRun1_C
  dsimp only
  sl_unfold_words
  rw [View.canon_unit_zero hz2]
  simp only [View.readAt_eq_ld, harg2.read_unread, harg3.read_unread, harg5.read_unread, View.ld_unit_zero (S := S128x64) hz2, View.ld_unit_zero (S := S128x64x16) hz3]
  rfl

/-- … and stores the accumulator's new contents less one into the output block. -/
theorem out_C (c : Dev nD) (i : grid1.Coords) (arg2 : Memref sig .tc .vmem S128x64x16 .f32) (harg2 : arg2.IsWhole) (arg3 : Memref sig .tc .vmem S128x64x16 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i) (x0 x1 : Vec F S128x64x16 .f32) (xs0 : Vec F S128x64 .f32) :
    out1_C_2 c i arg2 harg2 arg3 harg3 arg4 harg4 arg5 harg5 hc0 hc1 x0 x1 xs0 = k1_pay2 (stepP x0 x1 xs0) := by
  unfold out1_C_2
  rw [View.read_writes_eq_canon _ _ _ (cover1_C_2 c i arg2 harg2 arg3 harg3 arg4 harg4 arg5 harg5 hc0 hc1 x0 x1 xs0)]
  unfold kernelRun1_C
  dsimp only
  sl_unfold_words
  rw [View.canon_unit_zero hz2, View.readCov_unit_zero (S := S128x64) _ hz2]
  simp only [View.readAt_eq_ld, harg2.read_unread, harg3.read_unread, harg5.read_unread, View.ld_unit_zero (S := S128x64) hz2, View.ld_unit_zero (S := S128x64x16) hz3]
  rfl

/-- Case A resets the accumulator to the zero block first, so it leaves the step over zeros. -/
theorem sout_A (c : Dev nD) (i : grid1.Coords) (arg2 : Memref sig .tc .vmem S128x64x16 .f32) (harg2 : arg2.IsWhole) (arg3 : Memref sig .tc .vmem S128x64x16 .f32) (harg3 : arg3.IsWhole) (arg4 : Memref sig .tc .vmem S128x64 .f32) (harg4 : arg4.IsWhole) (arg5 : Memref sig .tc .vmem S128x64 .f32) (harg5 : arg5.IsWhole) (hc0 : cond1_0 i) (hc1 : ¬cond1_1 i) (x0 x1 : Vec F S128x64x16 .f32) :
    sout1_A_0 c i arg2 harg2 arg3 harg3 arg4 harg4 arg5 harg5 hc0 hc1 x0 x1 = stepP x0 x1 k1_pay3 := by
  unfold sout1_A_0
  rw [View.read_writes_eq_canon _ _ _ (scover1_A_0 c i arg2 harg2 arg3 harg3 arg4 harg4 arg5 harg5 hc0 hc1 x0 x1)]
  unfold kernelRun1_A
  dsimp only
  sl_unfold_words
  rw [View.canon_cons_unit_zero (S := S128x64) hz2, View.readCov_unit_zero (S := S128x64) _ hz2]
  simp only [View.readAt_eq_ld, harg2.read_unread, harg3.read_unread, View.ld_unit_zero (S := S128x64x16) hz3]
  rfl

end Cases

/-! ## The payloads at an entry, over the extended reals -/

/-- The reset block is zero everywhere. -/
theorem pay3_apply (j : S128x64.Idx) : k1_pay3 (F := Ideal) j = 0 := by
  show shapeCast S128x64 (broadcast S128x64 (Scalar.ofBits (F := Ideal) .f32 0x00000000#32)) shapeCasts_S128x64_S128x64 j = 0
  rw [shapeCast_self]
  exact Ideal.ofBits_zero_f32

/-- The output store subtracts the f32 word of one. -/
theorem pay2_apply (v : Vec Ideal S128x64 .f32) (j : S128x64.Idx) :
    k1_pay2 v j = v j - Ideal.ofBits .f32 0x3F800000#32 := rfl

/-- A concatenation along axis 1 of pieces of width 8, read in piece `k`. -/
theorem piece_apply (xs : List ((s : Shape) × (s.Idx → Ideal .f32))) (h : Shape.Concatenates (xs.map (·.1)) S128x64 1)
    (r : Fin 128) (f : Fin 64) (f' : Fin 8) (k : ℕ) (hk : k < xs.length) (x₁ : S128x8.Idx → Ideal .f32)
    (hxk : xs[k] = ⟨S128x8, x₁⟩)
    (hpre : (((xs.take k).map (·.1)).map fun s => if h : s.rank = S128x64.rank then s.size ((1 : Fin S128x64.rank).cast h.symm) else 0).sum = 8 * k)
    (hf : f.val = 8 * k + f'.val) :
    concatenate S128x64 1 xs h (ix2 r f) = x₁ (ix2 r f') :=
  concatenate_apply_piece 1 xs h (ix2 r f) k hk S128x8 x₁ hxk rfl (8 * k) hpre (ix2 r f')
    (fun b hb => by
      match b with
      | ⟨0, _⟩ => rfl
      | ⟨1, _⟩ => exact absurd rfl hb)
    (by show 8 * k + f'.val = f.val; omega)

/-- The shape cast of a block to its own shape reads the block. -/
theorem pay4_apply (a : Vec Ideal S128x64x16 .f32) (j : S128x64x16.Idx) : k1_pay4 a j = a j := by
  show shapeCast S128x64x16 a shapeCasts_S128x64x16_S128x64x16 j = a j
  rw [shapeCast_self]
theorem pay5_apply (a : Vec Ideal S128x64x16 .f32) (j : S128x64x16.Idx) : k1_pay5 a j = a j := by
  show shapeCast S128x64x16 a shapeCasts_S128x64x16_S128x64x16 j = a j
  rw [shapeCast_self]

/-- The contribution of the block pair `(a, b)` at row `r` of the first block and feature `f`. -/
def contrib (a b : Vec Ideal S128x64x16 .f32) (r : Fin 128) (f : Fin 64) : EReal :=
  ∑ b2 : Fin 128, Ideal.exp (0 - ∑ d : Fin 16, Cert.L1Spec.absDiff (a (ix3 r f d)) (b (ix3 b2 f d)))

theorem grp_contrib (o : ℕ) (h : S128x64x16.Slices ![0, o, 0] S128x8x16) (a b : Vec Ideal S128x64x16 .f32)
    (r : Fin 128) (f' : Fin 8) (f : Fin 64) (hf : f.val = o + f'.val) :
    grp o h (k1_pay4 a) (k1_pay5 b) (ix2 r f') = contrib a b r f := by
  rw [grp_apply o h _ _ r f' f hf]
  unfold contrib
  simp only [pay4_apply, pay5_apply]

/-- The stored payload as an addition over the concatenated groups. -/
theorem stepP_eq (a b : Vec Ideal S128x64x16 .f32) (acc : Vec Ideal S128x64 .f32) :
    stepP a b acc = shapeCast S128x64 (addf acc (concatenate S128x64 1
      [⟨S128x8, grp 0 slices_S128x64x16_o0_0_0_S128x8x16 (k1_pay4 a) (k1_pay5 b)⟩,
       ⟨S128x8, grp 8 slices_S128x64x16_o0_8_0_S128x8x16 (k1_pay4 a) (k1_pay5 b)⟩,
       ⟨S128x8, grp 16 slices_S128x64x16_o0_16_0_S128x8x16 (k1_pay4 a) (k1_pay5 b)⟩,
       ⟨S128x8, grp 24 slices_S128x64x16_o0_24_0_S128x8x16 (k1_pay4 a) (k1_pay5 b)⟩,
       ⟨S128x8, grp 32 slices_S128x64x16_o0_32_0_S128x8x16 (k1_pay4 a) (k1_pay5 b)⟩,
       ⟨S128x8, grp 40 slices_S128x64x16_o0_40_0_S128x8x16 (k1_pay4 a) (k1_pay5 b)⟩,
       ⟨S128x8, grp 48 slices_S128x64x16_o0_48_0_S128x8x16 (k1_pay4 a) (k1_pay5 b)⟩,
       ⟨S128x8, grp 56 slices_S128x64x16_o0_56_0_S128x8x16 (k1_pay4 a) (k1_pay5 b)⟩]
      concatenates_S128x8_S128x8_S128x8_S128x8_S128x8_S128x8_S128x8_S128x8_S128x64_d1)) shapeCasts_S128x64_S128x64 := rfl

/-- ONE ENTRY OF THE STEP: the accumulator's entry plus the pair's contribution there. -/
theorem stepP_apply (a b : Vec Ideal S128x64x16 .f32) (acc : Vec Ideal S128x64 .f32) (r : Fin 128) (f : Fin 64) :
    stepP a b acc (ix2 r f) = acc (ix2 r f) + contrib a b r f := by
  rw [stepP_eq, shapeCast_self]
  refine congrArg (acc (ix2 r f) + ·) ?_
  have hlt : f.val < 64 := f.isLt
  obtain ⟨g, f', hf⟩ : ∃ (g : Fin 8) (f' : Fin 8), f.val = 8 * g.val + f'.val :=
    ⟨⟨f.val / 8, by omega⟩, ⟨f.val % 8, Nat.mod_lt _ (by omega)⟩, by show f.val = 8 * (f.val / 8) + f.val % 8; omega⟩
  match g, hf with
  | ⟨0, _⟩, hf => exact (piece_apply _ _ r f f' 0 (by show (0 : ℕ) < 8; omega) _ rfl rfl hf).trans (grp_contrib 0 _ a b r f' f hf)
  | ⟨1, _⟩, hf => exact (piece_apply _ _ r f f' 1 (by show (1 : ℕ) < 8; omega) _ rfl rfl hf).trans (grp_contrib 8 _ a b r f' f hf)
  | ⟨2, _⟩, hf => exact (piece_apply _ _ r f f' 2 (by show (2 : ℕ) < 8; omega) _ rfl rfl hf).trans (grp_contrib 16 _ a b r f' f hf)
  | ⟨3, _⟩, hf => exact (piece_apply _ _ r f f' 3 (by show (3 : ℕ) < 8; omega) _ rfl rfl hf).trans (grp_contrib 24 _ a b r f' f hf)
  | ⟨4, _⟩, hf => exact (piece_apply _ _ r f f' 4 (by show (4 : ℕ) < 8; omega) _ rfl rfl hf).trans (grp_contrib 32 _ a b r f' f hf)
  | ⟨5, _⟩, hf => exact (piece_apply _ _ r f f' 5 (by show (5 : ℕ) < 8; omega) _ rfl rfl hf).trans (grp_contrib 40 _ a b r f' f hf)
  | ⟨6, _⟩, hf => exact (piece_apply _ _ r f f' 6 (by show (6 : ℕ) < 8; omega) _ rfl rfl hf).trans (grp_contrib 48 _ a b r f' f hf)
  | ⟨7, _⟩, hf => exact (piece_apply _ _ r f f' 7 (by show (7 : ℕ) < 8; omega) _ rfl rfl hf).trans (grp_contrib 56 _ a b r f' f hf)

/-! ## The blocks as rows of the projected array

Point `t = 4·i + j` of the grid: the first input window holds rows `128·i + r`, the second rows `128·j + b2`,
the output window rows `128·i + r`, all features (and all 16 components) of them. -/

/-- The three windows' block indices at every grid point. -/
theorem idx1 : ∀ t : Fin grid1.N, (win1_0.index t 0 = t.val / 4 ∧ win1_0.index t 1 = 0 ∧ win1_0.index t 2 = 0)
    ∧ (win1_1.index t 0 = t.val % 4 ∧ win1_1.index t 1 = 0 ∧ win1_1.index t 2 = 0)
    ∧ (win1_2.index t 0 = t.val / 4 ∧ win1_2.index t 1 = 0) := by decide +kernel

section Blocks
variable {F : FTy → Type} [FloatOps F]
variable (V : (c : Dev nD) → (b : Ref sig .tc) → Buf (Elt F) ((c : Thread nD τ).loc b))

/-- The first window's block at point `t`, row `r`: row `128·(t / 4) + r` of the array. -/
theorem iblk1_0_apply (c : Dev nD) (t : Fin cfg1.N) (r : Fin 128) (f : Fin 64) (d : Fin 16) (p : Fin 512)
    (hp : p.val = 128 * (t.val / 4) + r.val) :
    (iblk1 V c 0 t : Vec F S128x64x16 .f32) (ix3 r f d) = V c main_v2 (ix3 p f d) := by
  unfold iblk1
  rw [View.read_apply]
  show V c main_v2 _ = V c main_v2 _
  refine congrArg (V c main_v2) ?_
  funext a; apply Fin.ext
  match a with
  | ⟨0, _⟩ => show win1_0.index t 0 * 128 + 1 * r.val = p.val; rw [(idx1 t).1.1]; omega
  | ⟨1, _⟩ => show win1_0.index t 1 * 64 + 1 * f.val = f.val; rw [(idx1 t).1.2.1]; omega
  | ⟨2, _⟩ => show win1_0.index t 2 * 16 + 1 * d.val = d.val; rw [(idx1 t).1.2.2]; omega

/-- The second window's block at point `t`, row `r`: row `128·(t % 4) + r` of the same array. -/
theorem iblk1_1_apply (c : Dev nD) (t : Fin cfg1.N) (r : Fin 128) (f : Fin 64) (d : Fin 16) (p : Fin 512)
    (hp : p.val = 128 * (t.val % 4) + r.val) :
    (iblk1 V c 1 t : Vec F S128x64x16 .f32) (ix3 r f d) = V c main_v2 (ix3 p f d) := by
  unfold iblk1
  rw [View.read_apply]
  show V c main_v2 _ = V c main_v2 _
  refine congrArg (V c main_v2) ?_
  funext a; apply Fin.ext
  match a with
  | ⟨0, _⟩ => show win1_1.index t 0 * 128 + 1 * r.val = p.val; rw [(idx1 t).2.1.1]; omega
  | ⟨1, _⟩ => show win1_1.index t 1 * 64 + 1 * f.val = f.val; rw [(idx1 t).2.1.2.1]; omega
  | ⟨2, _⟩ => show win1_1.index t 2 * 16 + 1 * d.val = d.val; rw [(idx1 t).2.1.2.2]; omega

end Blocks

/-! ## The accumulator after each point is the sum over the row blocks met so far -/

/-- One row's term of the similarity sum, on the naturals (zero past the array): row `n` against row `p`. -/
def G (M : Cert.L1Spec.ST.Idx → EReal) (p : Fin 512) (f : Fin 64) (n : ℕ) : EReal :=
  if h : n < 512 then Ideal.exp (0 - Cert.L1Spec.distAt M p ⟨n, h⟩ f) else 0

section Acc
variable (V : (c : Dev nD) → (b : Ref sig .tc) → Buf (Elt Ideal) ((c : Thread nD τ).loc b))

/-- The pair's contribution at point `t` is the terms of row block `t % 4`. -/
theorem contrib_blocks (c : Dev nD) (t : Fin cfg1.N) (r : Fin 128) (f : Fin 64) (p : Fin 512)
    (hp : p.val = 128 * (t.val / 4) + r.val) :
    contrib (iblk1 V c 0 t) (iblk1 V c 1 t) r f = ∑ b2 : Fin 128, G (V c main_v2) p f (128 * (t.val % 4) + b2.val) := by
  unfold contrib
  refine Finset.sum_congr rfl fun b2 _ => ?_
  have hlt : 128 * (t.val % 4) + b2.val < 512 := by have := b2.isLt; omega
  unfold G
  rw [dif_pos hlt]
  refine congrArg (fun z => Ideal.exp (0 - z)) ?_
  unfold Cert.L1Spec.distAt
  refine Finset.sum_congr rfl fun d _ => ?_
  rw [iblk1_0_apply V c t r f d p hp, iblk1_1_apply V c t b2 f d ⟨_, hlt⟩ rfl]

/-- THE INDUCTION over the points: after point `n = 4·i + j` the accumulator's entry at row `r`, feature `f` is
    the sum of the terms of the row blocks `0 … j` against row `128·i + r`. -/
theorem acc_eq (c : Dev nD) : ∀ (n : ℕ) (hn : n < cfg1.N) (r : Fin 128) (f : Fin 64) (p : Fin 512),
    p.val = 128 * (n / 4) + r.val →
    (outsAt1 V c n hn).2 (ix2 r f)
      = ∑ s ∈ Finset.range (n % 4 + 1), ∑ b2 : Fin 128, G (V c main_v2) p f (128 * s + b2.val)
  | 0, hn, r, f, p, hp => by
    rw [outsAt1_A V c ⟨0, hn⟩ rfl (by dsimp only; omega)]
    dsimp only
    rw [sout_A, stepP_apply, pay3_apply, zero_add, contrib_blocks V c ⟨0, hn⟩ r f p hp]
    exact (Finset.sum_range_one (fun s => ∑ b2 : Fin 128, G (V c main_v2) p f (128 * s + b2.val))).symm
  | n + 1, hn, r, f, p, hp => by
    have hN : cfg1.N = 16 := N_1
    by_cases h0 : (n + 1) % 4 = 0
    · rw [outsAt1_A V c ⟨n + 1, hn⟩ h0 (by dsimp only; omega)]
      dsimp only
      rw [sout_A, stepP_apply, pay3_apply, zero_add, contrib_blocks V c ⟨n + 1, hn⟩ r f p hp]
      dsimp only
      rw [h0, Finset.sum_range_one]
    · have hq : (n + 1) / 4 = n / 4 := by omega
      have hm : (n + 1) % 4 = n % 4 + 1 := by omega
      have ih := acc_eq c n (Nat.lt_of_succ_lt hn) r f p (by rw [hp, hq])
      have key : ∀ acc : Vec Ideal S128x64 .f32, acc = (outsAt1 V c n (Nat.lt_of_succ_lt hn)).2 →
          stepP (iblk1 V c 0 ⟨n + 1, hn⟩) (iblk1 V c 1 ⟨n + 1, hn⟩) acc (ix2 r f)
            = ∑ s ∈ Finset.range ((n + 1) % 4 + 1), ∑ b2 : Fin 128, G (V c main_v2) p f (128 * s + b2.val) := by
        intro acc hacc
        rw [stepP_apply, contrib_blocks V c ⟨n + 1, hn⟩ r f p hp, hacc, ih]
        dsimp only
        rw [hm, Finset.sum_range_succ _ (n % 4 + 1)]
      by_cases h1 : (n + 1) % 4 = 3
      · rw [outsAt1_C V c ⟨n + 1, hn⟩ h0 h1]
        dsimp only
        rw [sout_C]
        exact key _ rfl
      · rw [outsAt1_B V c ⟨n + 1, hn⟩ h0 h1]
        dsimp only
        rw [sout_B]
        exact key _ rfl

/-- The four row blocks of 128 rows are the 512 rows. -/
theorem G_sum (M : Cert.L1Spec.ST.Idx → EReal) (p : Fin 512) (f : Fin 64) :
    ∑ s ∈ Finset.range 4, ∑ b2 : Fin 128, G M p f (128 * s + b2.val)
      = ∑ b' : Fin 512, Ideal.exp (-(Cert.L1Spec.distAt M p b' f)) := by
  rw [Cert.TileSum.sum_tiles 4 128 (G M p f)]
  show ∑ b' : Fin 512, G M p f b'.val = _
  refine Finset.sum_congr rfl fun b' _ => ?_
  unfold G
  rw [dif_pos b'.isLt, zero_sub]

/-- At a point with `j = 3` the output block's entry is the similarity of its row. -/
theorem out_entry (c : Dev nD) (t : Fin cfg1.N) (h1 : t.val % 4 = 3) (r : Fin 128) (f : Fin 64) (p : Fin 512)
    (hp : p.val = 128 * (t.val / 4) + r.val) :
    (outsAt1 V c t.val t.isLt).1 (ix2 r f) = Cert.L1Spec.simAt (V c main_v2) p f := by
  have h0 : ¬t.val % 4 = 0 := by omega
  have hacc := acc_eq V c t.val t.isLt r f p hp
  rw [outsAt1_C V c t h0 h1] at hacc ⊢
  dsimp only at hacc ⊢
  rw [sout_C] at hacc
  rw [out_C, pay2_apply, hacc, h1]
  unfold Cert.L1Spec.simAt
  rw [G_sum]

end Acc

/-! ## The output array after the region -/

section Final
variable (V : (c : Dev nD) → (b : Ref sig .tc) → Buf (Elt Ideal) ((c : Thread nD τ).loc b))

/-- The whole similarity array, as contents of the output buffer. -/
def simBuf (c : Dev nD) : Buf (Elt Ideal) ((cfg1.win 2).arr.view.loc (c.tc : Thread nD τ)) :=
  Cert.L1Spec.sim (V c main_v2)

/-- The output window's block at point `t` reads rows `128·(t / 4) + r` of the output array. -/
theorem read_blk2 (c : Dev nD) (X : Buf (Elt Ideal) ((cfg1.win 2).arr.view.loc (c.tc : Thread nD τ))) (t : Fin cfg1.N)
    (r : Fin 128) (f : Fin 64) (p : Fin 512) (hp : p.val = 128 * (t.val / 4) + r.val) :
    ((cfg1.win 2).blk t).view.read (Elt Ideal) X (ix2 r f) = X (ix2 p f) := by
  rw [View.read_apply]
  show X _ = X _
  refine congrArg X ?_
  funext a; apply Fin.ext
  match a with
  | ⟨0, _⟩ => show win1_2.index t 0 * 128 + 1 * r.val = p.val; rw [(idx1 t).2.2.1]; omega
  | ⟨1, _⟩ => show win1_2.index t 1 * 64 + 1 * f.val = f.val; rw [(idx1 t).2.2.2]; omega

/-- Every write-back writes its block of the similarity array. -/
theorem flushed_eq (c : Dev nD) (t : Fin cfg1.N) (hf : (cfg1.win 2).flush t = true) :
    (dat1 V c).flushed 2 t = ((cfg1.win 2).blk t).view.read (Elt Ideal) (simBuf V c) := by
  have h1 : t.val % 4 = 3 := (flush1_2 t).mp hf
  funext y
  obtain ⟨r, f, rfl⟩ : ∃ (r : Fin 128) (f : Fin 64), y = ix2 r f := ⟨y 0, y 1, eq_ix2 y⟩
  have hN : cfg1.N = 16 := N_1
  have hlt : 128 * (t.val / 4) + r.val < 512 := by have := t.isLt; have := r.isLt; omega
  rw [read_blk2 c (simBuf V c) t r f ⟨_, hlt⟩ rfl]
  show (dat1 V c).after 2 t (ix2 r f) = Cert.L1Spec.sim (V c main_v2) (ix2 ⟨_, hlt⟩ f)
  rw [after1_2, Cert.L1Spec.sim_apply]
  exact out_entry V c t h1 r f ⟨_, hlt⟩ rfl

/-- The output window's transfers move whole blocks of 128 rows by 64 features. -/
theorem xs2 : ∀ t : Fin grid1.N, win1_2.xsize (grid1.coords t) 0 = 128 ∧ win1_2.xsize (grid1.coords t) 1 = 64
    ∧ win1_2.size 0 = 128 ∧ win1_2.size 1 = 64 := by decide +kernel

/-- Every row of the output array lies in the block written back at the last point of its row block. -/
theorem cover1_2 (c : Dev nD) (i : ((cfg1.win 2).arr.view.loc (c.tc : Thread nD τ)).2.ty.Idx) :
    ∃ t : Fin cfg1.N, (cfg1.win 2).flush t = true ∧ i ∈ ((cfg1.win 2).blk t).view.set := by
  have h0 : (i 0 : ℕ) < 512 := (i 0).isLt
  have h1 : (i 1 : ℕ) < 64 := (i 1).isLt
  have hN : cfg1.N = 16 := N_1
  have ht : 4 * ((i 0 : ℕ) / 128) + 3 < cfg1.N := by omega
  refine ⟨⟨4 * ((i 0 : ℕ) / 128) + 3, ht⟩, (flush1_2 _).mpr (by dsimp only; omega), ?_⟩
  generalize htt : (⟨4 * ((i 0 : ℕ) / 128) + 3, ht⟩ : Fin cfg1.N) = t
  have hv : t.val = 4 * ((i 0 : ℕ) / 128) + 3 := by rw [← htt]
  show i ∈ ((View.whole main_v3).slice (win1_2.rect t)).set
  rw [View.set_slice_whole, Rect.mem_set_unit]
  intro a
  match a with
  | ⟨0, _⟩ =>
    show win1_2.index t 0 * win1_2.size 0 ≤ (i 0 : ℕ) ∧ (i 0 : ℕ) < win1_2.index t 0 * win1_2.size 0 + win1_2.xsize (grid1.coords t) 0
    rw [(idx1 t).2.2.1, (xs2 t).1, (xs2 t).2.2.1, hv]; omega
  | ⟨1, _⟩ =>
    show win1_2.index t 1 * win1_2.size 1 ≤ (i 1 : ℕ) ∧ (i 1 : ℕ) < win1_2.index t 1 * win1_2.size 1 + win1_2.xsize (grid1.coords t) 1
    rw [(idx1 t).2.2.2, (xs2 t).2.1, (xs2 t).2.2.2]; omega

/-- The output array ends holding the similarity array. -/
theorem final_arr (c : Dev nD) : (dat1 V c).arrAt 2 cfg1.N = simBuf V c :=
  (dat1 V c).arrAt_eq_of_cover 2 (simBuf V c) (flushed_eq V c) (cover1_2 c)

/-- THE VALUE: after the region, entry `(b, f)` of the output array is the similarity of row `b` at feature `f`. -/
theorem final1 (c : Dev nD) (b : Fin 512) (f : Fin 64) :
    (dat1 (F := Ideal) V c).arrAt 2 cfg1.N (ValueIdx.ix2 b f) = Cert.L1Spec.simAt (V c main_v2) b f :=
  (congrFun (final_arr V c) (ix2 b f)).trans (Cert.L1Spec.sim_apply _ b f)

end Final

end Cert.KernelIdeal.HandValue1

end
-- ==== Proof.RefRun.lean ====
/-
  The reference program's run, read back as one function of its two arguments.

  The reference is a straight line of host operations: its @main's own twenty-seven and, at the one call it makes,
  the twenty-four of the standard deviation (the variance's twenty, the three of the selection it calls in turn,
  the square root), each listed at the call site over that call's buffers. Every weakly fair execution
  terminates, the result buffer holds the operations' composed term of the arguments, and the arguments are
  unchanged. The composed term is the shared host tail (the concatenation of x, a [512,64] block and the
  standard-deviation column) applied to the block the reference computes: the projection by one matrix product
  between two reshapes, the pairwise differences of its rows by two broadcasts each, the absolute values summed
  over the last axis, negated, exponentiated, summed over the FIRST row index, less one.
-/
import proofs.«131177_j17824114279178_2_alg».proof.Proof.Gen.ReferenceIdeal
import proofs.«131177_j17824114279178_2_alg».proof.Proof.SpecTail
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The reference's fifty-one operations, in order, the call unfolded. -/
abbrev ops : List (HloOp τ sig (Elt F)) :=
  [ reshape main_arg1 main_v0 rfl shapeCasts_S512x64x16_S512x1024,
    binary main_arg0 main_v0 main_v1 ((fun l r => Host.dotGeneral dot_S512x512_S512x1024_S512x1024_1_0_0_1_n_n none l r) : (⟨S512x512, .f32⟩ : BufTy).Contents (Elt F) → (⟨S512x1024, .f32⟩ : BufTy).Contents (Elt F) → (⟨S512x1024, .f32⟩ : BufTy).Contents (Elt F)),
    reshape main_v1 main_v2 rfl shapeCasts_S512x1024_S512x64x16,
    unary main_v2 main_v3 (broadcastInDim S512x1x64x16 ![0, 2, 3] bcast_S512x64x16_S512x1x64x16_0_2_3 : (⟨S512x64x16, .f32⟩ : BufTy).Contents (Elt F) → (⟨S512x1x64x16, .f32⟩ : BufTy).Contents (Elt F)),
    unary main_v2 main_v4 (broadcastInDim S1x512x64x16 ![1, 2, 3] bcast_S512x64x16_S1x512x64x16_1_2_3 : (⟨S512x64x16, .f32⟩ : BufTy).Contents (Elt F) → (⟨S1x512x64x16, .f32⟩ : BufTy).Contents (Elt F)),
    unary main_v3 main_v5 (broadcastInDim S512x512x64x16 ![0, 1, 2, 3] bcast_S512x1x64x16_S512x512x64x16_0_1_2_3 : (⟨S512x1x64x16, .f32⟩ : BufTy).Contents (Elt F) → (⟨S512x512x64x16, .f32⟩ : BufTy).Contents (Elt F)),
    unary main_v4 main_v6 (broadcastInDim S512x512x64x16 ![0, 1, 2, 3] bcast_S1x512x64x16_S512x512x64x16_0_1_2_3 : (⟨S1x512x64x16, .f32⟩ : BufTy).Contents (Elt F) → (⟨S512x512x64x16, .f32⟩ : BufTy).Contents (Elt F)),
    binary main_v5 main_v6 main_v7 (subf : (⟨S512x512x64x16, .f32⟩ : BufTy).Contents (Elt F) → (⟨S512x512x64x16, .f32⟩ : BufTy).Contents (Elt F) → (⟨S512x512x64x16, .f32⟩ : BufTy).Contents (Elt F)),
    unary main_v7 main_v8 (Host.absf : (⟨S512x512x64x16, .f32⟩ : BufTy).Contents (Elt F) → (⟨S512x512x64x16, .f32⟩ : BufTy).Contents (Elt F)),
    nullary main_cst (constant S_ .f32 0x00000000#32),
    binary main_v8 main_cst main_v9 ((fun x v => Host.reduceAdd x v reducesTo_S512x512x64x16_S512x512x64_d3 h_S_) : (⟨S512x512x64x16, .f32⟩ : BufTy).Contents (Elt F) → (⟨S_, .f32⟩ : BufTy).Contents (Elt F) → (⟨S512x512x64, .f32⟩ : BufTy).Contents (Elt F)),
    unary main_v9 main_v10 (Host.negf : (⟨S512x512x64, .f32⟩ : BufTy).Contents (Elt F) → (⟨S512x512x64, .f32⟩ : BufTy).Contents (Elt F)),
    unary main_v10 main_v11 (Host.exp : (⟨S512x512x64, .f32⟩ : BufTy).Contents (Elt F) → (⟨S512x512x64, .f32⟩ : BufTy).Contents (Elt F)),
    nullary main_cst_0 (constant S_ .f32 0x00000000#32),
    binary main_v11 main_cst_0 main_v12 ((fun x v => Host.reduceAdd x v reducesTo_S512x512x64_S512x64_d0 h_S_) : (⟨S512x512x64, .f32⟩ : BufTy).Contents (Elt F) → (⟨S_, .f32⟩ : BufTy).Contents (Elt F) → (⟨S512x64, .f32⟩ : BufTy).Contents (Elt F)),
    nullary main_cst_1 (constant S_ .f32 0x3F800000#32),
    unary main_cst_1 main_v13 (broadcastInDim S512x64 ![] bcast_S_S512x64 : (⟨S_, .f32⟩ : BufTy).Contents (Elt F) → (⟨S512x64, .f32⟩ : BufTy).Contents (Elt F)),
    binary main_v12 main_v13 main_v14 (subf : (⟨S512x64, .f32⟩ : BufTy).Contents (Elt F) → (⟨S512x64, .f32⟩ : BufTy).Contents (Elt F) → (⟨S512x64, .f32⟩ : BufTy).Contents (Elt F)),
    nullary main_c (constantI S_ 32 1#32),
    TRef.nullary main_call0.call0.cst (constant S_ .f32 0x00000000#32),
    TRef.binary (.of main_arg0 : TRef sig ⟨S512x512, .f32⟩) main_call0.call0.cst main_call0.call0.v0 (fun x v => Host.reduceAdd x v reducesTo_S512x512_S512_d0 h_S_),
    TRef.unary main_call0.call0.v0 main_call0.call0.v1 (broadcastInDim S1x512 ![1] bcast_S512_S1x512_1),
    TRef.nullary main_call0.call0.cst_0 (constant S_ .f32 0x44000000#32),
    TRef.unary main_call0.call0.cst_0 main_call0.call0.v2 (broadcastInDim S1x512 ![] bcast_S_S1x512),
    TRef.binary main_call0.call0.v1 main_call0.call0.v2 main_call0.call0.v3 Host.divf,
    TRef.unary main_call0.call0.v3 main_call0.call0.v4 (broadcastInDim S512x512 ![0, 1] bcast_S1x512_S512x512_0_1),
    TRef.binary (.of main_arg0 : TRef sig ⟨S512x512, .f32⟩) main_call0.call0.v4 main_call0.call0.v5 subf,
    TRef.binary main_call0.call0.v5 main_call0.call0.v5 main_call0.call0.v6 mulf,
    TRef.unary (.of main_c : TRef sig ⟨S_, .i32⟩) main_call0.call0.v7 (sitofp .f32),
    TRef.nullary main_call0.call0.cst_1 (constant S_ .f32 0x44000000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S512x512_S512_d0 h_S_),
    TRef.unary main_call0.call0.v9 main_call0.call0.v10 (broadcastInDim S1x512 ![1] bcast_S512_S1x512_1),
    TRef.unary main_call0.call0.v8 main_call0.call0.v11 (broadcastInDim S1x512 ![] bcast_S_S1x512),
    TRef.binary main_call0.call0.v10 main_call0.call0.v11 main_call0.call0.v12 Host.divf,
    TRef.nullary main_call0.call0.cst_3 (constant S_ .f32 0x00000000#32),
    TRef.binary main_call0.call0.v8 main_call0.call0.cst_3 main_call0.call0.v13 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S1x512 ![] bcast_S_S1x512),
    TRef.ternary main_call0.call0.v13 main_call0.call0.v12 main_call0.call0.call0.v1 main_call0.call0.call0.v2 (fun p a b => select (broadcastInDim S1x512 ![] bcast_S_S1x512 p) a b),
    TRef.unary main_call0.call0.call0.v2 main_call0.v1 Host.sqrt,
    nullary main_cst_2 (constant S_ .f32 0x00000000#32),
    binary main_v15 main_cst_2 main_v16 ((fun x v => Host.reduceAdd x v reducesTo_S1x512_S1_d1 h_S_) : (⟨S1x512, .f32⟩ : BufTy).Contents (Elt F) → (⟨S_, .f32⟩ : BufTy).Contents (Elt F) → (⟨S1, .f32⟩ : BufTy).Contents (Elt F)),
    unary main_v16 main_v17 (broadcastInDim S1x1 ![0] bcast_S1_S1x1_0 : (⟨S1, .f32⟩ : BufTy).Contents (Elt F) → (⟨S1x1, .f32⟩ : BufTy).Contents (Elt F)),
    nullary main_cst_3 (constant S_ .f32 0x44000000#32),
    unary main_cst_3 main_v18 (broadcastInDim S1x1 ![] bcast_S_S1x1 : (⟨S_, .f32⟩ : BufTy).Contents (Elt F) → (⟨S1x1, .f32⟩ : BufTy).Contents (Elt F)),
    binary main_v17 main_v18 main_v19 (Host.divf : (⟨S1x1, .f32⟩ : BufTy).Contents (Elt F) → (⟨S1x1, .f32⟩ : BufTy).Contents (Elt F) → (⟨S1x1, .f32⟩ : BufTy).Contents (Elt F)),
    unary main_v19 main_v20 (broadcastInDim S512x1 ![0, 1] bcast_S1x1_S512x1_0_1 : (⟨S1x1, .f32⟩ : BufTy).Contents (Elt F) → (⟨S512x1, .f32⟩ : BufTy).Contents (Elt F)),
    nary ![main_arg0, main_v14, main_v20] main_v21 (fun u => concatenate S512x577 1 [⟨S512x512, u 0⟩, ⟨S512x64, u 1⟩, ⟨S512x1, u 2⟩] concatenates_S512x512_S512x64_S512x1_S512x577_d1) ]

set_option maxRecDepth 2048 in
/-- @main is that straight line: the functions' definitions unfolded at their calls, both sides are one chain of
    steps once sequencing is reassociated. -/
theorem main_eq (c : Dev nD) : main (F := F) c = seq ops := by
  simp only [main, fn_std.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., binary_bufs_sub .., reshape_bufs_sub .., unary_bufs_sub .., unary_bufs_sub .., unary_bufs_sub ..,
    unary_bufs_sub .., binary_bufs_sub .., unary_bufs_sub .., nullary_bufs_sub .., binary_bufs_sub .., unary_bufs_sub ..,
    unary_bufs_sub .., nullary_bufs_sub .., binary_bufs_sub .., nullary_bufs_sub .., unary_bufs_sub .., binary_bufs_sub ..,
    nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub .., unary_bufs_sub ..,
    nullary_bufs_sub .., binary_bufs_sub .., unary_bufs_sub .., nullary_bufs_sub .., unary_bufs_sub .., binary_bufs_sub ..,
    unary_bufs_sub .., nary_bufs_sub ..⟩

/-- At the compiled mesh, from any memory with zero counters: every weakly fair execution of @main terminates, and
    every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The composed term -/

/-- The projection as the reference computes it: x times T read as [512,1024], read back as [512,64,16]. -/
def projRef (x : FVec Ideal S512x512 .f32) (T : FVec Ideal S512x64x16 .f32) : FVec Ideal S512x64x16 .f32 :=
  shapeCast S512x64x16
    (Host.dotGeneral (F := Ideal) dot_S512x512_S512x1024_S512x1024_1_0_0_1_n_n none x
      (shapeCast S512x1024 T shapeCasts_S512x64x16_S512x1024))
    shapeCasts_S512x1024_S512x64x16

/-- |M[a,f,d] − M[b,f,d]| for every pair of rows a, b, as the reference forms it by broadcasting M twice. -/
def absPair (M : FVec Ideal S512x64x16 .f32) : FVec Ideal S512x512x64x16 .f32 :=
  Host.absf (F := Ideal)
    (subf (F := Ideal)
      (broadcastInDim S512x512x64x16 ![0, 1, 2, 3] bcast_S512x1x64x16_S512x512x64x16_0_1_2_3
        (broadcastInDim S512x1x64x16 ![0, 2, 3] bcast_S512x64x16_S512x1x64x16_0_2_3 M))
      (broadcastInDim S512x512x64x16 ![0, 1, 2, 3] bcast_S1x512x64x16_S512x512x64x16_0_1_2_3
        (broadcastInDim S1x512x64x16 ![1, 2, 3] bcast_S512x64x16_S1x512x64x16_1_2_3 M)))

/-- The distances: the absolute differences summed over the last axis. -/
def distRef (M : FVec Ideal S512x64x16 .f32) : FVec Ideal S512x512x64 .f32 :=
  Host.reduceAdd (F := Ideal) (absPair M) (constant (F := Ideal) S_ .f32 0x00000000#32)
    reducesTo_S512x512x64x16_S512x512x64_d3 h_S_

/-- exp(−D) summed over the first row index. -/
def sumRef (M : FVec Ideal S512x64x16 .f32) : FVec Ideal S512x64 .f32 :=
  Host.reduceAdd (F := Ideal) (Host.exp (F := Ideal) (Host.negf (F := Ideal) (distRef M)))
    (constant (F := Ideal) S_ .f32 0x00000000#32) reducesTo_S512x512x64_S512x64_d0 h_S_

/-- The similarity block as the reference computes it from the projection: the sums less one. -/
def pairSim (M : FVec Ideal S512x64x16 .f32) : FVec Ideal S512x64 .f32 :=
  subf (F := Ideal) (sumRef M)
    (broadcastInDim S512x64 ![] bcast_S_S512x64 (constant (F := Ideal) S_ .f32 0x3F800000#32))

/-- The result as the reference computes it: the shared host tail over its similarity block. -/
def out (x : FVec Ideal S512x512 .f32) (T : FVec Ideal S512x64x16 .f32) : FVec Ideal S512x577 .f32 :=
  Cert.L1Spec.tail x (pairSim (projRef x T))

set_option maxHeartbeats 1000000 in
/-- The fold at the result buffer is that term of the arguments' contents. -/
theorem out_eq (V : Valuation τ sig (Elt Ideal)) :
    after ops V (main_v21 : DevRef τ sig) = out (V (main_arg0 : DevRef τ sig)) (V (main_arg1 : DevRef τ sig)) := by
  after_results_simp
  rfl

set_option maxHeartbeats 1000000 in
theorem arg0_eq (V : Valuation τ sig (Elt Ideal)) :
    after ops V (main_arg0 : DevRef τ sig) = V (main_arg0 : DevRef τ sig) := by
  after_results_simp

set_option maxHeartbeats 1000000 in
theorem arg1_eq (V : Valuation τ sig (Elt Ideal)) :
    after ops V (main_arg1 : DevRef τ sig) = V (main_arg1 : DevRef τ sig) := by
  after_results_simp

/-- At the compiled mesh, from any memory with zero counters: every weakly fair execution of the reference terminates
    with the result buffer at the composed term of the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v21) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v21).trans (out_eq _), (h c main_arg0).trans (arg0_eq _), (h c main_arg1).trans (arg1_eq _)⟩)
    (run_main m ρ)

end Cert.ReferenceIdeal.Hand

end
-- ==== Proof.RefValue.lean ====
/-
  The reference's result is the specification.

  The reference's composed term applies the shared host tail to the similarity block it computes; that block is the
  specification's, entry by entry. The projection: a host matrix product read at (b, n) is Σ_k x[b,k] · T'[k,n], and
  the reshapes before and after it identify column n with (n / 16, n % 16). The pairwise part: after the two pairs of
  broadcasts entry (a, b, f, d) of the difference is M[a,f,d] − M[b,f,d]; its absolute value is max of it and its
  negation; a host sum over one axis from the zero word is the plain sum over that axis' coordinate; so the first sum
  is the L1 distance D[a,b,f], and the second, over the FIRST row index a, is Σ_a exp(−D[a,b,f]), which is the
  specification's Σ_b' exp(−D[b,b',f]) because D is symmetric in its two rows on all extended reals.
-/
import proofs.«131177_j17824114279178_2_alg».proof.Proof.RefRun
import proofs.«131177_j17824114279178_2_alg».proof.Proof.ProjReshape
import proofs.«131177_j17824114279178_2_alg».proof.Proof.LibPlainDot
import Idealize.ShloMosaic.PureOps.Ideal.Laws
import Idealize.ShloMosaic.Lib.Pipeline.Value

noncomputable section

open scoped BigOperators

namespace Cert.ReferenceIdeal.Hand

open Cert.ReferenceIdeal Cert.ReferenceIdeal.Gen Idealize.ShloMosaic Idealize.ShloMosaic.ValueIdx Idealize.ShloMosaic.TcCoe
  Idealize.SL.Sem Cert.L1Spec

/-- The reference's projection is the specification's: the matrix product read at an index is the sum over k, and
    the two reshapes only rename the columns. -/
theorem projRef_eq (x : FVec Ideal S512x512 .f32) (T : FVec Ideal S512x64x16 .f32) : projRef x T = proj x T :=
  unflatten_dot_eq_proj x T _ _ _ fun b n =>
    Cert.PlainDot.dotGeneral_apply dot_S512x512_S512x1024_S512x1024_1_0_0_1_n_n rfl rfl rfl rfl rfl rfl none _ x _ b n

/-- Entry (a, b, f, d) of the broadcast difference is |M[a,f,d] − M[b,f,d]|: the first broadcast repeats M along a new
    second axis, the other along a new first axis. -/
theorem absPair_apply (M : FVec Ideal S512x64x16 .f32) (a b : Fin 512) (f : Fin 64) (d : Fin 16) :
    absPair M (ix4 a b f d) = absDiff (M (ix3 a f d)) (M (ix3 b f d)) := by
  have e1 : broadcastInDim S512x512x64x16 ![0, 1, 2, 3] bcast_S512x1x64x16_S512x512x64x16_0_1_2_3
        (broadcastInDim S512x1x64x16 ![0, 2, 3] bcast_S512x64x16_S512x1x64x16_0_2_3 M) (ix4 a b f d) = M (ix3 a f d) := by
    refine (broadcastInDim_apply _ _ _ (ix4 a b f d) (ix4 a (0 : Fin 1) f d) fun c => ?_).trans
      (broadcastInDim_apply _ _ M (ix4 a (0 : Fin 1) f d) (ix3 a f d) fun c => ?_)
    · match c with
      | ⟨0, _⟩ => rfl
      | ⟨1, _⟩ => rfl
      | ⟨2, _⟩ => rfl
      | ⟨3, _⟩ => rfl
    · match c with
      | ⟨0, _⟩ => rfl
      | ⟨1, _⟩ => rfl
      | ⟨2, _⟩ => rfl
  have e2 : broadcastInDim S512x512x64x16 ![0, 1, 2, 3] bcast_S1x512x64x16_S512x512x64x16_0_1_2_3
        (broadcastInDim S1x512x64x16 ![1, 2, 3] bcast_S512x64x16_S1x512x64x16_1_2_3 M) (ix4 a b f d) = M (ix3 b f d) := by
    refine (broadcastInDim_apply _ _ _ (ix4 a b f d) (ix4 (0 : Fin 1) b f d) fun c => ?_).trans
      (broadcastInDim_apply _ _ M (ix4 (0 : Fin 1) b f d) (ix3 b f d) fun c => ?_)
    · match c with
      | ⟨0, _⟩ => rfl
      | ⟨1, _⟩ => rfl
      | ⟨2, _⟩ => rfl
      | ⟨3, _⟩ => rfl
    · match c with
      | ⟨0, _⟩ => rfl
      | ⟨1, _⟩ => rfl
      | ⟨2, _⟩ => rfl
  show absDiff (broadcastInDim S512x512x64x16 ![0, 1, 2, 3] bcast_S512x1x64x16_S512x512x64x16_0_1_2_3
        (broadcastInDim S512x1x64x16 ![0, 2, 3] bcast_S512x64x16_S512x1x64x16_0_2_3 M) (ix4 a b f d))
      (broadcastInDim S512x512x64x16 ![0, 1, 2, 3] bcast_S1x512x64x16_S512x512x64x16_0_1_2_3
        (broadcastInDim S1x512x64x16 ![1, 2, 3] bcast_S512x64x16_S1x512x64x16_1_2_3 M) (ix4 a b f d)) = _
  rw [e1, e2]

/-- The sum over the last axis, from the zero word, is the L1 distance of rows a and b at feature f. -/
theorem distRef_apply (M : FVec Ideal S512x64x16 .f32) (a b : Fin 512) (f : Fin 64) :
    distRef M (ix3 a b f) = distAt M a b f := by
  have h : S512x512x64x16.Reduces [3] S512x512x64 := by decide
  refine (Ideal.hostReduceAdd_single reducesTo_S512x512x64x16_S512x512x64_d3 h (absPair M) _ (ix3 a b f)).trans ?_
  show Ideal.ofBits .f32 0x00000000#32 + _ = _
  rw [Ideal.ofBits_zero_f32, zero_add]
  unfold distAt
  refine Finset.sum_congr rfl fun d _ => ?_
  refine Eq.trans (congrArg (absPair M) ?_) (absPair_apply M a b f d)
  funext c
  match c with
  | ⟨0, _⟩ => rfl
  | ⟨1, _⟩ => rfl
  | ⟨2, _⟩ => rfl
  | ⟨3, _⟩ => rfl

/-- The sum over the FIRST row index, from the zero word, of exp(−D). -/
theorem sumRef_apply (M : FVec Ideal S512x64x16 .f32) (b : Fin 512) (f : Fin 64) :
    sumRef M (ix2 b f) = ∑ b' : Fin 512, Ideal.exp (-(distAt M b' b f)) := by
  have h : S512x512x64.Reduces [0] S512x64 := by decide
  refine (Ideal.hostReduceAdd_single reducesTo_S512x512x64_S512x64_d0 h _ _ (ix2 b f)).trans ?_
  show Ideal.ofBits .f32 0x00000000#32 + _ = _
  rw [Ideal.ofBits_zero_f32, zero_add]
  refine Finset.sum_congr rfl fun b' _ => ?_
  show Ideal.exp (-(distRef M (h.lift (ix2 b f) b'))) = _
  refine congrArg (fun t => Ideal.exp (-t)) ?_
  refine Eq.trans (congrArg (distRef M) ?_) (distRef_apply M b' b f)
  funext c
  match c with
  | ⟨0, _⟩ => rfl
  | ⟨1, _⟩ => rfl
  | ⟨2, _⟩ => rfl

/-- The reference's similarity block is the specification's: the distance being symmetric in its two rows, summing over
    the first row index or over the second gives the same entry. -/
theorem pairSim_eq (M : FVec Ideal S512x64x16 .f32) : pairSim M = sim M := by
  funext i
  obtain ⟨b, f, rfl⟩ : ∃ (b : Fin 512) (f : Fin 64), i = ix2 b f := ⟨i 0, i 1, eq_ix2 i⟩
  rw [sim_apply, ← simAt_swap, ← sumRef_apply]
  rfl

/-- The reference's composed term is the specification's result. -/
theorem out_eq_result (x : FVec Ideal S512x512 .f32) (T : FVec Ideal S512x64x16 .f32) : out x T = Cert.L1Spec.result x T := by
  unfold out Cert.L1Spec.result
  rw [projRef_eq, pairSim_eq]

/-- At the compiled mesh, from any memory with zero counters: every weakly fair execution of the reference terminates
    with the result buffer at the specification's result of the arguments and the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v21) = Cert.L1Spec.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (out_eq_result _ _), (h c).2⟩) (run m ρ)

end Cert.ReferenceIdeal.Hand

end
-- ==== Proof.lean ====
/-
  A minibatch-similarity layer. With x : [512,512] and T : [512,64,16] both programs compute

      M[b,f,d]  = Σ_k x[b,k] · T[k,f,d]
      sim[b,f]  = (Σ_b' exp (− Σ_d |M[b,f,d] − M[b',f,d]|)) − 1
      out       = [ x | sim | the mean over columns of the unbiased standard deviation of x, repeated down the rows ]

  over the extended reals. The kernel program takes M by a matrix product in row blocks of 256 (its roundings of the
  operands are the identity on the extended reals), then for each block of 128 rows accumulates, over the four blocks
  of 128 partner rows, the sums of exp (0 − Σ_d |·|) into a scratch buffer that starts at zero, and writes the
  accumulator less one at the last partner block; the reference forms all 512 × 512 pairs at once and sums over the
  FIRST row index. The two agree because the L1 distance is symmetric in its two rows on all extended reals, because
  a sum over 512 is the sum of its four tiles of 128 in any commutative monoid, and because 0 − d = −d and 0 + s = s;
  the last column is the same chain of host operations applied to the same x on both sides and is never opened.
  No step needs the inputs finite, so the precondition is not used.

  The three frames: each kernel program is run as its seven items (host stretches and the two regions) from the
  launch memory, every unscoped buffer held at a known valuation between items, and no item writes an argument;
  the reference is a straight line of host operations.
-/
import proofs.«131177_j17824114279178_2_alg».proof.Defs
import proofs.«131177_j17824114279178_2_alg».proof.Proof.Gen.Kernel
import proofs.«131177_j17824114279178_2_alg».proof.Proof.Gen.KernelIdeal
import proofs.«131177_j17824114279178_2_alg».proof.Proof.Gen.ReferenceIdeal
import proofs.«131177_j17824114279178_2_alg».proof.Proof.Gen.Pre_finite_inputs
import proofs.«131177_j17824114279178_2_alg».proof.Proof.KRun
import proofs.«131177_j17824114279178_2_alg».proof.Proof.KernelValue
import proofs.«131177_j17824114279178_2_alg».proof.Proof.Region1Value
import proofs.«131177_j17824114279178_2_alg».proof.Proof.RefValue

noncomputable section

namespace Cert.Proof

open Idealize.ShloMosaic Idealize.ShloMosaic.TcCoe Idealize.SL.Sem

/-- The word-level kernel program runs and leaves both arguments as launched. -/
theorem frame_k : @Cert.frame_Kernel Cert.Kernel.Gen.facts Cert.Pre_finite_inputs.Gen.facts := fun m ρ _ =>
  (θ_run (Cert.Kernel.defs (F := Bits)) _ _).mono
    (fun r h c => ⟨(h c _ (Cert.Kernel.Hand.mem_uc Cert.Kernel.main_arg0 (by decide))).trans (Cert.Kernel.Hand.U7_main_arg0 m c),
      (h c _ (Cert.Kernel.Hand.mem_uc Cert.Kernel.main_arg1 (by decide))).trans (Cert.Kernel.Hand.U7_main_arg1 m c)⟩)
    (Cert.Kernel.Hand.run_all (F := Bits) m ρ (fun V c => Cert.Kernel.Hand.body_obligation0 V c) (fun V c => Cert.Kernel.Hand.body_obligation1 V c))

/-- The idealized kernel program runs; every unscoped buffer ends at the last valuation. -/
theorem run_ki (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD, ∀ b ∈ Pipeline.ucRefs Cert.KernelIdeal.τ Cert.KernelIdeal.sig,
        r.2.mem (((c : Thread Cert.KernelIdeal.nD Cert.KernelIdeal.τ)).1, b) = Cert.KernelIdeal.Hand.U7 m c b) :=
  Cert.KernelIdeal.Hand.run_all (F := Ideal) m ρ (fun V c => Cert.KernelIdeal.Hand.body_obligation0 V c) (fun V c => Cert.KernelIdeal.Hand.body_obligation1 V c)

/-- The idealized kernel program runs and leaves both arguments as launched. -/
theorem frame_ki : @Cert.frame_KernelIdeal Cert.KernelIdeal.Gen.facts Cert.Pre_finite_inputs.Gen.facts := fun m ρ _ =>
  (θ_run (Cert.KernelIdeal.defs (F := Ideal)) _ _).mono
    (fun r h c => ⟨(h c _ (Cert.KernelIdeal.Hand.mem_uc Cert.KernelIdeal.main_arg0 (by decide))).trans (Cert.KernelIdeal.Hand.U7_main_arg0 m c),
      (h c _ (Cert.KernelIdeal.Hand.mem_uc Cert.KernelIdeal.main_arg1 (by decide))).trans (Cert.KernelIdeal.Hand.U7_main_arg1 m c)⟩)
    (run_ki m ρ)

/-- The reference runs and leaves both arguments as launched. -/
theorem frame_ri : @Cert.frame_ReferenceIdeal Cert.ReferenceIdeal.Gen.facts Cert.Pre_finite_inputs.Gen.facts := fun m ρ _ =>
  (θ_run (Cert.ReferenceIdeal.defs (F := Ideal)) _ _).mono (fun _ h c => (h c).2) (Cert.ReferenceIdeal.Hand.run_spec m ρ)

/-- Both idealized programs end with the same array: the layer's output as one function of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.L1Spec.result (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · exact (θ_run (Cert.KernelIdeal.defs (F := Ideal)) _ _).mono
      (fun r h c => ⟨(h c _ (Cert.KernelIdeal.Hand.mem_uc Cert.KernelIdeal.main_v10 (by decide))).trans (Cert.KernelIdeal.HandValue.result_eq m (fun V c b f => Cert.KernelIdeal.HandValue1.final1 V c b f) c),
        (h c _ (Cert.KernelIdeal.Hand.mem_uc Cert.KernelIdeal.main_arg0 (by decide))).trans (Cert.KernelIdeal.Hand.U7_main_arg0 m c),
        (h c _ (Cert.KernelIdeal.Hand.mem_uc Cert.KernelIdeal.main_arg1 (by decide))).trans (Cert.KernelIdeal.Hand.U7_main_arg1 m c)⟩)
      (run_ki m ρ)
  · refine (θ_run (Cert.ReferenceIdeal.defs (F := Ideal)) _ _).mono (fun r h c => ⟨?_, (h c).2.1, (h c).2.2⟩)
      (Cert.ReferenceIdeal.Hand.run_spec m' ρ')
    rw [(h c).1, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
